-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x32 : S_.BroadcastsInDim S11x32 (![] : Fin 0 → Fin S11x32.rank)
  reducesTo_S11x32_S_d0_1 : S11x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S16x1 .f32) (main_arg10 : FVec F S1 .f32) (main_v33 : IVec S_ 1) : IVec S_ 1 :=
  let main_v34 : FVec F S16x1 .f32 := Host.absf main_arg9
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S32x16 .f32) (main_arg8 : FVec F S16 .f32) (main_arg9 : FVec F S16x1 .f32) (main_arg10 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S100000x11 .f32) (main_arg1 : IVec S2x3200000 32) (main_arg2 : IVec S100000 32) (main_arg3 : FVec F S11x32 .f32) (main_arg4 : FVec F S32 .f32) (main_arg5 : FVec F S32x32 .f32) (main_arg6 : FVec F S32 .f32) (main_arg7 : FVec F S32x16 .f32) (main_arg8 : FVec F S16 .f32) (main_arg9 : FVec F S16x1 .f32) (main_arg10 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x32 .f32 := Host.absf main_arg3
  let main_cst_0 : FVec F S_ .f32 := constant S_ .f32 0x7F800000#32
  let main_v5 : FVec F S11x32 .f32 := broadcastInDim S11x32 ![] bcast_S_S11x32 main_cst_0
  let main_v6 : IVec S11x32 1 := cmpf .olt main_v4 main_v5
  let main_c_1 : IVec S_ 1 := constantI S_ 1 1#1
  let main_v7 : IVec S_ 1 := (fun x v => Host.reduce IntOp.andi x v reducesTo_S11x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x32 : Shape := ⟨2, ![100000, 32]⟩
abbrev S4000x11 : Shape := ⟨2, ![4000, 11]⟩
abbrev S4000x1 : Shape := ⟨2, ![4000, 1]⟩
abbrev S4000x32 : Shape := ⟨2, ![4000, 32]⟩
abbrev S3200000x32 : Shape := ⟨2, ![3200000, 32]⟩
abbrev S1x32 : Shape := ⟨2, ![1, 32]⟩
abbrev S4000x16 : Shape := ⟨2, ![4000, 16]⟩
abbrev S1x16 : Shape := ⟨2, ![1, 16]⟩
abbrev S1x1 : Shape := ⟨2, ![1, 1]⟩

abbrev nBuf : Space → Nat
  | .hbm => 60
  | .vmem => 30
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S100000, .i32⟩
  | .hbm, ⟨3, _⟩ => ⟨S11x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x32, .bf16⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x32, .bf16⟩
  | .hbm, ⟨38, _⟩ => ⟨S3200000x32, .f32⟩
  | .hbm, ⟨39, _⟩ => ⟨S_, .f32⟩
  | .hbm, ⟨40, _⟩ => ⟨S100000x32, .f32⟩
  | .hbm, ⟨41, _⟩ => ⟨S3200000x1, .i32⟩
  | .hbm, ⟨42, _⟩ => ⟨S100000x32, .f32⟩
  | .hbm, ⟨43, _⟩ => ⟨S100000x32, .bf16⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x32, .bf16⟩
  | .hbm, ⟨53, _⟩ => ⟨S3200000x32, .f32⟩
  | .hbm, ⟨54, _⟩ => ⟨S_, .f32⟩
  | .hbm, ⟨55, _⟩ => ⟨S100000x32, .f32⟩
  | .hbm, ⟨56, _⟩ => ⟨S3200000x1, .i32⟩
  | .hbm, ⟨57, _⟩ => ⟨S100000x32, .f32⟩
  | .hbm, ⟨58, _⟩ => ⟨S100000x1, .f32⟩
  | .hbm, ⟨59, _⟩ => ⟨S100000, .f32⟩
  | .local _ .vmem, ⟨0, _⟩ => ⟨S4000x11, .f32⟩
  | .local _ .vmem, ⟨1, _⟩ => ⟨S4000x11, .f32⟩
  | .local _ .vmem, ⟨2, _⟩ => ⟨S11x32, .f32⟩
  | .local _ .vmem, ⟨3, _⟩ => ⟨S4000x1, .f32⟩
  | .local _ .vmem, ⟨4, _⟩ => ⟨S4000x1, .f32⟩
  | .local _ .vmem, ⟨5, _⟩ => ⟨S4000x32, .bf16⟩
  | .local _ .vmem, ⟨6, _⟩ => ⟨S4000x32, .bf16⟩
  | .local _ .vmem, ⟨7, _⟩ => ⟨S4000x32, .f32⟩
  | .local _ .vmem, ⟨8, _⟩ => ⟨S4000x32, .f32⟩
  | .local _ .vmem, ⟨9, _⟩ => ⟨S4000x32, .bf16⟩
  | .local _ .vmem, ⟨10, _⟩ => ⟨S4000x32, .bf16⟩
  | .local _ .vmem, ⟨11, _⟩ => ⟨S4000x1, .f32⟩
  | .local _ .vmem, ⟨12, _⟩ => ⟨S4000x1, .f32⟩
  | .local _ .vmem, ⟨13, _⟩ => ⟨S32, .f32⟩
  | .local _ .vmem, ⟨14, _⟩ => ⟨S32x32, .f32⟩
  | .local _ .vmem, ⟨15, _⟩ => ⟨S4000x32, .bf16⟩
  | .local _ .vmem, ⟨16, _⟩ => ⟨S4000x32, .bf16⟩
  | .local _ .vmem, ⟨17, _⟩ => ⟨S4000x32, .f32⟩
  | .local _ .vmem, ⟨18, _⟩ => ⟨S4000x32, .f32⟩
  | .local _ .vmem, ⟨19, _⟩ => ⟨S4000x32, .bf16⟩
  | .local _ .vmem, ⟨20, _⟩ => ⟨S4000x32, .bf16⟩
  | .local _ .vmem, ⟨21, _⟩ => ⟨S4000x1, .f32⟩
  | .local _ .vmem, ⟨22, _⟩ => ⟨S4000x1, .f32⟩
  | .local _ .vmem, ⟨23, _⟩ => ⟨S32, .f32⟩
  | .local _ .vmem, ⟨24, _⟩ => ⟨S32x16, .f32⟩
  | .local _ .vmem, ⟨25, _⟩ => ⟨S16, .f32⟩
  | .local _ .vmem, ⟨26, _⟩ => ⟨S16x1, .f32⟩
  | .local _ .vmem, ⟨27, _⟩ => ⟨S1, .f32⟩
  | .local _ .vmem, ⟨28, _⟩ => ⟨S4000x1, .f32⟩
  | .local _ .vmem, ⟨29, _⟩ => ⟨S4000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x11_S4000x11_0_0 : ∀ a, (![0, 0] : Fin 2 → Nat) a + S4000x11.size a ≤ S4000x11.size a
  h_S4000x11 : 0 < S4000x11.numel
  bitsLt_bf16_f32 : FTy.bits .bf16 < FTy.bits .f32
  inb_S11x32_S11x32_0_0 : ∀ a, (![0, 0] : Fin 2 → Nat) a + S11x32.size a ≤ S11x32.size a
  h_S11x32 : 0 < S11x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S4000x32_S4000x32 : S4000x32.ShapeCasts S4000x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  shapeCasts_S100000x1_S100000 : S100000x1.ShapeCasts S100000
  scatter_S100000_S3200000x1_S3200000_n_0_0_1_wf : ScatterDims.WF S100000 S3200000x1 S3200000 [] [0] [0] 1
  dot_S4000x11_S11x32_S4000x32_1_0_0_1_n_n_wf : DotDims.WF S4000x11 S11x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4000x32_S32x32_S4000x32_1_0_0_1_n_n_wf : DotDims.WF S4000x32 S32x32 S4000x32 [1] [0] [0] [1] [] []
  dot_S4000x32_S32x16_S4000x16_1_0_0_1_n_n_wf : DotDims.WF S4000x32 S32x16 S4000x16 [1] [0] [0] [1] [] []
  dot_S4000x16_S16x1_S4000x1_1_0_0_1_n_n_wf : DotDims.WF S4000x16 S16x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x11.size a ≤ S100000x11.size a
  hwx0_0 : ∀ i : grid0.Coords, EltTy.bits .f32 = 32 ∨ (Rect.block (s := S100000x11) S4000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x32.size a ≤ S11x32.size a
  hwx0_1 : ∀ i : grid0.Coords, EltTy.bits .f32 = 32 ∨ (Rect.block (s := S11x32) S11x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S100000x32.size a
  hwx0_3 : ∀ i : grid0.Coords, EltTy.bits .bf16 = 32 ∨ (Rect.block (s := S100000x32) S4000x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .bf16 = 32 ∨ (Rect.block (s := S100000x32) S4000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S100000x32.size a
  hwx1_5 : ∀ i : grid1.Coords, EltTy.bits .bf16 = 32 ∨ (Rect.block (s := S100000x32) S4000x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S100000x32.size a
  hwx2_1 : ∀ i : grid2.Coords, EltTy.bits .bf16 = 32 ∨ (Rect.block (s := S100000x32) S4000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x16.size a ≤ S32x16.size a
  hwx2_4 : ∀ i : grid2.Coords, EltTy.bits .f32 = 32 ∨ (Rect.block (s := S32x16) S32x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16.size a ≤ S16.size a
  hwx2_5 : ∀ i : grid2.Coords, EltTy.bits .f32 = 32 ∨ (Rect.block (s := S16) S16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x1.size a ≤ S16x1.size a
  hwx2_6 : ∀ i : grid2.Coords, EltTy.bits .f32 = 32 ∨ (Rect.block (s := S16x1) S16x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x1.size a ≤ S100000x1.size a
  hwx2_8 : ∀ i : grid2.Coords, EltTy.bits .f32 = 32 ∨ (Rect.block (s := S100000x1) S4000x1.size (cc2_transform_8 i) (hinb2_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x11_S11x32_S4000x32_1_0_0_1_n_n : DotDims S4000x11 S11x32 S4000x32 where
  lhsContracting := [1]
  rhsContracting := [0]
  lhsNonContracting := [0]
  rhsNonContracting := [1]
  lhsBatch := []
  rhsBatch := []
  wf := dot_S4000x11_S11x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf

abbrev win0_0 : Pipeline.Window sig grid0 :=
  Pipeline.Window.ofSpec (Memref.whole main_arg0) S4000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S32x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S16x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v38) S4000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S100000 : Shape := ⟨1, ![100000]⟩
abbrev S11x32 : Shape := ⟨2, ![11, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S100000, .i32⟩
  | .hbm, ⟨3, _⟩ => ⟨S11x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x32, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x32, .f32⟩
  | .hbm, ⟨55, _⟩ => ⟨S3300000x32, .f32⟩
  | .hbm, ⟨56, _⟩ => ⟨S3300000x32, .f32⟩
  | .hbm, ⟨57, _⟩ => ⟨S_, .f32⟩
  | .hbm, ⟨58, _⟩ => ⟨S100000x32, .f32⟩
  | .hbm, ⟨59, _⟩ => ⟨S3300000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x32, .f32⟩
  | .hbm, ⟨78, _⟩ => ⟨S3300000x32, .f32⟩
  | .hbm, ⟨79, _⟩ => ⟨S3300000x32, .f32⟩
  | .hbm, ⟨80, _⟩ => ⟨S_, .f32⟩
  | .hbm, ⟨81, _⟩ => ⟨S100000x32, .f32⟩
  | .hbm, ⟨82, _⟩ => ⟨S3300000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .hbm, ⟨87, _⟩ => ⟨S_, .f32⟩
  | .hbm, ⟨88, _⟩ => ⟨S100000x32, .f32⟩
  | .hbm, ⟨89, _⟩ => ⟨S100000x32, .f32⟩
  | .hbm, ⟨90, _⟩ => ⟨S100000x16, .f32⟩
  | .hbm, ⟨91, _⟩ => ⟨S1x16, .f32⟩
  | .hbm, ⟨92, _⟩ => ⟨S100000x16, .f32⟩
  | .hbm, ⟨93, _⟩ => ⟨S100000x16, .f32⟩
  | .hbm, ⟨94, _⟩ => ⟨S_, .f32⟩
  | .hbm, ⟨95, _⟩ => ⟨S100000x16, .f32⟩
  | .hbm, ⟨96, _⟩ => ⟨S100000x16, .i1⟩
  | .hbm, ⟨97, _⟩ => ⟨S_, .f32⟩
  | .hbm, ⟨98, _⟩ => ⟨S100000x16, .f32⟩
  | .hbm, ⟨99, _⟩ => ⟨S100000x16, .i1⟩
  | .hbm, ⟨100, _⟩ => ⟨S_, .f32⟩
  | .hbm, ⟨101, _⟩ => ⟨S_, .f32⟩
  | .hbm, ⟨102, _⟩ => ⟨S100000x16, .f32⟩
  | .hbm, ⟨103, _⟩ => ⟨S100000x16, .f32⟩
  | .hbm, ⟨104, _⟩ => ⟨S100000x16, .f32⟩
  | .hbm, ⟨105, _⟩ => ⟨S_, .f32⟩
  | .hbm, ⟨106, _⟩ => ⟨S100000x16, .f32⟩
  | .hbm, ⟨107, _⟩ => ⟨S100000x16, .f32⟩
  | .hbm, ⟨108, _⟩ => ⟨S100000x16, .f32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_cst_0 : Ref sig .tc := ⟨.hbm, 97, rfl⟩
abbrev main_call2_v2 : Ref sig .tc := ⟨.hbm, 98, rfl⟩
abbrev main_call2_v3 : Ref sig .tc := ⟨.hbm, 99, rfl⟩
abbrev main_call2_cst_1 : Ref sig .tc := ⟨.hbm, 100, rfl⟩
abbrev main_call2_call0_v0 : Ref sig .tc := ⟨.hbm, 101, rfl⟩
abbrev main_call2_call0_v1 : Ref sig .tc := ⟨.hbm, 102, rfl⟩
abbrev main_call2_v4 : Ref sig .tc := ⟨.hbm, 103, rfl⟩
abbrev main_call2_v5 : Ref sig .tc := ⟨.hbm, 104, rfl⟩
abbrev main_call2_cst_2 : Ref sig .tc := ⟨.hbm, 105, rfl⟩
abbrev main_call2_v6 : Ref sig .tc := ⟨.hbm, 106, rfl⟩
abbrev main_call2_v7 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x11_S11x32_S100000x32_1_0_0_1_n_n_wf : DotDims.WF S100000x11 S11x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []
  dot_S100000x16_S16x1_S100000x1_1_0_0_1_n_n_wf : DotDims.WF S100000x16 S16x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x11_S11x32_S100000x32_1_0_0_1_n_n : DotDims S100000x11 S11x32 S100000x32 where
  lhsContracting := [1]
  rhsContracting := [0]
  lhsNonContracting := [0]
  rhsNonContracting := [1]
  lhsBatch := []
  rhsBatch := []
  wf := dot_S100000x11_S11x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KRun.lean ====
/-
  The kernel program's run with its result named: from any memory with zero counters, every weakly fair execution of
  @main on the TensorCores terminates, nothing faulting, and every final state has the result buffer at the last
  boundary's contents (the fold of buffer contents through @main's host stretches and regions) and the argument arrays
  as launched. The run is the frame certificate's: its segments, its thread states, its launch; the last thread state,
  which holds every unscoped buffer at the last boundary's contents, is read at the result buffer as well as at the
  arguments.
-/
import proofs.«147412_j74826920231167_2_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents and each argument array as launched. -/
theorem run_val : θ_run (defs (F := Ideal)) (onTc (τ := τ) (main (F := Ideal))) ⟨m, fun _ => 0, ρ⟩ (fun r => ∀ c : Dev nD,
      r.2.mem ((c.tc : Thread nD τ).loc main_v39) = Gen.W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.KRun

end
-- ==== Proof.KTerm.lean ====
/-
  The host stretches of the kernel program's @main as functions of what they read, at the ideal instance: the
  inverse square root of one plus each node's in-degree (the degree a histogram of the edge list's second row), as a
  column; and one round of message passing — each edge's source row gathered (a negative source index wrapped by
  the node count), widened, and added into its destination row of a zero array.
-/
import proofs.«147412_j74826920231167_2_alg».proof.KernelIdeal
import Idealize.ShloMosaic.PureOps.Ideal

noncomputable section

namespace Cert.KernelIdeal.KTerm

open Idealize.ShloMosaic Idealize.SL.Sem
open Cert.KernelIdeal Cert.KernelIdeal.Facts₀ Cert.KernelIdeal.Facts

variable [Facts]

/-- The edge list's first row and its second, each as a vector over the edges. -/
def edgeRow0 (ei : (⟨S2x3200000, .i32⟩ : BufTy).Contents (Elt Ideal)) : (⟨S3200000, .i32⟩ : BufTy).Contents (Elt Ideal) :=
  shapeCast S3200000 (extractStridedSlice S1x3200000 ![0, 0] ei slices_S2x3200000_S1x3200000_0_0) shapeCasts_S1x3200000_S3200000
def edgeRow1 (ei : (⟨S2x3200000, .i32⟩ : BufTy).Contents (Elt Ideal)) : (⟨S3200000, .i32⟩ : BufTy).Contents (Elt Ideal) :=
  shapeCast S3200000 (extractStridedSlice S1x3200000 ![1, 0] ei slices_S2x3200000_S1x3200000_1_0) shapeCasts_S1x3200000_S3200000

/-- `(1 + deg)^(-1/2)` as a column: `deg` the scatter-add of ones into zeros through the edge list's second row. -/
def dinv (ei : (⟨S2x3200000, .i32⟩ : BufTy).Contents (Elt Ideal)) : (⟨S100000x1, .f32⟩ : BufTy).Contents (Elt Ideal) :=
  shapeCast S100000x1
    (Host.rsqrt (F := Ideal)
      (addf (F := Ideal)
        (Host.scatterAdd (F := Ideal) scatter_S100000_S3200000x1_S3200000_n_0_0_1
          (broadcastInDim S100000 ![] bcast_S_S100000 (constant (F := Ideal) S_ .f32 0x00000000#32))
          (broadcastInDim S3200000x1 ![0] bcast_S3200000_S3200000x1_0 (edgeRow1 ei))
          (broadcastInDim S3200000 ![] bcast_S_S3200000 (constant (F := Ideal) S_ .f32 0x3F800000#32)))
        (broadcastInDim S100000 ![] bcast_S_S100000 (constant (F := Ideal) S_ .f32 0x3F800000#32))))
    shapeCasts_S100000_S100000x1

/-- A vector of node indices with a negative entry wrapped by the node count. -/
def wrapped (r0 : (⟨S3200000, .i32⟩ : BufTy).Contents (Elt Ideal)) : (⟨S3200000, .i32⟩ : BufTy).Contents (Elt Ideal) :=
  select
    (cmpi .slt r0 (broadcastInDim S3200000 ![] bcast_S_S3200000 (constantI S_ 32 0#32)))
    (addi r0 (broadcastInDim S3200000 ![] bcast_S_S3200000 (constantI S_ 32 100000#32)))
    r0

/-- One round of message passing over source indices `r0` and destination indices `r1`: rows of `xs` gathered at the
    wrapped sources, widened, scatter-added into zeros through the destinations as read. -/
def scatOf (r0 r1 : (⟨S3200000, .i32⟩ : BufTy).Contents (Elt Ideal)) (xs : (⟨S100000x32, .bf16⟩ : BufTy).Contents (Elt Ideal)) :
    (⟨S100000x32, .f32⟩ : BufTy).Contents (Elt Ideal) :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 r1)
    (extf (F := Ideal) .f32
      (Host.gather gather_S100000x32_S3200000x1_S3200000x32_1_0_n_n_0_1_132 xs
        (broadcastInDim S3200000x1 ![0] bcast_S3200000_S3200000x1_0 (wrapped r0)))
      bitsLt_bf16_f32)

/-- One round of message passing along the edge list: sources its first row, destinations its second. -/
def scat (ei : (⟨S2x3200000, .i32⟩ : BufTy).Contents (Elt Ideal)) (xs : (⟨S100000x32, .bf16⟩ : BufTy).Contents (Elt Ideal)) :
    (⟨S100000x32, .f32⟩ : BufTy).Contents (Elt Ideal) :=
  scatOf (edgeRow0 ei) (edgeRow1 ei) xs

end Cert.KernelIdeal.KTerm

end
-- ==== Proof.KThread.lean ====
/-
  The buffer contents threaded through the kernel program's @main: what each region finds in the buffers it reads, and
  the result. At a region's entry an argument array holds its launch contents (no host operation and no region writes
  it); the column of inverse square roots of the degrees and the two rows of the edge list hold what the first host
  stretch computed from the edge list, which no later stretch or region writes; a region's output array holds what the
  region's write-backs leave, and the next stretch's message-passing round is computed from it.
-/
import proofs.«147412_j74826920231167_2_alg».proof.Proof.Gen.KernelIdeal.Frame
import proofs.«147412_j74826920231167_2_alg».proof.Proof.KTerm
import Idealize.ShloMosaic.Lib.StableHlo.Run
import Idealize.ShloMosaic.PureOps.Ideal

set_option maxRecDepth 16384

noncomputable section

namespace Cert.KernelIdeal.KThread

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A buffer none of a stretch's operations writes holds after the stretch what it held before. -/
macro "not_written " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Region 0's output array. -/
abbrev arr0 (c : Dev nD) := (dat0 (V1 m ρ) c).arrAt 3 cfg0.N
/-- Region 1's output array. -/
abbrev arr1 (c : Dev nD) := (dat1 (V3 m ρ) c).arrAt 5 cfg1.N
/-- Region 2's output array. -/
abbrev arr2 (c : Dev nD) := (dat2 (V5 m ρ) c).arrAt 8 cfg2.N

variable (c : Dev nD)

/-! ## After the first host stretch (region 0's entry) -/

theorem W1_v1 : W1 m ρ c (Proc.devRef .tc main_v1) = KTerm.edgeRow0 (m ((c : Thread nD τ).loc main_arg1)) := by
  show StableHlo.after hostOps0 (W0 m ρ c) (Proc.devRef .tc main_v1) = _
  after_results
  rfl
theorem W1_v3 : W1 m ρ c (Proc.devRef .tc main_v3) = KTerm.edgeRow1 (m ((c : Thread nD τ).loc main_arg1)) := by
  show StableHlo.after hostOps0 (W0 m ρ c) (Proc.devRef .tc main_v3) = _
  after_results
  rfl
theorem W1_v13 : W1 m ρ c (Proc.devRef .tc main_v13) = KTerm.dinv (m ((c : Thread nD τ).loc main_arg1)) := by
  show StableHlo.after hostOps0 (W0 m ρ c) (Proc.devRef .tc main_v13) = _
  after_results
  rfl

/-! ## Region 0's entry -/

theorem V1_arg0 : V1 m ρ c main_arg0 = m ((c : Thread nD τ).loc main_arg0) :=
  calc W1 m ρ c (Proc.devRef .tc main_arg0)
    _ = W0 m ρ c (Proc.devRef .tc main_arg0) := by not_written hostOps0
    _ = m ((c : Thread nD τ).loc main_arg0) := rfl
theorem V1_arg3 : V1 m ρ c main_arg3 = m ((c : Thread nD τ).loc main_arg3) :=
  calc W1 m ρ c (Proc.devRef .tc main_arg3)
    _ = W0 m ρ c (Proc.devRef .tc main_arg3) := by not_written hostOps0
    _ = m ((c : Thread nD τ).loc main_arg3) := rfl
theorem V1_v13 : V1 m ρ c main_v13 = KTerm.dinv (m ((c : Thread nD τ).loc main_arg1)) := W1_v13 m ρ c

/-! ## Region 0's exit: its output array at what its write-backs leave, its input column as entered, the edge list's
    rows (which it does not own) as entered -/

theorem W2_v1 : W2 m ρ c (Proc.devRef .tc main_v1) = KTerm.edgeRow0 (m ((c : Thread nD τ).loc main_arg1)) :=
  (W2_of_ne m ρ c main_v1 (by decide)).trans (W1_v1 m ρ c)
theorem W2_v3 : W2 m ρ c (Proc.devRef .tc main_v3) = KTerm.edgeRow1 (m ((c : Thread nD τ).loc main_arg1)) :=
  (W2_of_ne m ρ c main_v3 (by decide)).trans (W1_v3 m ρ c)
theorem W2_v13 : W2 m ρ c (Proc.devRef .tc main_v13) = KTerm.dinv (m ((c : Thread nD τ).loc main_arg1)) :=
  ((W2_arr m ρ c 2).trans (((dat0 (V1 m ρ) c).arrAt_in 2 rfl _).trans (A_eq0 (V1 m ρ) c 2))).trans (W1_v13 m ρ c)
theorem W2_v14 : W2 m ρ c (Proc.devRef .tc main_v14) = arr0 m ρ c := W2_arr m ρ c 3

/-! ## After the second host stretch (region 1's entry) -/

theorem W3_v1 : W3 m ρ c (Proc.devRef .tc main_v1) = KTerm.edgeRow0 (m ((c : Thread nD τ).loc main_arg1)) :=
  calc W3 m ρ c (Proc.devRef .tc main_v1)
    _ = W2 m ρ c (Proc.devRef .tc main_v1) := by not_written hostOps1
    _ = _ := W2_v1 m ρ c
theorem W3_v3 : W3 m ρ c (Proc.devRef .tc main_v3) = KTerm.edgeRow1 (m ((c : Thread nD τ).loc main_arg1)) :=
  calc W3 m ρ c (Proc.devRef .tc main_v3)
    _ = W2 m ρ c (Proc.devRef .tc main_v3) := by not_written hostOps1
    _ = _ := W2_v3 m ρ c
theorem V3_v13 : V3 m ρ c main_v13 = KTerm.dinv (m ((c : Thread nD τ).loc main_arg1)) :=
  calc W3 m ρ c (Proc.devRef .tc main_v13)
    _ = W2 m ρ c (Proc.devRef .tc main_v13) := by not_written hostOps1
    _ = _ := W2_v13 m ρ c
theorem V3_v14 : V3 m ρ c main_v14 = arr0 m ρ c :=
  calc W3 m ρ c (Proc.devRef .tc main_v14)
    _ = W2 m ρ c (Proc.devRef .tc main_v14) := by not_written hostOps1
    _ = _ := W2_v14 m ρ c
/-- The stretch's round of message passing, from the buffers it reads as the stretch finds them. -/
theorem W3_v25_of : W3 m ρ c (Proc.devRef .tc main_v25)
    = KTerm.scatOf (W2 m ρ c (Proc.devRef .tc main_v1)) (W2 m ρ c (Proc.devRef .tc main_v3)) (W2 m ρ c (Proc.devRef .tc main_v14)) := by
  show StableHlo.after hostOps1 (W2 m ρ c) (Proc.devRef .tc main_v25) = _
  after_results
  rfl
theorem V3_v25 : V3 m ρ c main_v25 = KTerm.scat (m ((c : Thread nD τ).loc main_arg1)) (arr0 m ρ c) := by
  refine (W3_v25_of m ρ c).trans ?_
  rw [W2_v1 m ρ c, W2_v3 m ρ c, W2_v14 m ρ c]
  rfl
theorem V3_arg4 : V3 m ρ c main_arg4 = m ((c : Thread nD τ).loc main_arg4) :=
  calc W3 m ρ c (Proc.devRef .tc main_arg4)
    _ = W2 m ρ c (Proc.devRef .tc main_arg4) := by not_written hostOps1
    _ = W1 m ρ c (Proc.devRef .tc main_arg4) := W2_of_ne m ρ c main_arg4 (by decide)
    _ = W0 m ρ c (Proc.devRef .tc main_arg4) := by not_written hostOps0
    _ = m ((c : Thread nD τ).loc main_arg4) := rfl
theorem V3_arg5 : V3 m ρ c main_arg5 = m ((c : Thread nD τ).loc main_arg5) :=
  calc W3 m ρ c (Proc.devRef .tc main_arg5)
    _ = W2 m ρ c (Proc.devRef .tc main_arg5) := by not_written hostOps1
    _ = W1 m ρ c (Proc.devRef .tc main_arg5) := W2_of_ne m ρ c main_arg5 (by decide)
    _ = W0 m ρ c (Proc.devRef .tc main_arg5) := by not_written hostOps0
    _ = m ((c : Thread nD τ).loc main_arg5) := rfl

/-! ## Region 1's exit -/

theorem W4_v1 : W4 m ρ c (Proc.devRef .tc main_v1) = KTerm.edgeRow0 (m ((c : Thread nD τ).loc main_arg1)) :=
  (W4_of_ne m ρ c main_v1 (by decide)).trans (W3_v1 m ρ c)
theorem W4_v3 : W4 m ρ c (Proc.devRef .tc main_v3) = KTerm.edgeRow1 (m ((c : Thread nD τ).loc main_arg1)) :=
  (W4_of_ne m ρ c main_v3 (by decide)).trans (W3_v3 m ρ c)
theorem W4_v13 : W4 m ρ c (Proc.devRef .tc main_v13) = KTerm.dinv (m ((c : Thread nD τ).loc main_arg1)) :=
  ((W4_arr m ρ c 2).trans (((dat1 (V3 m ρ) c).arrAt_in 2 rfl _).trans (A_eq1 (V3 m ρ) c 2))).trans (V3_v13 m ρ c)
theorem W4_v26 : W4 m ρ c (Proc.devRef .tc main_v26) = arr1 m ρ c := W4_arr m ρ c 5

/-! ## After the third host stretch (region 2's entry) -/

theorem V5_v13 : V5 m ρ c main_v13 = KTerm.dinv (m ((c : Thread nD τ).loc main_arg1)) :=
  calc W5 m ρ c (Proc.devRef .tc main_v13)
    _ = W4 m ρ c (Proc.devRef .tc main_v13) := by not_written hostOps2
    _ = _ := W4_v13 m ρ c
theorem V5_v26 : V5 m ρ c main_v26 = arr1 m ρ c :=
  calc W5 m ρ c (Proc.devRef .tc main_v26)
    _ = W4 m ρ c (Proc.devRef .tc main_v26) := by not_written hostOps2
    _ = _ := W4_v26 m ρ c
/-- The stretch's round of message passing, from the buffers it reads as the stretch finds them. -/
theorem W5_v37_of : W5 m ρ c (Proc.devRef .tc main_v37)
    = KTerm.scatOf (W4 m ρ c (Proc.devRef .tc main_v1)) (W4 m ρ c (Proc.devRef .tc main_v3)) (W4 m ρ c (Proc.devRef .tc main_v26)) := by
  show StableHlo.after hostOps2 (W4 m ρ c) (Proc.devRef .tc main_v37) = _
  after_results
  rfl
theorem V5_v37 : V5 m ρ c main_v37 = KTerm.scat (m ((c : Thread nD τ).loc main_arg1)) (arr1 m ρ c) := by
  refine (W5_v37_of m ρ c).trans ?_
  rw [W4_v1 m ρ c, W4_v3 m ρ c, W4_v26 m ρ c]
  rfl
theorem V5_arg6 : V5 m ρ c main_arg6 = m ((c : Thread nD τ).loc main_arg6) :=
  calc W5 m ρ c (Proc.devRef .tc main_arg6)
    _ = W4 m ρ c (Proc.devRef .tc main_arg6) := by not_written hostOps2
    _ = W3 m ρ c (Proc.devRef .tc main_arg6) := W4_of_ne m ρ c main_arg6 (by decide)
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl
theorem V5_arg7 : V5 m ρ c main_arg7 = m ((c : Thread nD τ).loc main_arg7) :=
  calc W5 m ρ c (Proc.devRef .tc main_arg7)
    _ = W4 m ρ c (Proc.devRef .tc main_arg7) := by not_written hostOps2
    _ = W3 m ρ c (Proc.devRef .tc main_arg7) := W4_of_ne m ρ c main_arg7 (by decide)
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0
    _ = m ((c : Thread nD τ).loc main_arg7) := rfl
theorem V5_arg8 : V5 m ρ c main_arg8 = m ((c : Thread nD τ).loc main_arg8) :=
  calc W5 m ρ c (Proc.devRef .tc main_arg8)
    _ = W4 m ρ c (Proc.devRef .tc main_arg8) := by not_written hostOps2
    _ = W3 m ρ c (Proc.devRef .tc main_arg8) := W4_of_ne m ρ c main_arg8 (by decide)
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
    _ = m ((c : Thread nD τ).loc main_arg8) := rfl
theorem V5_arg9 : V5 m ρ c main_arg9 = m ((c : Thread nD τ).loc main_arg9) :=
  calc W5 m ρ c (Proc.devRef .tc main_arg9)
    _ = W4 m ρ c (Proc.devRef .tc main_arg9) := by not_written hostOps2
    _ = W3 m ρ c (Proc.devRef .tc main_arg9) := W4_of_ne m ρ c main_arg9 (by decide)
    _ = W2 m ρ c (Proc.devRef .tc main_arg9) := by not_written hostOps1
    _ = W1 m ρ c (Proc.devRef .tc main_arg9) := W2_of_ne m ρ c main_arg9 (by decide)
    _ = W0 m ρ c (Proc.devRef .tc main_arg9) := by not_written hostOps0
    _ = m ((c : Thread nD τ).loc main_arg9) := rfl
theorem V5_arg10 : V5 m ρ c main_arg10 = m ((c : Thread nD τ).loc main_arg10) :=
  calc W5 m ρ c (Proc.devRef .tc main_arg10)
    _ = W4 m ρ c (Proc.devRef .tc main_arg10) := by not_written hostOps2
    _ = W3 m ρ c (Proc.devRef .tc main_arg10) := W4_of_ne m ρ c main_arg10 (by decide)
    _ = W2 m ρ c (Proc.devRef .tc main_arg10) := by not_written hostOps1
    _ = W1 m ρ c (Proc.devRef .tc main_arg10) := W2_of_ne m ρ c main_arg10 (by decide)
    _ = W0 m ρ c (Proc.devRef .tc main_arg10) := by not_written hostOps0
    _ = m ((c : Thread nD τ).loc main_arg10) := rfl

/-! ## Region 2's exit and the result -/

theorem W6_v38 : W6 m ρ c (Proc.devRef .tc main_v38) = arr2 m ρ c := W6_arr m ρ c 8
/-- The result: region 2's output column read as a vector. -/
theorem res_eq : W7 m ρ c (Proc.devRef .tc main_v39) = shapeCast S100000 (arr2 m ρ c) Facts₀.shapeCasts_S100000x1_S100000 :=
  calc W7 m ρ c (Proc.devRef .tc main_v39)
    _ = shapeCast S100000 (W6 m ρ c (Proc.devRef .tc main_v38)) Facts₀.shapeCasts_S100000x1_S100000 := by
        show StableHlo.after hostOps3 (W6 m ρ c) (Proc.devRef .tc main_v39) = _
        after_results
        rfl
    _ = _ := by rw [W6_v38 m ρ c]

end Cert.KernelIdeal.KThread

end
-- ==== Proof.Spec.lean ====
/-
  The mathematics of a two-layer graph convolution with a small dense head, written index by index over extended reals.

  Nodes are rows `p : Fin 100000`. A node's normalising factor is a column `d` (one entry per node). A layer takes, for
  every node, the sum `sc` of its in-neighbours' scaled feature rows, adds the node's own scaled row `xs` (its self
  loop), scales the total by the node's factor, adds a bias and clips below at zero (`hidden`); the next layer's scaled
  features are the factor times the product of that row with a weight matrix (`g1`). The first scaled features are the
  factor times the product of the input row with the first weight matrix (`g0`). The head (`g2`) multiplies the clipped
  row by a 32×16 matrix, adds a bias, applies the exponential linear unit (`eluK`: the identity on positive numbers,
  `exp z - 1` elsewhere), multiplies by a 16×1 matrix and adds a bias.
-/
import Idealize.ShloMosaic.PureOps.Ideal
import Idealize.ShloMosaic.Lib.ValueIdx

noncomputable section

open scoped BigOperators

namespace GcnSpec

open Idealize.ShloMosaic Idealize.ShloMosaic.ValueIdx

/-- A rank-2 array of extended reals. -/
abbrev Mat (a b : Nat) := (⟨2, ![a, b]⟩ : Shape).Idx → EReal
/-- A rank-1 array of extended reals. -/
abbrev Vc (a : Nat) := (⟨1, ![a]⟩ : Shape).Idx → EReal

/-- First scaled features at node `p`, column `q`: the node's factor times row `p` of `x · w`. -/
def g0 (x : Mat 100000 11) (w : Mat 11 32) (d : Mat 100000 1) (p : Fin 100000) (q : Fin 32) : EReal :=
  d (ix2 p (0 : Fin 1)) * ∑ k : Fin 11, x (ix2 p k) * w (ix2 k q)

/-- The same as a whole array. -/
def G0 (x : Mat 100000 11) (w : Mat 11 32) (d : Mat 100000 1) : Mat 100000 32 :=
  fun j => g0 x w d (j 0) (j 1)

/-- A layer's clipped output at node `p`, column `k`: factor × (neighbour sum + own row) + bias, clipped at zero. -/
def hidden (sc xs : Mat 100000 32) (d : Mat 100000 1) (b : Vc 32) (p : Fin 100000) (k : Fin 32) : EReal :=
  max (d (ix2 p (0 : Fin 1)) * (sc (ix2 p k) + xs (ix2 p k)) + b (ix1 k)) 0

/-- Second scaled features at node `p`, column `q`: the factor times row `p` of `hidden · w`. -/
def g1 (sc xs : Mat 100000 32) (d : Mat 100000 1) (b : Vc 32) (w : Mat 32 32) (p : Fin 100000) (q : Fin 32) : EReal :=
  d (ix2 p (0 : Fin 1)) * ∑ k : Fin 32, hidden sc xs d b p k * w (ix2 k q)

/-- The same as a whole array. -/
def G1 (sc xs : Mat 100000 32) (d : Mat 100000 1) (b : Vc 32) (w : Mat 32 32) : Mat 100000 32 :=
  fun j => g1 sc xs d b w (j 0) (j 1)

/-- The exponential linear unit written with `exp`: the identity on positive numbers, `exp z - 1` elsewhere. -/
def eluK (z : EReal) : EReal := if 0 < z then z else Ideal.exp z - 1

/-- The head at node `p`. -/
def g2 (sc xs : Mat 100000 32) (d : Mat 100000 1) (b : Vc 32) (wo1 : Mat 32 16) (bo1 : Vc 16) (wo2 : Mat 16 1) (bo2 : Vc 1)
    (p : Fin 100000) : EReal :=
  (∑ j : Fin 16, eluK ((∑ k : Fin 32, hidden sc xs d b p k * wo1 (ix2 k j)) + bo1 (ix1 j)) * wo2 (ix2 j (0 : Fin 1)))
    + bo2 (ix1 (0 : Fin 1))

/-- The same as a one-column array. -/
def G2 (sc xs : Mat 100000 32) (d : Mat 100000 1) (b : Vc 32) (wo1 : Mat 32 16) (bo1 : Vc 16) (wo2 : Mat 16 1) (bo2 : Vc 1) :
    Mat 100000 1 :=
  fun j => g2 sc xs d b wo1 bo1 wo2 bo2 (j 0)

end GcnSpec

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.KRegionCommon.lean ====
/-
  Shared facts for reading what the three row-block kernels leave in their output arrays: the zero offset vectors of
  the whole-block loads and stores, and the scalar facts about the constants and the comparison the head uses.
-/
import proofs.«147412_j74826920231167_2_alg».proof.Proof.Gen.KernelIdeal.Frame
import proofs.«147412_j74826920231167_2_alg».proof.Proof.Spec
import proofs.«147412_j74826920231167_2_alg».proof.Proof.LibColumns
import proofs.«147412_j74826920231167_2_alg».proof.Proof.LibRowOps
import Idealize.ShloMosaic.Lib.Pipeline.Value
import Idealize.ShloMosaic.Lib.IdealHost

noncomputable section

open scoped BigOperators

namespace Cert.KernelIdeal.KRegionCommon

open Cert.KernelIdeal Idealize.ShloMosaic Idealize.ShloMosaic.ValueIdx

/-- The offset of a whole rank-2 block is zero on both axes. -/
theorem hz2 : (![0, 0] : Fin 2 → Nat) = fun _ => 0 := funext fun a => by fin_cases a <;> rfl

/-- The offset of a whole rank-1 block is zero. -/
theorem hz1 : (![0] : Fin 1 → Nat) = fun _ => 0 := funext fun a => by fin_cases a; rfl

/-- The head's activation on one extended real: the comparison with zero selects the argument itself where it is
    positive and `exp z - 1` elsewhere. -/
theorem select_ogt_eq_eluK (z : EReal) :
    Scalar.select (FloatOps.cmpf (F := Ideal) (φ := .f32) .ogt z (Ideal.ofBits .f32 0x00000000#32)) z
        (Ideal.exp z - Ideal.ofBits .f32 0x3F800000#32) = GcnSpec.eluK z := by
  rw [Ideal.ofBits_zero_f32, Ideal.ofBits_one_f32]
  unfold GcnSpec.eluK
  show Scalar.select (Ideal.cmp .ogt z 0) z (Ideal.exp z - 1) = _
  unfold Ideal.cmp
  by_cases h : (0 : EReal) < z
  · rw [if_pos h]; simp only [h, decide_true]; exact select_one _ _
  · rw [if_neg h]; simp only [h, decide_false]; exact select_zero _ _

/-- A layer's clipped row at row `p`, column `k` of a block, as the two later kernels compute it: the factor at row
    `p` times (neighbour sum + own row), plus the bias, clipped below at zero. -/
theorem hidden_apply (d : FVec Ideal S4000x1 .f32) (sc : FVec Ideal S4000x32 .f32) (xs : FVec Ideal S4000x32 .bf16)
    (b : FVec Ideal S32 .f32) (p : Fin 4000) (k : Fin 32) :
    (maximumf (addf (mulf (broadcastTo S4000x32 (shapeCast S4000x1 d Gen.shapeCasts_S4000x1_S4000x1) Gen.broadcasts_S4000x1_S4000x32)
          (addf (shapeCast S4000x32 sc Gen.shapeCasts_S4000x32_S4000x32)
            (extf .f32 (shapeCast S4000x32 xs Gen.shapeCasts_S4000x32_S4000x32) Gen.bitsLt_bf16_f32)))
        (broadcastTo S4000x32 (shapeCast S1x32 b Gen.shapeCasts_S32_S1x32) Gen.broadcasts_S1x32_S4000x32))
      (broadcast S4000x32 (Scalar.ofBits (F := Ideal) .f32 0x00000000#32)) : FVec Ideal S4000x32 .f32) (ix2 p k)
      = max (d (ix2 p (0 : Fin 1)) * (sc (ix2 p k) + xs (ix2 p k)) + b (ix1 k)) 0 := by
  refine congrArg₂ (fun a b : EReal => max a b) (congrArg₂ (fun a b : EReal => a + b) (congrArg₂ (fun a b : EReal => a * b) ?_
    (congrArg₂ (fun a b : EReal => a + b) ?_ ?_)) ?_) ?_
  · rw [shapeCast_self]; exact ValueIdx.broadcastTo_a1_ab_apply d _ p k
  · rw [shapeCast_self]
  · show shapeCast S4000x32 xs Gen.shapeCasts_S4000x32_S4000x32 (ix2 p k) = _
    rw [shapeCast_self]
  · exact (broadcastTo_1b_ab_apply _ _ p k).trans (shapeCast_a_1a_apply b _ 0 k)
  · exact Ideal.ofBits_zero_f32

end Cert.KernelIdeal.KRegionCommon

end
-- ==== Proof.KRegion0.lean ====
/-
  What the first row-block kernel leaves in its output array: at node `p` and column `q`, the node's factor times row
  `p` of the product of the input features with the first weight matrix. Each of the 25 grid points computes the rows
  `4000 t … 4000 t + 3999`; the blocks tile the array.
-/
import proofs.«147412_j74826920231167_2_alg».proof.Proof.KRegionCommon

noncomputable section

open scoped BigOperators

namespace Cert.KernelIdeal.KRegion0

open Cert.KernelIdeal Cert.KernelIdeal.KRegionCommon Idealize.ShloMosaic Idealize.ShloMosaic.TcCoe Idealize.ShloMosaic.ValueIdx
open Idealize.ShloMosaic.Pipeline (Dat)

/-- The body's arithmetic at row `p`, column `q` of its block: the factor at row `p` times the product's entry. -/
theorem pay_apply (x0 : FVec Ideal S4000x11 .f32) (x1 : FVec Ideal S11x32 .f32) (x2 : FVec Ideal S4000x1 .f32)
    (p : Fin 4000) (q : Fin 32) :
    Gen.k0_pay1 (F := Ideal) x0 x1 x2 (ix2 p q) = x2 (ix2 p (0 : Fin 1)) * ∑ k : Fin 11, x0 (ix2 p k) * x1 (ix2 k q) := by
  unfold Gen.k0_pay1
  refine congrArg₂ (fun a b : EReal => a * b) ?_ ?_
  · rw [shapeCast_self]; exact ValueIdx.broadcastTo_a1_ab_apply x2 _ p q
  · exact RowOps.matmul_zero_plain_apply _ ⟨_, rfl⟩ none _ _ p q

/-- The block indices over the grid: the three row-blocked windows are at block `(t, 0)`, the weight matrix at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- Row `p` of the feature block at point `t` is row `4000 t + p` of the feature array. -/
theorem iblk_0_apply (c : Dev nD) (t : Fin cfg0.N) (p : Fin 4000) (k : Fin 11) (r : Fin 100000)
    (hr : r.val = 4000 * t.val + p.val) :
    (Gen.iblk0 V c 0 t : FVec Ideal S4000x11 .f32) (ix2 p k) = (V c main_arg0 : S100000x11.Idx → EReal) (ix2 r k) := by
  obtain ⟨e0, e1, -⟩ := idx_facts t
  unfold Gen.iblk0
  rw [View.read_apply]
  show V c main_arg0 _ = V c main_arg0 _
  congr 1
  funext a
  apply Fin.ext
  match a with
  | ⟨0, _⟩ => show win0_0.index t (0 : Fin 2) * 4000 + 1 * p.val = r.val; omega
  | ⟨1, _⟩ => show win0_0.index t (1 : Fin 2) * 11 + 1 * k.val = k.val; omega

/-- The weight block at any point is the weight array. -/
theorem iblk_1_apply (c : Dev nD) (t : Fin cfg0.N) (k : Fin 11) (q : Fin 32) :
    (Gen.iblk0 V c 1 t : FVec Ideal S11x32 .f32) (ix2 k q) = (V c main_arg3 : S11x32.Idx → EReal) (ix2 k q) := by
  obtain ⟨-, -, e0, e1, -⟩ := idx_facts t
  unfold Gen.iblk0
  rw [View.read_apply]
  show V c main_arg3 _ = V c main_arg3 _
  congr 1
  funext a
  apply Fin.ext
  match a with
  | ⟨0, _⟩ => show win0_1.index t (0 : Fin 2) * 11 + 1 * k.val = k.val; omega
  | ⟨1, _⟩ => show win0_1.index t (1 : Fin 2) * 32 + 1 * q.val = q.val; omega

/-- Row `p` of the factor block at point `t` is row `4000 t + p` of the factor column. -/
theorem iblk_2_apply (c : Dev nD) (t : Fin cfg0.N) (p : Fin 4000) (u : Fin 1) (r : Fin 100000)
    (hr : r.val = 4000 * t.val + p.val) :
    (Gen.iblk0 V c 2 t : FVec Ideal S4000x1 .f32) (ix2 p u) = (V c main_v13 : S100000x1.Idx → EReal) (ix2 r (0 : Fin 1)) := by
  obtain ⟨-, -, -, -, e0, e1, -⟩ := idx_facts t
  unfold Gen.iblk0
  rw [View.read_apply]
  show V c main_v13 _ = V c main_v13 _
  congr 1
  funext a
  apply Fin.ext
  match a with
  | ⟨0, _⟩ => show win0_2.index t (0 : Fin 2) * 4000 + 1 * p.val = r.val; omega
  | ⟨1, _⟩ => show win0_2.index t (1 : Fin 2) * 1 + 1 * u.val = 0; omega

/-- Row `p`, column `q` of the output block at point `t` sits at row `4000 t + p`, column `q` of the output array. -/
theorem oblk_emb (t : Fin cfg0.N) (p : Fin 4000) (q : Fin 32) (r : Fin 100000) (hr : r.val = 4000 * t.val + p.val) :
    ((cfg0.win 3).blk t).view.emb (ix2 p q) = (ix2 r q : S100000x32.Idx) := by
  obtain ⟨-, -, -, -, -, -, e0, e1⟩ := idx_facts t
  funext a
  apply Fin.ext
  match a with
  | ⟨0, _⟩ => show win0_3.index t (0 : Fin 2) * 4000 + 1 * p.val = r.val; omega
  | ⟨1, _⟩ => show win0_3.index t (1 : Fin 2) * 32 + 1 * q.val = q.val; omega

/-- WHAT POINT `t` WRITES BACK is block `t` of the first scaled features of the arrays the region finds. -/
theorem flushed_eq (c : Dev nD) (t : Fin cfg0.N) :
    (Gen.dat0 (F := Ideal) V c).flushed 3 t
      = ((cfg0.win 3).blk t).view.read (Elt Ideal) (GcnSpec.G0 (V c main_arg0) (V c main_arg3) (V c main_v13)) := by
  show (cfg0.win 3).cut (grid0.coords t) ((Gen.dat0 (F := Ideal) V c).after 3 t) = _
  rw [Gen.after0_3]
  unfold Gen.out0_3
  rw [View.canon_unit_zero hz2]
  simp only [View.ld_unit_zero (S := S4000x11) hz2, View.ld_unit_zero (S := S11x32) hz2, View.ld_unit_zero (S := S4000x1) hz2]
  funext j
  obtain ⟨p, q, rfl⟩ : ∃ (p : Fin 4000) (q : Fin 32), j = ix2 p q := ⟨j 0, j 1, eq_ix2 j⟩
  have ht : t.val < 25 := t.isLt
  have hp : p.val < 4000 := p.isLt
  rw [View.read_apply, oblk_emb t p q ⟨4000 * t.val + p.val, by omega⟩ rfl]
  refine (pay_apply _ _ _ p q).trans ?_
  show _ = GcnSpec.g0 _ _ _ ⟨4000 * t.val + p.val, _⟩ q
  unfold GcnSpec.g0
  rw [iblk_2_apply V c t p 0 ⟨4000 * t.val + p.val, by omega⟩ rfl]
  refine congrArg _ (Finset.sum_congr rfl fun k _ => ?_)
  rw [iblk_0_apply V c t p k ⟨4000 * t.val + p.val, by omega⟩ rfl, iblk_1_apply V c t k q]

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S4000x32.size a ≤ (i a).val ∧ (i a).val < win0_3.index t a * S4000x32.size a + S4000x32.size a := by
  show i ∈ ((View.whole main_v14).slice (win0_3.rect t)).set ↔ _
  rw [View.set_slice_whole, Rect.mem_set_unit]
  exact Iff.rfl

/-- Row `r` of the output array is in the block of point `r / 4000`. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 25 := Gen.N_0
  refine ⟨⟨(i 0).val / 4000, by rw [hN]; omega⟩, Gen.flush0_3 _, ?_⟩
  rw [mem_blk]
  obtain ⟨-, -, -, -, -, -, e0, e1⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 32 ≤ (i 1).val ∧ (i 1).val < win0_3.index _ (1 : Fin 2) * 32 + 32
    rw [e1]; omega

/-- THE OUTPUT ARRAY after the region: the first scaled features of the arrays the region finds. -/
theorem final0 (c : Dev nD) :
    (Gen.dat0 (F := Ideal) V c).arrAt 3 cfg0.N = GcnSpec.G0 (V c main_arg0) (V c main_arg3) (V c main_v13) :=
  (Gen.dat0 (F := Ideal) V c).arrAt_eq_of_cover 3 _ (fun t _ => flushed_eq V c t) cover

end

end Cert.KernelIdeal.KRegion0

end
-- ==== Proof.KRegion1.lean ====
/-
  What the second row-block kernel leaves in its output array: at node `p` and column `q`, the node's factor times row
  `p` of the product of the first layer's clipped output with the second weight matrix. Each of the 25 grid points
  computes the rows `4000 t … 4000 t + 3999`; the blocks tile the array.
-/
import proofs.«147412_j74826920231167_2_alg».proof.Proof.KRegionCommon

noncomputable section

open scoped BigOperators

namespace Cert.KernelIdeal.KRegion1

open Cert.KernelIdeal Cert.KernelIdeal.KRegionCommon Idealize.ShloMosaic Idealize.ShloMosaic.TcCoe Idealize.ShloMosaic.ValueIdx
open Idealize.ShloMosaic.Pipeline (Dat)

/-- The body's arithmetic at row `p`, column `q` of its block: the factor at row `p` times the entry of the product of
    the clipped row with the weight matrix. -/
theorem pay_apply (d : FVec Ideal S4000x1 .f32) (sc : FVec Ideal S4000x32 .f32) (xs : FVec Ideal S4000x32 .bf16)
    (b : FVec Ideal S32 .f32) (w : FVec Ideal S32x32 .f32) (p : Fin 4000) (q : Fin 32) :
    Gen.k1_pay1 (F := Ideal) d sc xs b w (ix2 p q)
      = d (ix2 p (0 : Fin 1)) * ∑ k : Fin 32, max (d (ix2 p (0 : Fin 1)) * (sc (ix2 p k) + xs (ix2 p k)) + b (ix1 k)) 0 * w (ix2 k q) := by
  unfold Gen.k1_pay1
  refine congrArg₂ (fun a b : EReal => a * b) ?_ ?_
  · rw [shapeCast_self]; exact ValueIdx.broadcastTo_a1_ab_apply d _ p q
  · refine (RowOps.matmul_zero_plain_apply _ ⟨_, rfl⟩ none _ _ p q).trans ?_
    refine Finset.sum_congr rfl fun k _ => ?_
    refine congrArg₂ (fun a b : EReal => a * b) ?_ rfl
    exact hidden_apply d sc xs b p k

/-! The block indices over the grid: the row-blocked windows are at block `(t, 0)`, the small arrays at block zero. -/

theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 1) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- Row `p` of the neighbour-sum block at point `t` is row `4000 t + p` of the neighbour-sum array. -/
theorem iblk_0_apply (c : Dev nD) (t : Fin cfg1.N) (p : Fin 4000) (k : Fin 32) (r : Fin 100000)
    (hr : r.val = 4000 * t.val + p.val) :
    (Gen.iblk1 V c 0 t : FVec Ideal S4000x32 .f32) (ix2 p k) = (V c main_v25 : S100000x32.Idx → EReal) (ix2 r k) := by
  obtain ⟨e0, e1⟩ := idx_0 t
  unfold Gen.iblk1
  rw [View.read_apply]
  show V c main_v25 _ = V c main_v25 _
  congr 1
  funext a
  apply Fin.ext
  match a with
  | ⟨0, _⟩ => show win1_0.index t (0 : Fin 2) * 4000 + 1 * p.val = r.val; omega
  | ⟨1, _⟩ => show win1_0.index t (1 : Fin 2) * 32 + 1 * k.val = k.val; omega

/-- Row `p` of the scaled-feature block at point `t` is row `4000 t + p` of the scaled-feature array. -/
theorem iblk_1_apply (c : Dev nD) (t : Fin cfg1.N) (p : Fin 4000) (k : Fin 32) (r : Fin 100000)
    (hr : r.val = 4000 * t.val + p.val) :
    (Gen.iblk1 V c 1 t : FVec Ideal S4000x32 .bf16) (ix2 p k) = (V c main_v14 : S100000x32.Idx → EReal) (ix2 r k) := by
  obtain ⟨e0, e1⟩ := idx_1 t
  unfold Gen.iblk1
  rw [View.read_apply]
  show V c main_v14 _ = V c main_v14 _
  congr 1
  funext a
  apply Fin.ext
  match a with
  | ⟨0, _⟩ => show win1_1.index t (0 : Fin 2) * 4000 + 1 * p.val = r.val; omega
  | ⟨1, _⟩ => show win1_1.index t (1 : Fin 2) * 32 + 1 * k.val = k.val; omega

/-- Row `p` of the factor block at point `t` is row `4000 t + p` of the factor column. -/
theorem iblk_2_apply (c : Dev nD) (t : Fin cfg1.N) (p : Fin 4000) (u : Fin 1) (r : Fin 100000)
    (hr : r.val = 4000 * t.val + p.val) :
    (Gen.iblk1 V c 2 t : FVec Ideal S4000x1 .f32) (ix2 p u) = (V c main_v13 : S100000x1.Idx → EReal) (ix2 r (0 : Fin 1)) := by
  obtain ⟨e0, e1⟩ := idx_2 t
  unfold Gen.iblk1
  rw [View.read_apply]
  show V c main_v13 _ = V c main_v13 _
  congr 1
  funext a
  apply Fin.ext
  match a with
  | ⟨0, _⟩ => show win1_2.index t (0 : Fin 2) * 4000 + 1 * p.val = r.val; omega
  | ⟨1, _⟩ => show win1_2.index t (1 : Fin 2) * 1 + 1 * u.val = 0; omega

/-- The bias block at any point is the bias array. -/
theorem iblk_3_apply (c : Dev nD) (t : Fin cfg1.N) (k : Fin 32) :
    (Gen.iblk1 V c 3 t : FVec Ideal S32 .f32) (ix1 k) = (V c main_arg4 : S32.Idx → EReal) (ix1 k) := by
  have e0 := idx_3 t
  unfold Gen.iblk1
  rw [View.read_apply]
  show V c main_arg4 _ = V c main_arg4 _
  congr 1
  funext a
  apply Fin.ext
  match a with
  | ⟨0, _⟩ => show win1_3.index t (0 : Fin 1) * 32 + 1 * k.val = k.val; omega

/-- The weight block at any point is the weight array. -/
theorem iblk_4_apply (c : Dev nD) (t : Fin cfg1.N) (k : Fin 32) (q : Fin 32) :
    (Gen.iblk1 V c 4 t : FVec Ideal S32x32 .f32) (ix2 k q) = (V c main_arg5 : S32x32.Idx → EReal) (ix2 k q) := by
  obtain ⟨e0, e1⟩ := idx_4 t
  unfold Gen.iblk1
  rw [View.read_apply]
  show V c main_arg5 _ = V c main_arg5 _
  congr 1
  funext a
  apply Fin.ext
  match a with
  | ⟨0, _⟩ => show win1_4.index t (0 : Fin 2) * 32 + 1 * k.val = k.val; omega
  | ⟨1, _⟩ => show win1_4.index t (1 : Fin 2) * 32 + 1 * q.val = q.val; omega

/-- Row `p`, column `q` of the output block at point `t` sits at row `4000 t + p`, column `q` of the output array. -/
theorem oblk_emb (t : Fin cfg1.N) (p : Fin 4000) (q : Fin 32) (r : Fin 100000) (hr : r.val = 4000 * t.val + p.val) :
    ((cfg1.win 5).blk t).view.emb (ix2 p q) = (ix2 r q : S100000x32.Idx) := by
  obtain ⟨e0, e1⟩ := idx_5 t
  funext a
  apply Fin.ext
  match a with
  | ⟨0, _⟩ => show win1_5.index t (0 : Fin 2) * 4000 + 1 * p.val = r.val; omega
  | ⟨1, _⟩ => show win1_5.index t (1 : Fin 2) * 32 + 1 * q.val = q.val; omega

/-- WHAT POINT `t` WRITES BACK is block `t` of the second scaled features of the arrays the region finds. -/
theorem flushed_eq (c : Dev nD) (t : Fin cfg1.N) :
    (Gen.dat1 (F := Ideal) V c).flushed 5 t
      = ((cfg1.win 5).blk t).view.read (Elt Ideal)
          (GcnSpec.G1 (V c main_v25) (V c main_v14) (V c main_v13) (V c main_arg4) (V c main_arg5)) := by
  show (cfg1.win 5).cut (grid1.coords t) ((Gen.dat1 (F := Ideal) V c).after 5 t) = _
  rw [Gen.after1_5]
  unfold Gen.out1_5
  rw [View.canon_unit_zero hz2]
  simp only [View.ld_unit_zero (S := S4000x32) hz2, View.ld_unit_zero (S := S4000x1) hz2, View.ld_unit_zero (S := S32) hz1,
    View.ld_unit_zero (S := S32x32) hz2]
  funext j
  obtain ⟨p, q, rfl⟩ : ∃ (p : Fin 4000) (q : Fin 32), j = ix2 p q := ⟨j 0, j 1, eq_ix2 j⟩
  have ht : t.val < 25 := t.isLt
  have hp : p.val < 4000 := p.isLt
  rw [View.read_apply, oblk_emb t p q ⟨4000 * t.val + p.val, by omega⟩ rfl]
  refine (pay_apply _ _ _ _ _ p q).trans ?_
  show _ = GcnSpec.g1 _ _ _ _ _ ⟨4000 * t.val + p.val, _⟩ q
  unfold GcnSpec.g1 GcnSpec.hidden
  rw [iblk_2_apply V c t p 0 ⟨4000 * t.val + p.val, by omega⟩ rfl]
  refine congrArg _ (Finset.sum_congr rfl fun k _ => ?_)
  rw [iblk_0_apply V c t p k ⟨4000 * t.val + p.val, by omega⟩ rfl, iblk_1_apply V c t p k ⟨4000 * t.val + p.val, by omega⟩ rfl,
    iblk_3_apply V c t k, iblk_4_apply V c t k q]

/-- An index of the output array is in point `t`'s block iff each coordinate is in the block's range on its axis. -/
theorem mem_blk (t : Fin cfg1.N) (i : S100000x32.Idx) :
    i ∈ ((cfg1.win 5).blk t).view.set ↔ ∀ a : Fin 2, win1_5.index t a * S4000x32.size a ≤ (i a).val ∧ (i a).val < win1_5.index t a * S4000x32.size a + S4000x32.size a := by
  show i ∈ ((View.whole main_v26).slice (win1_5.rect t)).set ↔ _
  rw [View.set_slice_whole, Rect.mem_set_unit]
  exact Iff.rfl

/-- Row `r` of the output array is in the block of point `r / 4000`. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 25 := Gen.N_1
  refine ⟨⟨(i 0).val / 4000, by rw [hN]; omega⟩, Gen.flush1_5 _, ?_⟩
  rw [mem_blk]
  obtain ⟨e0, e1⟩ := idx_5 ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 32 ≤ (i 1).val ∧ (i 1).val < win1_5.index _ (1 : Fin 2) * 32 + 32
    rw [e1]; omega

/-- THE OUTPUT ARRAY after the region: the second scaled features of the arrays the region finds. -/
theorem final1 (c : Dev nD) :
    (Gen.dat1 (F := Ideal) V c).arrAt 5 cfg1.N = GcnSpec.G1 (V c main_v25) (V c main_v14) (V c main_v13) (V c main_arg4) (V c main_arg5) :=
  (Gen.dat1 (F := Ideal) V c).arrAt_eq_of_cover 5 _ (fun t _ => flushed_eq V c t) cover

end

end Cert.KernelIdeal.KRegion1

end
-- ==== Proof.KRegion2.lean ====
/-
  What the third row-block kernel leaves in its output array: at node `p`, the dense head applied to the second layer's
  clipped row — a 32×16 product plus a bias, the exponential linear unit, a 16×1 product plus a bias. Each of the 25
  grid points computes the rows `4000 t … 4000 t + 3999`; the blocks tile the one-column array.
-/
import proofs.«147412_j74826920231167_2_alg».proof.Proof.KRegionCommon

noncomputable section

open scoped BigOperators

namespace Cert.KernelIdeal.KRegion2

open Cert.KernelIdeal Cert.KernelIdeal.KRegionCommon Idealize.ShloMosaic Idealize.ShloMosaic.TcCoe Idealize.ShloMosaic.ValueIdx
open Idealize.ShloMosaic.Pipeline (Dat)

/-- The body's arithmetic at row `p` of its block: the head applied to the clipped row. -/
theorem pay_apply (d : FVec Ideal S4000x1 .f32) (sc : FVec Ideal S4000x32 .f32) (xs : FVec Ideal S4000x32 .bf16)
    (b : FVec Ideal S32 .f32) (wo1 : FVec Ideal S32x16 .f32) (bo1 : FVec Ideal S16 .f32) (wo2 : FVec Ideal S16x1 .f32)
    (bo2 : FVec Ideal S1 .f32) (p : Fin 4000) :
    Gen.k2_pay1 (F := Ideal) d sc xs b wo1 bo1 wo2 bo2 (ix2 p (0 : Fin 1))
      = (∑ j : Fin 16, GcnSpec.eluK ((∑ k : Fin 32,
            max (d (ix2 p (0 : Fin 1)) * (sc (ix2 p k) + xs (ix2 p k)) + b (ix1 k)) 0 * wo1 (ix2 k j)) + bo1 (ix1 j))
          * wo2 (ix2 j (0 : Fin 1))) + bo2 (ix1 (0 : Fin 1)) := by
  unfold Gen.k2_pay1
  refine congrArg₂ (fun a b : EReal => a + b) ?_ ?_
  · refine (RowOps.matmul_zero_plain_apply _ ⟨_, rfl⟩ none _ _ p 0).trans ?_
    refine Finset.sum_congr rfl fun j _ => ?_
    refine congrArg₂ (fun a b : EReal => a * b) ?_ rfl
    refine (select_ogt_eq_eluK _).trans ?_
    refine congrArg GcnSpec.eluK ?_
    refine congrArg₂ (fun a b : EReal => a + b) ?_ ?_
    · refine (RowOps.matmul_zero_plain_apply _ ⟨_, rfl⟩ none _ _ p j).trans ?_
      refine Finset.sum_congr rfl fun k _ => ?_
      refine congrArg₂ (fun a b : EReal => a * b) ?_ rfl
      exact hidden_apply d sc xs b p k
    · exact (broadcastTo_1b_ab_apply _ _ p j).trans (shapeCast_a_1a_apply bo1 _ 0 j)
  · exact (broadcastTo_1b_ab_apply _ _ p 0).trans (shapeCast_a_1a_apply bo2 _ 0 0)

/-! The block indices over the grid: the row-blocked windows are at block `(t, 0)`, the small arrays at block zero. -/

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 1) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 1) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 1) = 0 :=
  (by decide +kernel : ∀ t : Fin grid2.N, _)
theorem idx_8 : ∀ t : Fin cfg2.N, win2_8.index t (0 : Fin 2) = t.val ∧ win2_8.index t (1 : Fin 2) = 0 :=
  (by decide +kernel : ∀ t : Fin grid2.N, _)

section
variable (V : (c : Dev nD) → (b : Ref sig .tc) → Buf (Elt Ideal) ((c : Thread nD τ).loc b))

/-- Row `p` of the neighbour-sum block at point `t` is row `4000 t + p` of the neighbour-sum array. -/
theorem iblk_0_apply (c : Dev nD) (t : Fin cfg2.N) (p : Fin 4000) (k : Fin 32) (r : Fin 100000)
    (hr : r.val = 4000 * t.val + p.val) :
    (Gen.iblk2 V c 0 t : FVec Ideal S4000x32 .f32) (ix2 p k) = (V c main_v37 : S100000x32.Idx → EReal) (ix2 r k) := by
  obtain ⟨e0, e1⟩ := idx_0 t
  unfold Gen.iblk2
  rw [View.read_apply]
  show V c main_v37 _ = V c main_v37 _
  congr 1
  funext a
  apply Fin.ext
  match a with
  | ⟨0, _⟩ => show win2_0.index t (0 : Fin 2) * 4000 + 1 * p.val = r.val; omega
  | ⟨1, _⟩ => show win2_0.index t (1 : Fin 2) * 32 + 1 * k.val = k.val; omega

/-- Row `p` of the scaled-feature block at point `t` is row `4000 t + p` of the scaled-feature array. -/
theorem iblk_1_apply (c : Dev nD) (t : Fin cfg2.N) (p : Fin 4000) (k : Fin 32) (r : Fin 100000)
    (hr : r.val = 4000 * t.val + p.val) :
    (Gen.iblk2 V c 1 t : FVec Ideal S4000x32 .bf16) (ix2 p k) = (V c main_v26 : S100000x32.Idx → EReal) (ix2 r k) := by
  obtain ⟨e0, e1⟩ := idx_1 t
  unfold Gen.iblk2
  rw [View.read_apply]
  show V c main_v26 _ = V c main_v26 _
  congr 1
  funext a
  apply Fin.ext
  match a with
  | ⟨0, _⟩ => show win2_1.index t (0 : Fin 2) * 4000 + 1 * p.val = r.val; omega
  | ⟨1, _⟩ => show win2_1.index t (1 : Fin 2) * 32 + 1 * k.val = k.val; omega

/-- Row `p` of the factor block at point `t` is row `4000 t + p` of the factor column. -/
theorem iblk_2_apply (c : Dev nD) (t : Fin cfg2.N) (p : Fin 4000) (u : Fin 1) (r : Fin 100000)
    (hr : r.val = 4000 * t.val + p.val) :
    (Gen.iblk2 V c 2 t : FVec Ideal S4000x1 .f32) (ix2 p u) = (V c main_v13 : S100000x1.Idx → EReal) (ix2 r (0 : Fin 1)) := by
  obtain ⟨e0, e1⟩ := idx_2 t
  unfold Gen.iblk2
  rw [View.read_apply]
  show V c main_v13 _ = V c main_v13 _
  congr 1
  funext a
  apply Fin.ext
  match a with
  | ⟨0, _⟩ => show win2_2.index t (0 : Fin 2) * 4000 + 1 * p.val = r.val; omega
  | ⟨1, _⟩ => show win2_2.index t (1 : Fin 2) * 1 + 1 * u.val = 0; omega

/-- The layer's bias block at any point is the bias array. -/
theorem iblk_3_apply (c : Dev nD) (t : Fin cfg2.N) (k : Fin 32) :
    (Gen.iblk2 V c 3 t : FVec Ideal S32 .f32) (ix1 k) = (V c main_arg6 : S32.Idx → EReal) (ix1 k) := by
  have e0 := idx_3 t
  unfold Gen.iblk2
  rw [View.read_apply]
  show V c main_arg6 _ = V c main_arg6 _
  congr 1
  funext a
  apply Fin.ext
  match a with
  | ⟨0, _⟩ => show win2_3.index t (0 : Fin 1) * 32 + 1 * k.val = k.val; omega

/-- The head's first weight block at any point is the weight array. -/
theorem iblk_4_apply (c : Dev nD) (t : Fin cfg2.N) (k : Fin 32) (q : Fin 16) :
    (Gen.iblk2 V c 4 t : FVec Ideal S32x16 .f32) (ix2 k q) = (V c main_arg7 : S32x16.Idx → EReal) (ix2 k q) := by
  obtain ⟨e0, e1⟩ := idx_4 t
  unfold Gen.iblk2
  rw [View.read_apply]
  show V c main_arg7 _ = V c main_arg7 _
  congr 1
  funext a
  apply Fin.ext
  match a with
  | ⟨0, _⟩ => show win2_4.index t (0 : Fin 2) * 32 + 1 * k.val = k.val; omega
  | ⟨1, _⟩ => show win2_4.index t (1 : Fin 2) * 16 + 1 * q.val = q.val; omega

/-- The head's first bias block at any point is the bias array. -/
theorem iblk_5_apply (c : Dev nD) (t : Fin cfg2.N) (k : Fin 16) :
    (Gen.iblk2 V c 5 t : FVec Ideal S16 .f32) (ix1 k) = (V c main_arg8 : S16.Idx → EReal) (ix1 k) := by
  have e0 := idx_5 t
  unfold Gen.iblk2
  rw [View.read_apply]
  show V c main_arg8 _ = V c main_arg8 _
  congr 1
  funext a
  apply Fin.ext
  match a with
  | ⟨0, _⟩ => show win2_5.index t (0 : Fin 1) * 16 + 1 * k.val = k.val; omega

/-- The head's second weight block at any point is the weight array. -/
theorem iblk_6_apply (c : Dev nD) (t : Fin cfg2.N) (k : Fin 16) (q : Fin 1) :
    (Gen.iblk2 V c 6 t : FVec Ideal S16x1 .f32) (ix2 k q) = (V c main_arg9 : S16x1.Idx → EReal) (ix2 k q) := by
  obtain ⟨e0, e1⟩ := idx_6 t
  unfold Gen.iblk2
  rw [View.read_apply]
  show V c main_arg9 _ = V c main_arg9 _
  congr 1
  funext a
  apply Fin.ext
  match a with
  | ⟨0, _⟩ => show win2_6.index t (0 : Fin 2) * 16 + 1 * k.val = k.val; omega
  | ⟨1, _⟩ => show win2_6.index t (1 : Fin 2) * 1 + 1 * q.val = q.val; omega

/-- The head's second bias block at any point is the bias array. -/
theorem iblk_7_apply (c : Dev nD) (t : Fin cfg2.N) (k : Fin 1) :
    (Gen.iblk2 V c 7 t : FVec Ideal S1 .f32) (ix1 k) = (V c main_arg10 : S1.Idx → EReal) (ix1 k) := by
  have e0 := idx_7 t
  unfold Gen.iblk2
  rw [View.read_apply]
  show V c main_arg10 _ = V c main_arg10 _
  congr 1
  funext a
  apply Fin.ext
  match a with
  | ⟨0, _⟩ => show win2_7.index t (0 : Fin 1) * 1 + 1 * k.val = k.val; omega

/-- Row `p`, column `q` of the output block at point `t` sits at row `4000 t + p`, column `q` of the output array. -/
theorem oblk_emb (t : Fin cfg2.N) (p : Fin 4000) (q : Fin 1) (r : Fin 100000) (hr : r.val = 4000 * t.val + p.val) :
    ((cfg2.win 8).blk t).view.emb (ix2 p q) = (ix2 r q : S100000x1.Idx) := by
  obtain ⟨e0, e1⟩ := idx_8 t
  funext a
  apply Fin.ext
  match a with
  | ⟨0, _⟩ => show win2_8.index t (0 : Fin 2) * 4000 + 1 * p.val = r.val; omega
  | ⟨1, _⟩ => show win2_8.index t (1 : Fin 2) * 1 + 1 * q.val = q.val; omega

/-- WHAT POINT `t` WRITES BACK is block `t` of the head of the arrays the region finds. -/
theorem flushed_eq (c : Dev nD) (t : Fin cfg2.N) :
    (Gen.dat2 (F := Ideal) V c).flushed 8 t
      = ((cfg2.win 8).blk t).view.read (Elt Ideal)
          (GcnSpec.G2 (V c main_v37) (V c main_v26) (V c main_v13) (V c main_arg6) (V c main_arg7) (V c main_arg8) (V c main_arg9) (V c main_arg10)) := by
  show (cfg2.win 8).cut (grid2.coords t) ((Gen.dat2 (F := Ideal) V c).after 8 t) = _
  rw [Gen.after2_8]
  unfold Gen.out2_8
  rw [View.canon_unit_zero hz2]
  simp only [View.ld_unit_zero (S := S4000x32) hz2, View.ld_unit_zero (S := S4000x1) hz2, View.ld_unit_zero (S := S32) hz1,
    View.ld_unit_zero (S := S32x16) hz2, View.ld_unit_zero (S := S16) hz1, View.ld_unit_zero (S := S16x1) hz2,
    View.ld_unit_zero (S := S1) hz1]
  funext j
  obtain ⟨p, q, rfl⟩ : ∃ (p : Fin 4000) (q : Fin 1), j = ix2 p q := ⟨j 0, j 1, eq_ix2 j⟩
  obtain rfl : q = 0 := Subsingleton.elim _ _
  have ht : t.val < 25 := t.isLt
  have hp : p.val < 4000 := p.isLt
  rw [View.read_apply, oblk_emb t p 0 ⟨4000 * t.val + p.val, by omega⟩ rfl]
  refine (pay_apply _ _ _ _ _ _ _ _ p).trans ?_
  show _ = GcnSpec.g2 _ _ _ _ _ _ _ _ ⟨4000 * t.val + p.val, _⟩
  unfold GcnSpec.g2 GcnSpec.hidden
  rw [iblk_2_apply V c t p 0 ⟨4000 * t.val + p.val, by omega⟩ rfl, iblk_7_apply V c t 0]
  refine congrArg₂ (fun a b : EReal => a + b) (Finset.sum_congr rfl fun j _ => ?_) rfl
  rw [iblk_5_apply V c t j, iblk_6_apply V c t j 0]
  refine congrArg₂ (fun a b : EReal => a * b) (congrArg GcnSpec.eluK (congrArg₂ (fun a b : EReal => a + b)
    (Finset.sum_congr rfl fun k _ => ?_) rfl)) rfl
  rw [iblk_0_apply V c t p k ⟨4000 * t.val + p.val, by omega⟩ rfl, iblk_1_apply V c t p k ⟨4000 * t.val + p.val, by omega⟩ rfl,
    iblk_3_apply V c t k, iblk_4_apply V c t k j]

/-- An index of the output array is in point `t`'s block iff each coordinate is in the block's range on its axis. -/
theorem mem_blk (t : Fin cfg2.N) (i : S100000x1.Idx) :
    i ∈ ((cfg2.win 8).blk t).view.set ↔ ∀ a : Fin 2, win2_8.index t a * S4000x1.size a ≤ (i a).val ∧ (i a).val < win2_8.index t a * S4000x1.size a + S4000x1.size a := by
  show i ∈ ((View.whole main_v38).slice (win2_8.rect t)).set ↔ _
  rw [View.set_slice_whole, Rect.mem_set_unit]
  exact Iff.rfl

/-- Row `r` of the output array is in the block of point `r / 4000`. -/
theorem cover (i : S100000x1.Idx) : ∃ t : Fin cfg2.N, (cfg2.win 8).flush t = true ∧ i ∈ ((cfg2.win 8).blk t).view.set := by
  have hi0 : (i 0).val < 100000 := (i 0).isLt
  have hi1 : (i 1).val < 1 := (i 1).isLt
  have hN : cfg2.N = 25 := Gen.N_2
  refine ⟨⟨(i 0).val / 4000, by rw [hN]; omega⟩, Gen.flush2_8 _, ?_⟩
  rw [mem_blk]
  obtain ⟨e0, e1⟩ := idx_8 ⟨(i 0).val / 4000, by rw [hN]; omega⟩
  intro a
  match a with
  | ⟨0, _⟩ =>
    show win2_8.index _ (0 : Fin 2) * 4000 ≤ (i 0).val ∧ (i 0).val < win2_8.index _ (0 : Fin 2) * 4000 + 4000
    rw [e0]; show (i 0).val / 4000 * 4000 ≤ (i 0).val ∧ (i 0).val < (i 0).val / 4000 * 4000 + 4000; omega
  | ⟨1, _⟩ =>
    show win2_8.index _ (1 : Fin 2) * 1 ≤ (i 1).val ∧ (i 1).val < win2_8.index _ (1 : Fin 2) * 1 + 1
    rw [e1]; omega

/-- THE OUTPUT ARRAY after the region: the head of the arrays the region finds. -/
theorem final2 (c : Dev nD) :
    (Gen.dat2 (F := Ideal) V c).arrAt 8 cfg2.N = GcnSpec.G2 (V c main_v37) (V c main_v26) (V c main_v13) (V c main_arg6) (V c main_arg7) (V c main_arg8) (V c main_arg9) (V c main_arg10) :=
  (Gen.dat2 (F := Ideal) V c).arrAt_eq_of_cover 8 _ (fun t _ => flushed_eq V c t) cover

end

end Cert.KernelIdeal.KRegion2

end
-- ==== Proof.LibGatherRows.lean ====
/-
  THE ROW GATHER READ AT AN INDEX.

  A row gather takes, for each of `E` start indices, one whole row of an `[N, C]` operand: `"stablehlo.gather"` with
  offset_dims = [1], collapsed_slice_dims = [0], start_index_map = [0], index_vector_dim = 1 and slice sizes [1, C], over
  start indices of shape `[E, 1]` (what indexing an array by an integer vector along its leading axis lowers to).
  Element `(e, q)` of the result is the operand at row `idx[e, 0]` — read SIGNED and CLAMPED into `[0, N − 1]`, so
  that the one-row slice fits — and column `q` (`gather_rows_apply`). The clamp is the identity on a start index already
  inside the range (`clampRow_of_toInt_eq`). The extents and the index width are arbitrary.

  Road: on these dimension numbers the operand coordinate on axis 0 is the clamped start alone (no batching axis, the
  axis is collapsed), and on axis 1 it is the result's column alone (the start index map does not name that axis).
-/
import Idealize.ShloMosaic.PureOps.ShapeOps
import Idealize.ShloMosaic.Lib.ValueIdx

namespace Idealize.ShloMosaic.GatherRows

open Idealize.ShloMosaic Idealize.ShloMosaic.ValueIdx

variable {α : Type}

/-- The row a start-index word addresses: the word read signed, negative words at row 0, words past the end at the
    last row. -/
def clampRow (N : Nat) (hN : 0 < N) {w : Nat} (b : BitVec w) : Fin N := ⟨min b.toInt.toNat (N - 1), by omega⟩

/-- A start index that is a row number is not moved by the clamp. -/
theorem clampRow_of_toInt_eq {N : Nat} (hN : 0 < N) {w : Nat} (b : BitVec w) (n : Fin N) (h : b.toInt = (n.val : Int)) :
    clampRow N hN b = n := by
  apply Fin.ext
  show min b.toInt.toNat (N - 1) = n.val
  have := n.isLt
  rw [h]; omega

/-- The dimension numbers of a row gather from an `[N, C]` operand through `[E, 1]` start indices. -/
abbrev rowDims (N E C : Nat)
    (wf : GatherDims.WF (⟨2, ![N, C]⟩ : Shape) ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the clamped row of start index `e`, column `q`. -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (clampRow N hN (idx (ix2 e (0 : Fin 1)))) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    have hs : (rowDims N E C wf).start (ix2 e q) idx 1 = 0 := by
      unfold GatherDims.start
      have h : ¬ (1 : Fin 2) ∈ ([0] : List (Fin 2)) := by decide
      rw [dif_neg (show ¬ (1 : Fin 2) ∈ (rowDims N E C wf).startIndexMap from h)]
    have ho : (rowDims N E C wf).offCoord (ix2 e q) 1 = q.val := by
      unfold GatherDims.offCoord
      have h : (1 : Fin 2) ∈ (rowDims N E C wf).sKept :=
        (GatherDims.mem_sKept _ _).mpr ⟨(by decide : ¬ (1 : Fin 2) ∈ ([0] : List (Fin 2))), List.not_mem_nil⟩
      rw [dif_pos h]
      rfl
    rw [hs, ho]; omega

/-- The same for ANY dimension numbers between these shapes whose fields are a row gather's (for a record stated field
    by field, each hypothesis is `rfl`). -/
theorem gather_rows_apply' {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  obtain ⟨od, cd, ob, sb, sm, iv, ss, wf⟩ := d
  simp only at h1 h2 h3 h4 h5 h6 h7
  subst h1 h2 h3 h4 h5 h6 h7
  exact gather_rows_apply hN wf x idx e q

end Idealize.ShloMosaic.GatherRows
-- ==== Proof.Graph.lean ====
/-
  Two ways of writing a graph convolution's normalised aggregation, and why they agree on finite data.

  Edges are numbered; edge `e` carries a source word and a target word (32-bit integers, possibly out of range). An edge
  LANDS at node `v` when its target word, read signed, is `v`. A source word addresses the row `rowOf` of it: negative
  words are first raised by the node count, then the word is clamped into range. To the real edges one self loop per node
  is appended (`catW`: node `u`'s loop has both words equal to `u`).

  With `d` a per-node factor and `y` per-node feature rows:
    `aggR` sums, over ALL edges (loops included) landing at `v`, the product  d(source) · d(target) · y(source);
    `aggK` sums, over the REAL edges landing at `v`, the already scaled rows  d(source) · y(source), adds the node's own
            scaled row  d(v) · y(v), and multiplies the total by  d(v).
  An edge landing at `v` has target row `v`, so its term is  d(v) · (d(source) · y(source)); node `v`'s loop is the only loop
  landing at `v` and contributes  d(v) · d(v) · y(v). Pulling `d(v)` out of the sum is distributivity, which holds on real
  numbers; that is where finiteness of `d` and `y` is used (`agg_eq`). The in-degree count behaves the same way: the loops
  add exactly one (`deg_eq`), so the degree is a real number at least one and its inverse square root is a real number.
-/
import Idealize.ShloMosaic.PureOps.Ideal
import Idealize.ShloMosaic.PureOps.Ideal.Laws
import proofs.«147412_j74826920231167_2_alg».proof.Proof.LibGatherRows

noncomputable section

open scoped BigOperators

namespace GcnGraph

open Idealize.ShloMosaic Idealize.ShloMosaic.GatherRows

/-! ## Extended reals that are real numbers -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ite {c : Prop} [Decidable c] {x y : EReal} (hx : IsReal x) (hy : IsReal y) : IsReal (if c then x else y) := by
  split <;> assumption
theorem IsReal.sum {ι : Type*} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (c : Prop) [Decidable c] (a : ℝ) : (if c then (a : EReal) else 0) = ((if c then a else 0 : ℝ) : EReal) := by
  split <;> simp

/-! ## Index words -/

/-- A start-index word with a negative word raised by the node count. -/
def wrapW (b : BitVec 32) : BitVec 32 :=
  Scalar.select (IntOp.cmpi .slt b 0#32) (IntOp.addi b 100000#32) b

/-- The row a start-index word addresses: wrapped, then clamped. -/
def rowOf (b : BitVec 32) : Fin 100000 := clampRow 100000 (by decide) (wrapW b)

/-- A word that reads as a row number addresses that row. -/
theorem rowOf_of_toInt {b : BitVec 32} {v : Fin 100000} (h : b.toInt = (v.val : Int)) : rowOf b = v := by
  have hs : b.slt 0#32 = false := by
    have h0 : (0#32 : BitVec 32).toInt = 0 := by decide
    simp only [BitVec.slt, h, h0]
    exact decide_eq_false (by omega)
  have hw : wrapW b = b := by
    unfold wrapW IntOp.cmpi
    simp only [hs]
    rfl
  unfold rowOf
  rw [hw]
  exact clampRow_of_toInt_eq _ b v h

/-- What `rowOf` is, for reading a program's gather; elsewhere only `rowOf_of_toInt` is used. -/
theorem rowOf_eq (b : BitVec 32) : rowOf b = clampRow 100000 (by decide) (wrapW b) := rfl

attribute [irreducible] rowOf

/-- The word of node `u`'s self loop reads as `u`. -/
theorem toInt_loop (u : Fin 100000) : (BitVec.ofNat 32 u.val).toInt = (u.val : Int) := by
  have hu := u.isLt
  have h1 : (BitVec.ofNat 32 u.val).toNat = u.val := by
    rw [BitVec.toNat_ofNat]; exact Nat.mod_eq_of_lt (by omega)
  rw [BitVec.toInt_eq_toNat_of_lt (by rw [h1]; omega), h1]

/-- Real edges' words followed by one self loop per node. -/
def catW {E : Nat} (w : Fin E → BitVec 32) (e : Fin (E + 100000)) : BitVec 32 :=
  Fin.addCases w (fun u : Fin 100000 => BitVec.ofNat 32 u.val) e

@[simp] theorem catW_left {E : Nat} (w : Fin E → BitVec 32) (e : Fin E) : catW w (Fin.castAdd 100000 e) = w e := by
  unfold catW; exact Fin.addCases_left e
@[simp] theorem catW_right {E : Nat} (w : Fin E → BitVec 32) (u : Fin 100000) : catW w (Fin.natAdd E u) = BitVec.ofNat 32 u.val := by
  unfold catW; exact Fin.addCases_right u

/-! ## The degree -/

variable {E C : Nat}

/-- In-degree counted over the real edges, plus one for the self loop. -/
def degK (dst : Fin E → BitVec 32) (v : Fin 100000) : EReal :=
  (0 + ∑ e : Fin E, if (dst e).toInt = (v.val : Int) then (1 : EReal) else 0) + 1

/-- In-degree counted over all edges of a list that already holds the loops. -/
def degR {E' : Nat} (dstc : Fin E' → BitVec 32) (v : Fin 100000) : EReal :=
  0 + ∑ e : Fin E', if (dstc e).toInt = (v.val : Int) then (1 : EReal) else 0

theorem loop_lands_iff (u v : Fin 100000) : (BitVec.ofNat 32 u.val).toInt = (v.val : Int) ↔ u = v := by
  rw [toInt_loop]
  constructor
  · intro h; exact Fin.ext (by omega)
  · rintro rfl; rfl

theorem deg_eq (dst : Fin E → BitVec 32) (v : Fin 100000) : degR (catW dst) v = degK dst v := by
  unfold degR degK
  rw [Fin.sum_univ_add]
  simp only [catW_left, catW_right, loop_lands_iff]
  rw [Fintype.sum_eq_single v (fun u hu => if_neg hu), if_pos rfl, add_assoc]

/-- The degree is a real number at least one. -/
theorem degK_real (dst : Fin E → BitVec 32) (v : Fin 100000) : ∃ r : ℝ, 1 ≤ r ∧ degK dst v = (r : EReal) := by
  refine ⟨(∑ e : Fin E, if (dst e).toInt = (v.val : Int) then (1 : ℝ) else 0) + 1, ?_, ?_⟩
  · have : 0 ≤ ∑ e : Fin E, if (dst e).toInt = (v.val : Int) then (1 : ℝ) else 0 :=
      Finset.sum_nonneg fun e _ => by
        by_cases h : (dst e).toInt = (v.val : Int)
        · rw [if_pos h]; exact zero_le_one
        · rw [if_neg h]
    linarith
  · unfold degK
    rw [zero_add, EReal.coe_add, coe_sum]
    congr 1
    refine Finset.sum_congr rfl fun e _ => ?_
    by_cases h : (dst e).toInt = (v.val : Int)
    · rw [if_pos h, if_pos h, EReal.coe_one]
    · rw [if_neg h, if_neg h, EReal.coe_zero]

/-- The inverse square root of the degree is a real number. -/
theorem rsqrt_degK_real (dst : Fin E → BitVec 32) (v : Fin 100000) : IsReal (Ideal.rsqrt (degK dst v)) := by
  obtain ⟨r, hr, h⟩ := degK_real dst v
  rw [h, Ideal.rsqrt_coe, if_neg (by linarith), if_neg (by linarith)]
  exact ⟨_, rfl⟩

/-! ## The aggregation -/

/-- Scaled rows `ys` summed over the real edges landing at `v`, plus the node's own scaled row, times the factor. -/
def aggK (src dst : Fin E → BitVec 32) (d : Fin 100000 → EReal) (ys : Fin 100000 → Fin C → EReal)
    (v : Fin 100000) (k : Fin C) : EReal :=
  d v * ((0 + ∑ e : Fin E, if (dst e).toInt = (v.val : Int) then ys (rowOf (src e)) k else 0) + ys v k)

/-- Rows `y` weighted by the two endpoints' factors, summed over all edges (loops included) landing at `v`. -/
def aggR {E' : Nat} (srcc dstc : Fin E' → BitVec 32) (d : Fin 100000 → EReal) (y : Fin 100000 → Fin C → EReal)
    (v : Fin 100000) (k : Fin C) : EReal :=
  0 + ∑ e : Fin E', if (dstc e).toInt = (v.val : Int) then (d (rowOf (srcc e)) * d (rowOf (dstc e))) * y (rowOf (srcc e)) k else 0

/-- On real factors and real rows the two aggregations agree. -/
theorem agg_eq (src dst : Fin E → BitVec 32) (d : Fin 100000 → EReal) (y : Fin 100000 → Fin C → EReal)
    (hd : ∀ v, IsReal (d v)) (hy : ∀ v k, IsReal (y v k)) (v : Fin 100000) (k : Fin C) :
    aggR (catW src) (catW dst) d y v k = aggK src dst d (fun u j => d u * y u j) v k := by
  choose dr hdr using hd
  choose yr hyr using hy
  have hd' : d = fun u => (dr u : EReal) := funext hdr
  have hy' : y = fun u j => (yr u j : EReal) := funext fun u => funext fun j => hyr u j
  subst hd' hy'
  unfold aggR aggK
  rw [Fin.sum_univ_add]
  simp only [catW_left, catW_right, loop_lands_iff]
  -- the loops: only node `v`'s lands at `v`
  have hloop : (∑ u : Fin 100000, if u = v then
        ((dr (rowOf (BitVec.ofNat 32 u.val)) : EReal) * (dr (rowOf (BitVec.ofNat 32 u.val)) : EReal))
          * (yr (rowOf (BitVec.ofNat 32 u.val)) k : EReal) else 0)
      = (((dr v * dr v) * yr v k : ℝ) : EReal) := by
    rw [Fintype.sum_eq_single v (fun u hu => if_neg hu), if_pos rfl, rowOf_of_toInt (toInt_loop v),
      ← EReal.coe_mul, ← EReal.coe_mul]
  rw [hloop]
  -- the real edges: a landing edge's target row is `v`
  have hedge : ∀ e : Fin E, (if (dst e).toInt = (v.val : Int) then
        ((dr (rowOf (src e)) : EReal) * (dr (rowOf (dst e)) : EReal)) * (yr (rowOf (src e)) k : EReal) else 0)
      = (((if (dst e).toInt = (v.val : Int) then dr v * (dr (rowOf (src e)) * yr (rowOf (src e)) k) else 0 : ℝ)) : EReal) := by
    intro e
    by_cases h : (dst e).toInt = (v.val : Int)
    · rw [if_pos h, if_pos h, rowOf_of_toInt h]
      generalize rowOf (src e) = s
      rw [← EReal.coe_mul, ← EReal.coe_mul]
      exact congrArg _ (by ring)
    · rw [if_neg h, if_neg h, EReal.coe_zero]
  have hedge' : ∀ e : Fin E, (if (dst e).toInt = (v.val : Int) then
        (dr (rowOf (src e)) : EReal) * (yr (rowOf (src e)) k : EReal) else 0)
      = (((if (dst e).toInt = (v.val : Int) then dr (rowOf (src e)) * yr (rowOf (src e)) k else 0 : ℝ)) : EReal) := by
    intro e
    by_cases h : (dst e).toInt = (v.val : Int)
    · rw [if_pos h, if_pos h, EReal.coe_mul]
    · rw [if_neg h, if_neg h, EReal.coe_zero]
  rw [Finset.sum_congr rfl fun e _ => hedge e, Finset.sum_congr rfl fun e _ => hedge' e]
  rw [← coe_sum, ← coe_sum, zero_add, zero_add, ← EReal.coe_mul, ← EReal.coe_add, ← EReal.coe_add, ← EReal.coe_mul]
  refine congrArg (fun r : ℝ => (r : EReal)) ?_
  rw [mul_add, Finset.mul_sum]
  refine congrArg₂ (fun a b : ℝ => a + b) (Finset.sum_congr rfl fun e _ => ?_) (by ring)
  by_cases h : (dst e).toInt = (v.val : Int)
  · rw [if_pos h, if_pos h]
  · rw [if_neg h, if_neg h, mul_zero]

end GcnGraph

end
-- ==== Proof.LibScatterRows.lean ====
/-
  THE ACCUMULATING ROW SCATTER READ AT AN INDEX, at the ideal instance (floats are extended reals).

  A row scatter adds update row `e` of an `[E, C]` array of updates into row `idx[e, 0]` of an `[N, C]` operand:
  `"stablehlo.scatter"` with an `add` body and dimension numbers update_window_dims = [1], inserted_window_dims = [0],
  scatter_dims_to_operand_dims = [0], index_vector_dim = 1, over scatter indices of shape `[E, 1]` (what a segment sum
  over the leading axis lowers to). The scatter index is read SIGNED and is NOT clamped: an update row whose index is
  outside `[0, N)` is dropped. At the ideal instance the result is the exact sum, so element `(n, q)` of the result is

      x[n, q] + ∑ e : Fin E, if idx[e, 0] = n then upd[e, q] else 0

  (`scatterAdd_rows_apply`): a plain sum over the `E` update rows whose landing condition `idx[e, 0] = n` does not
  mention the column `q` nor the column count `C` — two row scatters through the same indices, of different widths,
  are read with one common condition. The extents `N`, `E`, `C` and the index width `w` are arbitrary; nothing here
  enumerates a row range.

  Road: on these dimension numbers the window start is the row's scatter index on axis 0 and `0` on axis 1
  (`start_zero`, `start_one`), the window coordinate is `0` on axis 0 and the update's column on axis 1
  (`window_zero`, `window_one`); so an update index `j` lands at `(n, q)` iff `idx[j 0, 0] = n` and `j 1 = q`
  (`resultIdx?_eq_some_iff`; the bounds `0 ≤ · < N`, `· < C` hold by themselves then). The filtered sum over update
  indices becomes a double sum over (row, column) whose inner sum has exactly one nonzero term.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter of `[E, C]` updates into an `[N, C]` operand through `[E, 1]` scatter
    indices: the updates' axis 1 is the window axis, the operand's axis 0 is inserted and is the one the scatter
    index addresses, the index vector lies along the indices' axis 1. `wf` is any proof of the conditions. -/
abbrev rowDims (N E C : Nat)
    (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat}
  (wf : ScatterDims.WF (⟨2, ![N, C]⟩ : Shape) ⟨2, ![E, 1]⟩ ⟨2, ![E, C]⟩ [1] [0] [0] 1)

/-- On the row axis the window starts at the update row's scatter index, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the map does not name that axis. -/
theorem start_one (j : (⟨2, ![E, C]⟩ : Shape).Idx) (idx : IVec ⟨2, ![E, 1]⟩ w) :
    (rowDims N E C wf).start j idx 1 = 0 := by
  unfold ScatterDims.start
  have h : ¬ (1 : Fin 2) ∈ ([0] : List (Fin 2)) := by decide
  rw [dif_neg (show ¬ (1 : Fin 2) ∈ (rowDims N E C wf).scatterDimsToOperandDims from h)]

/-- The window coordinate on the row axis is `0`: that axis is inserted. -/
theorem window_zero (j : (⟨2, ![E, C]⟩ : Shape).Idx) :
    (rowDims N E C wf).window j 0 = 0 := by
  unfold ScatterDims.window
  have h : ¬ (0 : Fin 2) ∈ (List.finRange 2).filter (fun a => a ∉ ([0] : List (Fin 2))) := by decide
  rw [dif_neg (show ¬ (0 : Fin 2) ∈ (rowDims N E C wf).sKept from h)]

/-- The window coordinate on the column axis is the update's column. -/
theorem window_one (j : (⟨2, ![E, C]⟩ : Shape).Idx) :
    (rowDims N E C wf).window j 1 = (j 1).val := by
  unfold ScatterDims.window
  have h : (1 : Fin 2) ∈ (List.finRange 2).filter (fun a => a ∉ ([0] : List (Fin 2))) := by decide
  rw [dif_pos (show (1 : Fin 2) ∈ (rowDims N E C wf).sKept from h)]
  rfl

/-- An update index lands at operand element `(n, q)` exactly when its row's scatter index, read signed, is `n`
    and its column is `q`. -/
theorem resultIdx?_eq_some_iff (j : (⟨2, ![E, C]⟩ : Shape).Idx) (idx : IVec ⟨2, ![E, 1]⟩ w) (n : Fin N) (q : Fin C) :
    (rowDims N E C wf).resultIdx? j idx = some (ix2 n q) ↔
      (idx (ix2 (j 0) (0 : Fin 1))).toInt = (n.val : Int) ∧ j 1 = q := by
  have hs0 := start_zero wf j idx
  have hs1 := start_one wf j idx
  have hw0 := window_zero wf j
  have hw1 := window_one wf j
  have hn : n.val < N := n.isLt
  have hq : q.val < C := q.isLt
  have hj1 : (j 1).val < C := (j 1).isLt
  unfold ScatterDims.resultIdx?
  split_ifs with h
  · rw [Option.some.injEq]
    constructor
    · intro hf
      have h0 := congrArg (fun f => (f 0).val) hf
      have h1 := congrArg (fun f => (f 1).val) hf
      have b0 := (h 0).1
      simp only [hs0, hw0] at h0 b0
      simp only [hs1, hw1] at h1
      refine ⟨?_, Fin.ext ?_⟩
      · change ((idx (ix2 (j 0) (0 : Fin 1))).toInt + ((0 : Nat) : Int)).toNat = n.val at h0
        omega
      · change ((0 : Int) + ((j 1).val : Int)).toNat = q.val at h1
        omega
    · rintro ⟨ht, hjq⟩
      funext a
      refine Fin.ext ?_
      match a with
      | ⟨0, _⟩ =>
        show ((rowDims N E C wf).start j idx 0 + ((rowDims N E C wf).window j 0 : Int)).toNat = n.val
        rw [hs0, hw0, ht]; omega
      | ⟨1, _⟩ =>
        show ((rowDims N E C wf).start j idx 1 + ((rowDims N E C wf).window j 1 : Int)).toNat = q.val
        rw [hs1, hw1, ← hjq]; omega
  · constructor
    · intro hf; exact absurd hf (by simp)
    · rintro ⟨ht, hjq⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, hw0, ht]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, hw1]; omega

end

/-- THE ROW SCATTER READ AT `(n, q)`, at the ideal instance: the operand's element plus the sum, over ALL `E` update
    rows, of the update's element in column `q` when the row's scatter index (read signed) is `n`, and `0` when it is
    not. The landing condition does not depend on the column nor on the number of columns. -/
theorem scatterAdd_rows_apply {N E C w : Nat}
    (wf : ScatterDims.WF (⟨2, ![N, C]⟩ : Shape) ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32)
        (⟨[1], [0], [0], 1, wf⟩ : ScatterDims ⟨2, ![N, C]⟩ ⟨2, ![E, 1]⟩ ⟨2, ![E, C]⟩) x idx upd (ix2 n q)
      = x (ix2 n q) + ∑ e : Fin E,
          if (idx (ix2 e (0 : Fin 1))).toInt = (n.val : Int) then upd (ix2 e q) else 0 := by
  show Ideal.hostScatterAdd (rowDims N E C wf) x idx upd (ix2 n q) = _
  unfold Ideal.hostScatterAdd
  congr 1
  rw [Finset.sum_filter, sum_idx2]
  refine Finset.sum_congr rfl fun e _ => ?_
  have hc : ∀ b : Fin C, (if (rowDims N E C wf).resultIdx? (ix2 e b) idx = some (ix2 n q) then upd (ix2 e b) else 0)
      = if ((idx (ix2 e (0 : Fin 1))).toInt = (n.val : Int) ∧ b = q) then upd (ix2 e b) else 0 := fun b =>
    if_congr (resultIdx?_eq_some_iff wf (ix2 e b) idx n q) rfl rfl
  rw [Finset.sum_congr rfl fun b _ => hc b]
  by_cases ht : (idx (ix2 e (0 : Fin 1))).toInt = (n.val : Int)
  · simp only [ht, true_and, if_true]
    rw [Finset.sum_ite_eq' Finset.univ q (fun b => upd (ix2 e b)), if_pos (Finset.mem_univ q)]
  · simp only [ht, false_and, if_false, Finset.sum_const_zero]

/-- The same for ANY dimension numbers between these shapes whose four lists are a row scatter's (for a record stated
    field by field, each hypothesis is `rfl`). -/
theorem scatterAdd_rows_apply' {N E C w : Nat}
    (d : ScatterDims (⟨2, ![N, C]⟩ : Shape) ⟨2, ![E, 1]⟩ ⟨2, ![E, C]⟩)
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32) d x idx upd (ix2 n q)
      = x (ix2 n q) + ∑ e : Fin E,
          if (idx (ix2 e (0 : Fin 1))).toInt = (n.val : Int) then upd (ix2 e q) else 0 := by
  obtain ⟨uw, iw, sd, iv, wf⟩ := d
  simp only at h1 h2 h3 h4
  subst h1 h2 h3 h4
  exact scatterAdd_rows_apply wf x idx upd n q

end Idealize.ShloMosaic.ScatterRows

end
-- ==== Proof.LibScatterVec.lean ====
/-
  THE ACCUMULATING SCATTER INTO A VECTOR READ AT AN INDEX, at the ideal instance (floats are extended reals).

  A scatter into a vector adds element `e` of an `[E]` array of updates into element `idx[e, 0]` of an `[N]` operand:
  `"stablehlo.scatter"` with an `add` body and dimension numbers update_window_dims = [], inserted_window_dims = [0],
  scatter_dims_to_operand_dims = [0], index_vector_dim = 1, over scatter indices of shape `[E, 1]` (what a segment sum
  of a vector lowers to; with updates all one it counts, per segment, the indices that name it). The scatter index is
  read SIGNED and is NOT clamped: an update whose index is outside `[0, N)` is dropped. At the ideal instance element
  `n` of the result is

      x[n] + ∑ e : Fin E, if idx[e, 0] = n then upd[e] else 0

  (`scatterAdd_vec_apply`) — the landing condition is the one of a row scatter through the same indices.
-/
import Idealize.ShloMosaic.PureOps.Ideal
import Idealize.ShloMosaic.PureOps.Contract
import Idealize.ShloMosaic.Lib.ValueIdx

noncomputable section

open scoped BigOperators

namespace Idealize.ShloMosaic.ScatterVec

open Idealize.ShloMosaic Idealize.ShloMosaic.ValueIdx

/-- The dimension numbers of a scatter of `[E]` updates into an `[N]` operand through `[E, 1]` scatter indices. -/
abbrev vecDims (N E : Nat)
    (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat}
  (wf : ScatterDims.WF (⟨1, ![N]⟩ : Shape) ⟨2, ![E, 1]⟩ ⟨1, ![E]⟩ [] [0] [0] 1)

/-- The window starts at the update's scatter index, read signed. -/
theorem start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The window coordinate is `0`: the operand's one axis is inserted. -/
theorem window_zero (j : (⟨1, ![E]⟩ : Shape).Idx) :
    (vecDims N E wf).window j 0 = 0 := by
  unfold ScatterDims.window
  have h : ¬ (0 : Fin 1) ∈ (List.finRange 1).filter (fun a => a ∉ ([0] : List (Fin 1))) := by decide
  rw [dif_neg (show ¬ (0 : Fin 1) ∈ (vecDims N E wf).sKept from h)]

/-- An update lands at operand element `n` exactly when its scatter index, read signed, is `n`. -/
theorem resultIdx?_eq_some_iff (j : (⟨1, ![E]⟩ : Shape).Idx) (idx : IVec ⟨2, ![E, 1]⟩ w) (n : Fin N) :
    (vecDims N E wf).resultIdx? j idx = some (ix1 n) ↔ (idx (ix2 (j 0) (0 : Fin 1))).toInt = (n.val : Int) := by
  have hs0 := start_zero wf j idx
  have hw0 := window_zero wf j
  have hn : n.val < N := n.isLt
  unfold ScatterDims.resultIdx?
  split_ifs with h
  · rw [Option.some.injEq]
    constructor
    · intro hf
      have h0 := congrArg (fun f => (f 0).val) hf
      have b0 := (h 0).1
      simp only [hs0, hw0] at h0 b0
      change ((idx (ix2 (j 0) (0 : Fin 1))).toInt + ((0 : Nat) : Int)).toNat = n.val at h0
      omega
    · intro ht
      funext a
      refine Fin.ext ?_
      match a with
      | ⟨0, _⟩ =>
        show ((vecDims N E wf).start j idx 0 + ((vecDims N E wf).window j 0 : Int)).toNat = n.val
        rw [hs0, hw0, ht]; omega
  · constructor
    · intro hf; exact absurd hf (by simp)
    · intro ht
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, hw0, ht]; omega

end

/-- THE SCATTER INTO A VECTOR READ AT `n`, at the ideal instance: the operand's element plus the sum, over ALL `E`
    updates, of the update when its scatter index (read signed) is `n`, and `0` when it is not. -/
theorem scatterAdd_vec_apply {N E w : Nat}
    (wf : ScatterDims.WF (⟨1, ![N]⟩ : Shape) ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32)
        (⟨[], [0], [0], 1, wf⟩ : ScatterDims ⟨1, ![N]⟩ ⟨2, ![E, 1]⟩ ⟨1, ![E]⟩) x idx upd (ix1 n)
      = x (ix1 n) + ∑ e : Fin E,
          if (idx (ix2 e (0 : Fin 1))).toInt = (n.val : Int) then upd (ix1 e) else 0 := by
  show Ideal.hostScatterAdd (vecDims N E wf) x idx upd (ix1 n) = _
  unfold Ideal.hostScatterAdd
  congr 1
  rw [Finset.sum_filter]
  have hre : ∀ f : (⟨1, ![E]⟩ : Shape).Idx → EReal, ∑ j, f j = ∑ e : Fin E, f (ix1 e) := fun f =>
    (Equiv.sum_comp (⟨fun e : Fin E => (ix1 e : (⟨1, ![E]⟩ : Shape).Idx), fun j => j 0,
      fun e => rfl, fun j => (eq_ix1 j).symm⟩ : Fin E ≃ (⟨1, ![E]⟩ : Shape).Idx) f).symm
  rw [hre]
  refine Finset.sum_congr rfl fun e _ => ?_
  exact if_congr (resultIdx?_eq_some_iff wf (ix1 e) idx n) rfl rfl

/-- The same for ANY dimension numbers between these shapes whose four lists are this scatter's. -/
theorem scatterAdd_vec_apply' {N E w : Nat}
    (d : ScatterDims (⟨1, ![N]⟩ : Shape) ⟨2, ![E, 1]⟩ ⟨1, ![E]⟩)
    (h1 : d.updateWindowDims = []) (h2 : d.insertedWindowDims = [0])
    (h3 : d.scatterDimsToOperandDims = [0]) (h4 : d.indexVectorDim = 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32) d x idx upd (ix1 n)
      = x (ix1 n) + ∑ e : Fin E,
          if (idx (ix2 e (0 : Fin 1))).toInt = (n.val : Int) then upd (ix1 e) else 0 := by
  obtain ⟨uw, iw, sd, iv, wf⟩ := d
  simp only at h1 h2 h3 h4
  subst h1 h2 h3 h4
  exact scatterAdd_vec_apply wf x idx upd n

end Idealize.ShloMosaic.ScatterVec

end
-- ==== Proof.KRead.lean ====
/-
  The host stretches of the kernel program read at an index.

  The edge list is a 2 × 3200000 array of words: row 0 the sources, row 1 the targets. The node factor column holds,
  at node `v`, the inverse square root of one plus the number of edges landing at `v` (`dinv_apply`). One round of
  message passing leaves, at `(v, q)`, the sum over the edges landing at `v` of column `q` of the row its source word
  addresses (`scat_apply`).
-/
import proofs.«147412_j74826920231167_2_alg».proof.Proof.KTerm
import proofs.«147412_j74826920231167_2_alg».proof.Proof.Graph
import proofs.«147412_j74826920231167_2_alg».proof.Proof.LibColumns
import proofs.«147412_j74826920231167_2_alg».proof.Proof.LibRowOps
import proofs.«147412_j74826920231167_2_alg».proof.Proof.LibScatterRows
import proofs.«147412_j74826920231167_2_alg».proof.Proof.LibScatterVec
import proofs.«147412_j74826920231167_2_alg».proof.Proof.LibGatherRows
import Idealize.ShloMosaic.Lib.Pipeline.Value
import Idealize.ShloMosaic.Lib.ValueIdx

noncomputable section

open scoped BigOperators

namespace Cert.KernelIdeal.KRead

open Idealize.ShloMosaic Idealize.ShloMosaic.ValueIdx Idealize.SL.Sem
open Cert.KernelIdeal Cert.KernelIdeal.Facts₀ Cert.KernelIdeal.Facts

variable [Facts]

/-- The literal `1.0`. -/
theorem one_f32 : Ideal.ofBits .f32 0x3F800000#32 = 1 := by
  simp [Ideal.ofBits, Ideal.ieee, -EReal.coe_mul]; norm_num

/-- Row `r` of the edge list, cast to a vector, at edge `e`. -/
theorem edgeRow0_apply (ei : (⟨S2x3200000, .i32⟩ : BufTy).Contents (Elt Ideal)) (e : Fin 3200000) :
    KTerm.edgeRow0 ei (ix1 e) = ei (ix2 (0 : Fin 2) e) := by
  unfold KTerm.edgeRow0
  refine (shapeCast_apply _ _ (ix1 e) (ix2 (0 : Fin 1) e) ?_).trans ?_
  · rw [Shape.rowMajor_val_two, Shape.rowMajor_val_one]
    show 0 * 3200000 + e.val = e.val
    omega
  · refine extractStridedSlice_apply _ ei _ (ix2 (0 : Fin 1) e) (ix2 (0 : Fin 2) e) fun a => ?_
    match a with
    | ⟨0, _⟩ => rfl
    | ⟨1, _⟩ => show e.val = 0 + e.val; omega

theorem edgeRow1_apply (ei : (⟨S2x3200000, .i32⟩ : BufTy).Contents (Elt Ideal)) (e : Fin 3200000) :
    KTerm.edgeRow1 ei (ix1 e) = ei (ix2 (1 : Fin 2) e) := by
  unfold KTerm.edgeRow1
  refine (shapeCast_apply _ _ (ix1 e) (ix2 (0 : Fin 1) e) ?_).trans ?_
  · rw [Shape.rowMajor_val_two, Shape.rowMajor_val_one]
    show 0 * 3200000 + e.val = e.val
    omega
  · refine extractStridedSlice_apply _ ei _ (ix2 (0 : Fin 1) e) (ix2 (1 : Fin 2) e) fun a => ?_
    match a with
    | ⟨0, _⟩ => rfl
    | ⟨1, _⟩ => show e.val = 0 + e.val; omega

/-- A vector over the edges laid out as a one-column array, at `(e, 0)`. -/
theorem col_apply {α : Type} (r : S3200000.Idx → α) (e : Fin 3200000) :
    broadcastInDim S3200000x1 ![0] bcast_S3200000_S3200000x1_0 r (ix2 e (0 : Fin 1)) = r (ix1 e) := by
  refine broadcastInDim_apply _ _ r _ (ix1 e) fun a => ?_
  match a with
  | ⟨0, _⟩ =>
    show e.val = if (3200000 : Nat) = 1 then 0 else e.val
    rw [if_neg (by decide)]

/-- The node factor at node `v`: the inverse square root of one plus the number of edges whose target word is `v`. -/
theorem dinv_apply (ei : (⟨S2x3200000, .i32⟩ : BufTy).Contents (Elt Ideal)) (v : Fin 100000) :
    KTerm.dinv ei (ix2 v (0 : Fin 1)) = Ideal.rsqrt (GcnGraph.degK (fun e : Fin 3200000 => ei (ix2 (1 : Fin 2) e)) v) := by
  unfold KTerm.dinv
  refine (shapeCast_a_a1_apply _ _ v 0).trans ?_
  have hr : ∀ y : FVec Ideal S100000 .f32, Host.rsqrt (F := Ideal) y (ix1 v) = Ideal.rsqrt (y (ix1 v)) := fun _ => rfl
  refine (hr _).trans (congrArg Ideal.rsqrt ?_)
  refine (addf_apply _ _ _).trans ?_
  unfold GcnGraph.degK
  refine congrArg₂ (fun a b : EReal => a + b) ?_ ?_
  · refine (ScatterVec.scatterAdd_vec_apply' _ rfl rfl rfl rfl _ _ _ v).trans ?_
    refine congrArg₂ (fun a b : EReal => a + b) ?_ (Finset.sum_congr rfl fun e _ => ?_)
    · exact (RowOps.broadcastInDim_scalar_apply _ _ _).trans Ideal.ofBits_zero_f32
    · have h1 : broadcastInDim S3200000x1 ![0] bcast_S3200000_S3200000x1_0 (KTerm.edgeRow1 ei) (ix2 e (0 : Fin 1))
          = ei (ix2 (1 : Fin 2) e) := (col_apply _ e).trans (edgeRow1_apply ei e)
      have h2 : broadcastInDim S3200000 ![] bcast_S_S3200000 (constant (F := Ideal) S_ .f32 0x3F800000#32) (ix1 e) = (1 : EReal) :=
        (RowOps.broadcastInDim_scalar_apply _ _ _).trans one_f32
      rw [h1, h2]
  · exact (RowOps.broadcastInDim_scalar_apply _ _ _).trans one_f32

/-- A wrapped vector of words, entry by entry. -/
theorem wrapped_apply (r0 : (⟨S3200000, .i32⟩ : BufTy).Contents (Elt Ideal)) (e : Fin 3200000) :
    KTerm.wrapped r0 (ix1 e) = GcnGraph.wrapW (r0 (ix1 e)) := rfl

/-- One round of message passing at `(v, q)`: column `q` of the rows addressed by the sources of the edges landing
    at `v`, summed. -/
theorem scat_apply (ei : (⟨S2x3200000, .i32⟩ : BufTy).Contents (Elt Ideal)) (xs : (⟨S100000x32, .bf16⟩ : BufTy).Contents (Elt Ideal))
    (v : Fin 100000) (q : Fin 32) :
    KTerm.scat ei xs (ix2 v q) = 0 + ∑ e : Fin 3200000,
      if (ei (ix2 (1 : Fin 2) e)).toInt = (v.val : Int) then xs (ix2 (GcnGraph.rowOf (ei (ix2 (0 : Fin 2) e))) q) else 0 := by
  unfold KTerm.scat KTerm.scatOf
  refine (ScatterRows.scatterAdd_rows_apply' _ rfl rfl rfl rfl _ _ _ v q).trans ?_
  refine congrArg₂ (fun a b : EReal => a + b) ?_ (Finset.sum_congr rfl fun e _ => ?_)
  · exact (RowOps.broadcastInDim_scalar_apply _ _ _).trans Ideal.ofBits_zero_f32
  · have h1 : broadcastInDim S3200000x1 ![0] bcast_S3200000_S3200000x1_0 (KTerm.edgeRow1 ei) (ix2 e (0 : Fin 1))
        = ei (ix2 (1 : Fin 2) e) := (col_apply _ e).trans (edgeRow1_apply ei e)
    have h2 : (extf (F := Ideal) .f32
          (Host.gather gather_S100000x32_S3200000x1_S3200000x32_1_0_n_n_0_1_132 xs
            (broadcastInDim S3200000x1 ![0] bcast_S3200000_S3200000x1_0 (KTerm.wrapped (KTerm.edgeRow0 ei))))
          bitsLt_bf16_f32) (ix2 e q) = xs (ix2 (GcnGraph.rowOf (ei (ix2 (0 : Fin 2) e))) q) := by
      refine (GatherRows.gather_rows_apply' (by decide) _ rfl rfl rfl rfl rfl rfl rfl xs _ e q).trans ?_
      rw [col_apply, wrapped_apply, edgeRow0_apply, GcnGraph.rowOf_eq]
    rw [h1, h2]

end Cert.KernelIdeal.KRead

end
-- ==== Proof.Model.lean ====
/-
  The two programs' results as index-level functions of the arguments, and their equality on finite inputs.

  Both compute two graph-convolution layers and a dense head. One (`kOut`) scales feature rows by the node factor before
  the neighbour sum, adds the self loop as the node's own row and scales the total again (`hidK`); the other (`rOut`) sums,
  over an edge list extended by the self loops, rows weighted by both endpoints' factors (`hidR`). The node factor is the
  inverse square root of the degree, counted with the loop either way (`GcnGraph.deg_eq`), hence a real number; the
  features entering a layer are finite sums of products of real numbers, hence real; so each layer's two forms agree
  (`GcnGraph.agg_eq`) and its output is real again. The heads are the same sums around the exponential linear unit,
  written `exp z - 1` on one side and `1 · (exp z' - 1)` with `z'` the non-positive part on the other: one function.
-/
import proofs.«147412_j74826920231167_2_alg».proof.Proof.Spec
import proofs.«147412_j74826920231167_2_alg».proof.Proof.Graph

noncomputable section

open scoped BigOperators

namespace GcnModel

open GcnSpec GcnGraph Idealize.ShloMosaic Idealize.ShloMosaic.ValueIdx

/-! ## One layer, in its two forms -/

section Layer
variable {E : Nat} (src dst : Fin E → BitVec 32)

/-- A layer's clipped output when rows are scaled before the neighbour sum and the self loop is the node's own row. -/
def hidK (d : Fin 100000 → EReal) (xw : Fin 100000 → Fin 32 → EReal) (b : Fin 32 → EReal) (v : Fin 100000) (k : Fin 32) : EReal :=
  max (aggK src dst d (fun u j => d u * xw u j) v k + b k) 0

/-- A layer's clipped output over an edge list that holds the loops, rows weighted by both endpoints' factors. -/
def hidR {E' : Nat} (srcc dstc : Fin E' → BitVec 32) (d : Fin 100000 → EReal) (xw : Fin 100000 → Fin 32 → EReal)
    (b : Fin 32 → EReal) (v : Fin 100000) (k : Fin 32) : EReal :=
  max (aggR srcc dstc d xw v k + b k) 0

theorem hid_eq (d : Fin 100000 → EReal) (xw : Fin 100000 → Fin 32 → EReal) (b : Fin 32 → EReal)
    (hd : ∀ v, IsReal (d v)) (hxw : ∀ v k, IsReal (xw v k)) :
    hidR (catW src) (catW dst) d xw b = hidK src dst d xw b := by
  funext v k
  unfold hidR hidK
  rw [agg_eq src dst d xw hd hxw v k]

theorem hidK_real (d : Fin 100000 → EReal) (xw : Fin 100000 → Fin 32 → EReal) (b : Fin 32 → EReal)
    (hd : ∀ v, IsReal (d v)) (hxw : ∀ v k, IsReal (xw v k)) (hb : ∀ k, IsReal (b k)) (v : Fin 100000) (k : Fin 32) :
    IsReal (hidK src dst d xw b v k) := by
  unfold hidK aggK
  refine IsReal.max (IsReal.add (IsReal.mul (hd v) (IsReal.add (IsReal.add IsReal.zero (IsReal.sum _ _ fun e => ?_)) ?_)) (hb k)) IsReal.zero
  · exact IsReal.ite ((hd _).mul (hxw _ _)) IsReal.zero
  · exact (hd v).mul (hxw v k)

end Layer

/-! ## The exponential linear unit, in its two spellings -/

/-- The unit as a selection between `z` and `1 · (exp z' - 1)`, `z'` being `0` where `z` is positive and `z` elsewhere. -/
def eluR (z : EReal) : EReal :=
  Scalar.select (Ideal.cmp .ogt z 0) z (1 * (Ideal.exp (Scalar.select (Ideal.cmp .ogt z 0) 0 z) - 1))

theorem eluR_eq (z : EReal) : eluR z = eluK z := by
  unfold eluR eluK Ideal.cmp
  by_cases h : (0 : EReal) < z
  · have hb : BitVec.ofBool (decide ((0 : EReal) < z)) = 1#1 := by rw [decide_eq_true h]; rfl
    simp only [hb]
    rw [if_pos h]
    exact if_pos rfl
  · have hb : BitVec.ofBool (decide ((0 : EReal) < z)) = 0#1 := by rw [decide_eq_false h]; rfl
    simp only [hb]
    rw [if_neg h]
    have hs : ∀ a b : EReal, Scalar.select 0#1 a b = b := fun a b => if_neg (by decide)
    rw [hs, hs, one_mul]

/-! ## The head -/

/-- The dense head over a clipped row function `h`, with the unit `u`. -/
def outOf (h : Fin 100000 → Fin 32 → EReal) (wo1 : Mat 32 16) (bo1 : Vc 16) (wo2 : Mat 16 1) (bo2 : Vc 1) (u : EReal → EReal)
    (v : Fin 100000) : EReal :=
  (∑ j : Fin 16, u ((∑ k : Fin 32, h v k * wo1 (ix2 k j)) + bo1 (ix1 j)) * wo2 (ix2 j (0 : Fin 1))) + bo2 (ix1 (0 : Fin 1))

/-! ## The two pipelines -/

section Pipelines
variable {E : Nat} (src dst : Fin E → BitVec 32)
variable (x : Mat 100000 11) (w1 : Mat 11 32) (b1 : Vc 32) (w2 : Mat 32 32) (b2 : Vc 32)
  (wo1 : Mat 32 16) (bo1 : Vc 16) (wo2 : Mat 16 1) (bo2 : Vc 1)

/-- The node factor: the inverse square root of one plus the in-degree over the real edges. -/
def dK (v : Fin 100000) : EReal := Ideal.rsqrt (degK dst v)

/-- The node factor as a column array. -/
def dcol : Mat 100000 1 := fun j => dK dst (j 0)

/-- One round of message passing over an array of rows. -/
def pass (xs : Mat 100000 32) : Mat 100000 32 := fun j =>
  0 + ∑ e : Fin E, if (dst e).toInt = ((j 0).val : Int) then xs (ix2 (rowOf (src e)) (j 1)) else 0

/-- The input features times the first weight matrix. -/
def xw1 (v : Fin 100000) (q : Fin 32) : EReal := ∑ k : Fin 11, x (ix2 v k) * w1 (ix2 k q)

/-- First layer's clipped output, scaled-rows form. -/
def h1K : Fin 100000 → Fin 32 → EReal := hidK src dst (dK dst) (xw1 x w1) (fun k => b1 (ix1 k))

/-- Second layer's features. -/
def xw2K (v : Fin 100000) (q : Fin 32) : EReal := ∑ k : Fin 32, h1K src dst x w1 b1 v k * w2 (ix2 k q)

/-- Second layer's clipped output, scaled-rows form. -/
def h2K : Fin 100000 → Fin 32 → EReal := hidK src dst (dK dst) (xw2K src dst x w1 b1 w2) (fun k => b2 (ix1 k))

/-- The result of the program that scales rows before the neighbour sum, as the composition of the three regions'
    functions and the message passing between them. -/
def kOut (v : Fin 100000) : EReal :=
  g2 (pass src dst (G1 (pass src dst (G0 x w1 (dcol dst))) (G0 x w1 (dcol dst)) (dcol dst) b1 w2))
    (G1 (pass src dst (G0 x w1 (dcol dst))) (G0 x w1 (dcol dst)) (dcol dst) b1 w2) (dcol dst) b2 wo1 bo1 wo2 bo2 v

/-- The same result with the layers named. -/
theorem kOut_eq (v : Fin 100000) :
    kOut src dst x w1 b1 w2 b2 wo1 bo1 wo2 bo2 v = outOf (h2K src dst x w1 b1 w2 b2) wo1 bo1 wo2 bo2 eluK v := rfl

/-- The node factor over the edge list that holds the loops. -/
def dR (v : Fin 100000) : EReal := Ideal.rsqrt (degR (catW dst) v)

def h1R : Fin 100000 → Fin 32 → EReal := hidR (catW src) (catW dst) (dR dst) (xw1 x w1) (fun k => b1 (ix1 k))

def xw2R (v : Fin 100000) (q : Fin 32) : EReal := ∑ k : Fin 32, h1R src dst x w1 b1 v k * w2 (ix2 k q)

def h2R : Fin 100000 → Fin 32 → EReal := hidR (catW src) (catW dst) (dR dst) (xw2R src dst x w1 b1 w2) (fun k => b2 (ix1 k))

/-- The result of the program that weights every edge (loops included) by both endpoints' factors. -/
def rOut (v : Fin 100000) : EReal := outOf (h2R src dst x w1 b1 w2 b2) wo1 bo1 wo2 bo2 eluR v

theorem dR_eq : dR dst = dK dst := funext fun v => by unfold dR dK; rw [deg_eq]

theorem dK_real (v : Fin 100000) : IsReal (dK dst v) := rsqrt_degK_real dst v

/-- On finite inputs the two programs' results agree. -/
theorem bridge (hx : ∀ i, IsReal (x i)) (hw1 : ∀ i, IsReal (w1 i)) (hb1 : ∀ i, IsReal (b1 i)) (hw2 : ∀ i, IsReal (w2 i))
    (hb2 : ∀ i, IsReal (b2 i)) (v : Fin 100000) :
    rOut src dst x w1 b1 w2 b2 wo1 bo1 wo2 bo2 v = kOut src dst x w1 b1 w2 b2 wo1 bo1 wo2 bo2 v := by
  have hxw1 : ∀ u k, IsReal (xw1 x w1 u k) := fun u k => IsReal.sum _ _ fun j => (hx _).mul (hw1 _)
  have h1 : h1R src dst x w1 b1 = h1K src dst x w1 b1 := by
    unfold h1R h1K
    rw [dR_eq]
    exact hid_eq src dst _ _ _ (dK_real dst) hxw1
  have h1real : ∀ u k, IsReal (h1K src dst x w1 b1 u k) := fun u k =>
    hidK_real src dst _ _ _ (dK_real dst) hxw1 (fun k => hb1 _) u k
  have hxw2 : xw2R src dst x w1 b1 w2 = xw2K src dst x w1 b1 w2 := by
    funext u q; unfold xw2R xw2K; rw [h1]
  have hxw2real : ∀ u k, IsReal (xw2K src dst x w1 b1 w2 u k) := fun u k =>
    IsReal.sum _ _ fun j => (h1real u j).mul (hw2 _)
  have h2 : h2R src dst x w1 b1 w2 b2 = h2K src dst x w1 b1 w2 b2 := by
    unfold h2R h2K
    rw [dR_eq, hxw2]
    exact hid_eq src dst _ _ _ (dK_real dst) hxw2real
  rw [kOut_eq]
  unfold rOut
  rw [h2, show (eluR : EReal → EReal) = eluK from funext eluR_eq]

end Pipelines

end GcnModel

end
-- ==== Proof.KArr.lean ====
/-
  The kernel program's host stretches as whole arrays: the node factor column is the model's column of inverse square
  roots of degrees, and one round of message passing is the model's neighbour sum.
-/
import proofs.«147412_j74826920231167_2_alg».proof.Proof.KRead
import proofs.«147412_j74826920231167_2_alg».proof.Proof.Model

noncomputable section

open scoped BigOperators

namespace Cert.KernelIdeal.KArr

open Idealize.ShloMosaic Idealize.ShloMosaic.ValueIdx Idealize.SL.Sem
open Cert.KernelIdeal Cert.KernelIdeal.Facts₀ Cert.KernelIdeal.Facts

variable [Facts]

/-- The source words of the edges: row 0 of the edge list. -/
abbrev srcOf (ei : (⟨S2x3200000, .i32⟩ : BufTy).Contents (Elt Ideal)) : Fin 3200000 → BitVec 32 := fun e => ei (ix2 (0 : Fin 2) e)
/-- The target words of the edges: row 1 of the edge list. -/
abbrev dstOf (ei : (⟨S2x3200000, .i32⟩ : BufTy).Contents (Elt Ideal)) : Fin 3200000 → BitVec 32 := fun e => ei (ix2 (1 : Fin 2) e)

theorem dinv_eq (ei : (⟨S2x3200000, .i32⟩ : BufTy).Contents (Elt Ideal)) :
    (KTerm.dinv ei : GcnSpec.Mat 100000 1) = GcnModel.dcol (dstOf ei) := by
  funext j
  obtain ⟨v, u, rfl⟩ : ∃ (v : Fin 100000) (u : Fin 1), j = ix2 v u := ⟨j 0, j 1, eq_ix2 j⟩
  obtain rfl : u = 0 := Subsingleton.elim _ _
  exact KRead.dinv_apply ei v

theorem scat_eq (ei : (⟨S2x3200000, .i32⟩ : BufTy).Contents (Elt Ideal)) (xs : (⟨S100000x32, .bf16⟩ : BufTy).Contents (Elt Ideal)) :
    (KTerm.scat ei xs : GcnSpec.Mat 100000 32) = GcnModel.pass (srcOf ei) (dstOf ei) (xs : GcnSpec.Mat 100000 32) := by
  funext j
  obtain ⟨v, q, rfl⟩ : ∃ (v : Fin 100000) (q : Fin 32), j = ix2 v q := ⟨j 0, j 1, eq_ix2 j⟩
  exact KRead.scat_apply ei xs v q

end Cert.KernelIdeal.KArr

end
-- ==== Proof.KVal.lean ====
/-
  The kernel program's result as the model's function of the arguments.

  Region 0 leaves the first scaled features (`G0` of the inputs, the first weight matrix and the node factor column);
  the host then passes messages along the edges; region 1 leaves the second scaled features (`G1` of that neighbour sum,
  the first scaled features, the factor column, the first bias and the second weight matrix); the host passes messages
  again; region 2 leaves the head's one column (`G2`), which the last host line reads as a vector. No region or host
  line in between touches a buffer another one still needs, so each region finds what the previous ones left.
-/
import proofs.«147412_j74826920231167_2_alg».proof.Proof.KThread
import proofs.«147412_j74826920231167_2_alg».proof.Proof.KRegion0
import proofs.«147412_j74826920231167_2_alg».proof.Proof.KRegion1
import proofs.«147412_j74826920231167_2_alg».proof.Proof.KRegion2
import proofs.«147412_j74826920231167_2_alg».proof.Proof.KArr
import proofs.«147412_j74826920231167_2_alg».proof.Proof.LibColumns

noncomputable section

namespace Cert.KernelIdeal.KVal

open Idealize.ShloMosaic Idealize.ShloMosaic.TcCoe Idealize.ShloMosaic.ValueIdx
open Idealize.SL Idealize.SL.Sem
open Cert.KernelIdeal Cert.KernelIdeal.Gen Cert.KernelIdeal.KThread Cert.KernelIdeal.KArr

variable (m : (ℓ : Loc nD τ sig) → Buf (Elt Ideal) ℓ) (ρ : Dev nD → PrngReg) (c : Dev nD)

/-- Region 0's output array: the first scaled features. -/
theorem arr0_eq : (arr0 m ρ c : GcnSpec.Mat 100000 32) = (GcnSpec.G0 (m ((c : Thread nD τ).loc main_arg0)) (m ((c : Thread nD τ).loc main_arg3)) (GcnModel.dcol (dstOf (m ((c : Thread nD τ).loc main_arg1))))) := by
  have h := KRegion0.final0 (V1 m ρ) c
  rw [V1_arg0, V1_arg3, V1_v13, dinv_eq] at h
  exact h

/-- Region 1's output array: the second scaled features. -/
theorem arr1_eq : (arr1 m ρ c : GcnSpec.Mat 100000 32) = (GcnSpec.G1 (GcnModel.pass (srcOf (m ((c : Thread nD τ).loc main_arg1))) (dstOf (m ((c : Thread nD τ).loc main_arg1))) (GcnSpec.G0 (m ((c : Thread nD τ).loc main_arg0)) (m ((c : Thread nD τ).loc main_arg3)) (GcnModel.dcol (dstOf (m ((c : Thread nD τ).loc main_arg1)))))) (GcnSpec.G0 (m ((c : Thread nD τ).loc main_arg0)) (m ((c : Thread nD τ).loc main_arg3)) (GcnModel.dcol (dstOf (m ((c : Thread nD τ).loc main_arg1))))) (GcnModel.dcol (dstOf (m ((c : Thread nD τ).loc main_arg1)))) (m ((c : Thread nD τ).loc main_arg4)) (m ((c : Thread nD τ).loc main_arg5))) := by
  have h := KRegion1.final1 (V3 m ρ) c
  rw [V3_v25, V3_v14, V3_v13, V3_arg4, V3_arg5, dinv_eq, scat_eq, arr0_eq] at h
  exact h

/-- Region 2's output array: the head's one column. -/
theorem arr2_eq : (arr2 m ρ c : GcnSpec.Mat 100000 1) = (GcnSpec.G2 (GcnModel.pass (srcOf (m ((c : Thread nD τ).loc main_arg1))) (dstOf (m ((c : Thread nD τ).loc main_arg1))) (GcnSpec.G1 (GcnModel.pass (srcOf (m ((c : Thread nD τ).loc main_arg1))) (dstOf (m ((c : Thread nD τ).loc main_arg1))) (GcnSpec.G0 (m ((c : Thread nD τ).loc main_arg0)) (m ((c : Thread nD τ).loc main_arg3)) (GcnModel.dcol (dstOf (m ((c : Thread nD τ).loc main_arg1)))))) (GcnSpec.G0 (m ((c : Thread nD τ).loc main_arg0)) (m ((c : Thread nD τ).loc main_arg3)) (GcnModel.dcol (dstOf (m ((c : Thread nD τ).loc main_arg1))))) (GcnModel.dcol (dstOf (m ((c : Thread nD τ).loc main_arg1)))) (m ((c : Thread nD τ).loc main_arg4)) (m ((c : Thread nD τ).loc main_arg5)))) (GcnSpec.G1 (GcnModel.pass (srcOf (m ((c : Thread nD τ).loc main_arg1))) (dstOf (m ((c : Thread nD τ).loc main_arg1))) (GcnSpec.G0 (m ((c : Thread nD τ).loc main_arg0)) (m ((c : Thread nD τ).loc main_arg3)) (GcnModel.dcol (dstOf (m ((c : Thread nD τ).loc main_arg1)))))) (GcnSpec.G0 (m ((c : Thread nD τ).loc main_arg0)) (m ((c : Thread nD τ).loc main_arg3)) (GcnModel.dcol (dstOf (m ((c : Thread nD τ).loc main_arg1))))) (GcnModel.dcol (dstOf (m ((c : Thread nD τ).loc main_arg1)))) (m ((c : Thread nD τ).loc main_arg4)) (m ((c : Thread nD τ).loc main_arg5))) (GcnModel.dcol (dstOf (m ((c : Thread nD τ).loc main_arg1)))) (m ((c : Thread nD τ).loc main_arg6)) (m ((c : Thread nD τ).loc main_arg7)) (m ((c : Thread nD τ).loc main_arg8)) (m ((c : Thread nD τ).loc main_arg9)) (m ((c : Thread nD τ).loc main_arg10))) := by
  have h := KRegion2.final2 (V5 m ρ) c
  rw [V5_v37, V5_v26, V5_v13, V5_arg6, V5_arg7, V5_arg8, V5_arg9, V5_arg10, dinv_eq, scat_eq, arr1_eq] at h
  exact h

/-- The program's result at node `v`. -/
theorem value (v : Fin 100000) :
    (W7 m ρ c (Proc.devRef .tc main_v39) : S100000.Idx → EReal) (ix1 v)
      = GcnModel.kOut (srcOf (m ((c : Thread nD τ).loc main_arg1))) (dstOf (m ((c : Thread nD τ).loc main_arg1))) (m ((c : Thread nD τ).loc main_arg0)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) v := by
  rw [res_eq]
  refine (shapeCast_a1_a_apply _ _ v).trans ?_
  rw [arr2_eq]
  rfl

end Cert.KernelIdeal.KVal

end
-- ==== Proof.RefTerm.lean ====
/-
  The reference function of the two-layer graph convolution with a dense head, as one composed term of its arguments at
  the ideal instance (floats are extended reals), stage by stage.

  The edge table `ei` has two rows of 3200000 node numbers: row 0 the sources, row 1 the destinations. Each row is
  extended by the 100000 self loops `0 … 99999` (`srcc`, `dstc`). A node's degree is the number of extended edges that
  arrive at it (`deg`: ones added through the destination column), its factor the reciprocal square root of the degree
  (`dinv`), an edge's weight the product of the factors of its two ends (`nrm`). A layer (`layer`) gathers the rows of
  its input at the edges' sources, scales each by the edge's weight, adds them up at the edges' destinations, adds a bias
  row and clips below at zero. The head (`head`) is a dense map to 16 columns, the exponential linear unit (`elu`), a dense
  map to one column, and the one column read as a vector. `result` composes them.
-/
import proofs.«147412_j74826920231167_2_alg».proof.ReferenceIdeal
import Idealize.ShloMosaic.PureOps.Ideal

noncomputable section

namespace Cert.ReferenceIdeal.RefTerm

open Cert.ReferenceIdeal Idealize.ShloMosaic Idealize.SL.Sem

variable [Facts]
open Facts₀ Facts

/-- The source column: row 0 of the edge table, then the self loops `0 … 99999`. -/
def srcc (ei : IVec S2x3200000 32) : IVec S3300000 32 :=
  concatenate S3300000 0
    [⟨S3200000, shapeCast S3200000 (extractStridedSlice S1x3200000 ![0, 0] ei slices_S2x3200000_S1x3200000_0_0) shapeCasts_S1x3200000_S3200000⟩,
     ⟨S100000, iotaInDim S100000 32 0⟩]
    concatenates_S3200000_S100000_S3300000_d0

/-- The destination column: row 1 of the edge table, then the self loops `0 … 99999`. -/
def dstc (ei : IVec S2x3200000 32) : IVec S3300000 32 :=
  concatenate S3300000 0
    [⟨S3200000, shapeCast S3200000 (extractStridedSlice S1x3200000 ![1, 0] ei slices_S2x3200000_S1x3200000_1_0) shapeCasts_S1x3200000_S3200000⟩,
     ⟨S100000, iotaInDim S100000 32 0⟩]
    concatenates_S3200000_S100000_S3300000_d0

/-- A column of node numbers with the negative ones moved up by the node count 100000. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32)))
    v

/-- The degrees: one added at the destination of every extended edge, from zero. -/
def deg (ei : IVec S2x3200000 32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 (dstc ei))
    (broadcastInDim S3300000 ![] bcast_S_S3300000 (constant (F := Ideal) S_ .f32 0x3F800000#32))

/-- The factors: the reciprocal square roots of the degrees. -/
def dinv (ei : IVec S2x3200000 32) : FVec Ideal S100000 .f32 :=
  Host.rsqrt (F := Ideal) (deg ei)

/-- The edge weights: the factor at the edge's source times the factor at its destination. -/
def nrm (ei : IVec S2x3200000 32) : FVec Ideal S3300000 .f32 :=
  mulf (F := Ideal)
    (Host.gather gather_S100000_S3300000x1_S3300000_n_0_n_n_0_1_1 (dinv ei)
      (broadcastInDim S3300000x1 ![0] bcast_S3300000_S3300000x1_0 (wrap (srcc ei))))
    (Host.gather gather_S100000_S3300000x1_S3300000_n_0_n_n_0_1_1 (dinv ei)
      (broadcastInDim S3300000x1 ![0] bcast_S3300000_S3300000x1_0 (wrap (dstc ei))))

/-- One layer: the rows of `xw` at the sources `srcw`, each times its edge's weight, added up at the destinations
    `dstraw` from zero; plus the bias row `b`; clipped below at zero. -/
def layer (nrm : FVec Ideal S3300000 .f32) (srcw dstraw : IVec S3300000 32) (xw : FVec Ideal S100000x32 .f32)
    (b : FVec Ideal S32 .f32) : FVec Ideal S100000x32 .f32 :=
  maximumf (F := Ideal)
    (addf (F := Ideal)
      (Host.scatterAdd (F := Ideal) scatter_S100000x32_S3300000x1_S3300000x32_1_0_0_1
        (broadcastInDim S100000x32 ![] bcast_S_S100000x32 (constant (F := Ideal) S_ .f32 0x00000000#32))
        (broadcastInDim S3300000x1 ![0] bcast_S3300000_S3300000x1_0 dstraw)
        (mulf (F := Ideal)
          (broadcastInDim S3300000x32 ![0, 1] bcast_S3300000x1_S3300000x32_0_1
            (broadcastInDim S3300000x1 ![0] bcast_S3300000_S3300000x1_0 nrm))
          (Host.gather gather_S100000x32_S3300000x1_S3300000x32_1_0_n_n_0_1_132 xw
            (broadcastInDim S3300000x1 ![0] bcast_S3300000_S3300000x1_0 srcw))))
      (broadcastInDim S100000x32 ![0, 1] bcast_S1x32_S100000x32_0_1 (broadcastInDim S1x32 ![1] bcast_S32_S1x32_1 b)))
    (broadcastInDim S100000x32 ![] bcast_S_S100000x32 (constant (F := Ideal) S_ .f32 0x00000000#32))

/-- The exponential linear unit, entry by entry: `z` where `z > 0`, elsewhere `1 · expm1 z'` with `z'` the entry
    `z` where `z > 0` fails and `0` where it holds. -/
def elu (z : FVec Ideal S100000x16 .f32) : FVec Ideal S100000x16 .f32 :=
  select (cmpf (F := Ideal) .ogt z (broadcastInDim S100000x16 ![] bcast_S_S100000x16 (constant (F := Ideal) S_ .f32 0x00000000#32)))
    z
    (mulf (F := Ideal)
      (broadcastInDim S100000x16 ![] bcast_S_S100000x16 (constant (F := Ideal) S_ .f32 0x3F800000#32))
      (Host.expm1 (F := Ideal)
        (select (cmpf (F := Ideal) .ogt z (broadcastInDim S100000x16 ![] bcast_S_S100000x16 (constant (F := Ideal) S_ .f32 0x00000000#32)))
          (broadcastInDim S100000x16 ![] bcast_S_S100000x16 (constant (F := Ideal) S_ .f32 0x00000000#32))
          z)))

/-- The head: `h · Wo1 + bo1`, the exponential linear unit, `· Wo2 + bo2`, and the one column as a vector. -/
def head (h : FVec Ideal S100000x32 .f32) (Wo1 : FVec Ideal S32x16 .f32) (bo1 : FVec Ideal S16 .f32)
    (Wo2 : FVec Ideal S16x1 .f32) (bo2 : FVec Ideal S1 .f32) : FVec Ideal S100000 .f32 :=
  shapeCast S100000
    (addf (F := Ideal)
      (Host.dotGeneral (F := Ideal) dot_S100000x16_S16x1_S100000x1_1_0_0_1_n_n none
        (elu
          (addf (F := Ideal)
            (Host.dotGeneral (F := Ideal) dot_S100000x32_S32x16_S100000x16_1_0_0_1_n_n none h Wo1)
            (broadcastInDim S100000x16 ![0, 1] bcast_S1x16_S100000x16_0_1 (broadcastInDim S1x16 ![1] bcast_S16_S1x16_1 bo1))))
        Wo2)
      (broadcastInDim S100000x1 ![0, 1] bcast_S1x1_S100000x1_0_1 (broadcastInDim S1x1 ![1] bcast_S1_S1x1_1 bo2)))
    shapeCasts_S100000x1_S100000

/-- The reference's result as one term of its arguments: two layers over the edge weights, then the head. -/
def result (x : (⟨S100000x11, .f32⟩ : BufTy).Contents (Elt Ideal)) (ei : (⟨S2x3200000, .i32⟩ : BufTy).Contents (Elt Ideal))
    (W1 : (⟨S11x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal))
    (Wo1 : (⟨S32x16, .f32⟩ : BufTy).Contents (Elt Ideal)) (bo1 : (⟨S16, .f32⟩ : BufTy).Contents (Elt Ideal))
    (Wo2 : (⟨S16x1, .f32⟩ : BufTy).Contents (Elt Ideal)) (bo2 : (⟨S1, .f32⟩ : BufTy).Contents (Elt Ideal)) :
    (⟨S100000, .f32⟩ : BufTy).Contents (Elt Ideal) :=
  head
    (layer (nrm ei) (wrap (srcc ei)) (dstc ei)
      (Host.dotGeneral (F := Ideal) (φ₁ := .f32) (φ₂ := .f32) dot_S100000x32_S32x32_S100000x32_1_0_0_1_n_n none
        (layer (nrm ei) (wrap (srcc ei)) (dstc ei)
          (Host.dotGeneral (F := Ideal) (φ₁ := .f32) (φ₂ := .f32) dot_S100000x11_S11x32_S100000x32_1_0_0_1_n_n none x W1) b1)
        W2)
      b2)
    Wo1 bo1 Wo2 bo2

end Cert.ReferenceIdeal.RefTerm

end
-- ==== Proof.RefOps.lean ====
/-
  The reference function's @main as a list of array operations. @main is a straight line: its own lines in order,
  with the lines of the functions it calls (the clip at zero, twice; the exponential linear unit, which itself calls the
  two selections) written in place at each call, over that call's own arrays. The list is stated in the two halves
  @main is printed in.
-/
import proofs.«147412_j74826920231167_2_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo

variable [Facts]
open Facts₀ Facts

variable {F : FTy → Type} [FloatOps F]

/-- The first half of @main (its first 60 lines), the first clip's three lines written in place at its call:
    62 operations. -/
abbrev ops0 : List (HloOp τ sig (Elt F)) :=
  [
    StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S3300000 ![] bcast_S_S3300000 : (⟨S_, .i32⟩ : BufTy).Contents (Elt F) → (⟨S3300000, .i32⟩ : BufTy).Contents (Elt F)),
    StableHlo.binary main_v3 main_v12 main_v13 (cmpi .slt : (⟨S3300000, .i32⟩ : BufTy).Contents (Elt F) → (⟨S3300000, .i32⟩ : BufTy).Contents (Elt F) → (⟨S3300000, .i1⟩ : BufTy).Contents (Elt F)),
    StableHlo.nullary main_c_1 (constantI S_ 32 100000#32),
    StableHlo.unary main_c_1 main_v14 (broadcastInDim S3300000 ![] bcast_S_S3300000 : (⟨S_, .i32⟩ : BufTy).Contents (Elt F) → (⟨S3300000, .i32⟩ : BufTy).Contents (Elt F)),
    StableHlo.binary main_v3 main_v14 main_v15 (addi : (⟨S3300000, .i32⟩ : BufTy).Contents (Elt F) → (⟨S3300000, .i32⟩ : BufTy).Contents (Elt F) → (⟨S3300000, .i32⟩ : BufTy).Contents (Elt F)),
    StableHlo.ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v16 main_v17 (broadcastInDim S3300000x1 ![0] bcast_S3300000_S3300000x1_0 : (⟨S3300000, .i32⟩ : BufTy).Contents (Elt F) → (⟨S3300000x1, .i32⟩ : BufTy).Contents (Elt F)),
    StableHlo.binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_2 (constantI S_ 32 0#32),
    StableHlo.unary main_c_2 main_v19 (broadcastInDim S3300000 ![] bcast_S_S3300000 : (⟨S_, .i32⟩ : BufTy).Contents (Elt F) → (⟨S3300000, .i32⟩ : BufTy).Contents (Elt F)),
    StableHlo.binary main_v6 main_v19 main_v20 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v21 (broadcastInDim S3300000 ![] bcast_S_S3300000 : (⟨S_, .i32⟩ : BufTy).Contents (Elt F) → (⟨S3300000, .i32⟩ : BufTy).Contents (Elt F)),
    StableHlo.binary main_v6 main_v21 main_v22 (addi : (⟨S3300000, .i32⟩ : BufTy).Contents (Elt F) → (⟨S3300000, .i32⟩ : BufTy).Contents (Elt F) → (⟨S3300000, .i32⟩ : BufTy).Contents (Elt F)),
    StableHlo.ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v23 main_v24 (broadcastInDim S3300000x1 ![0] bcast_S3300000_S3300000x1_0 : (⟨S3300000, .i32⟩ : BufTy).Contents (Elt F) → (⟨S3300000x1, .i32⟩ : BufTy).Contents (Elt F)),
    StableHlo.binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v18 main_v25 main_v26 (mulf : (⟨S3300000, .f32⟩ : BufTy).Contents (Elt F) → (⟨S3300000, .f32⟩ : BufTy).Contents (Elt F) → (⟨S3300000, .f32⟩ : BufTy).Contents (Elt F)),
    StableHlo.binary main_arg0 main_arg3 main_v27 ((fun l r => Host.dotGeneral dot_S100000x11_S11x32_S100000x32_1_0_0_1_n_n none l r) : (⟨S100000x11, .f32⟩ : BufTy).Contents (Elt F) → (⟨S11x32, .f32⟩ : BufTy).Contents (Elt F) → (⟨S100000x32, .f32⟩ : BufTy).Contents (Elt F)),
    StableHlo.unary main_v26 main_v28 (broadcastInDim S3300000x1 ![0] bcast_S3300000_S3300000x1_0 : (⟨S3300000, .f32⟩ : BufTy).Contents (Elt F) → (⟨S3300000x1, .f32⟩ : BufTy).Contents (Elt F)),
    StableHlo.nullary main_c_4 (constantI S_ 32 0#32),
    StableHlo.unary main_c_4 main_v29 (broadcastInDim S3300000 ![] bcast_S_S3300000 : (⟨S_, .i32⟩ : BufTy).Contents (Elt F) → (⟨S3300000, .i32⟩ : BufTy).Contents (Elt F)),
    StableHlo.binary main_v3 main_v29 main_v30 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v31 (broadcastInDim S3300000 ![] bcast_S_S3300000 : (⟨S_, .i32⟩ : BufTy).Contents (Elt F) → (⟨S3300000, .i32⟩ : BufTy).Contents (Elt F)),
    StableHlo.binary main_v3 main_v31 main_v32 (addi : (⟨S3300000, .i32⟩ : BufTy).Contents (Elt F) → (⟨S3300000, .i32⟩ : BufTy).Contents (Elt F) → (⟨S3300000, .i32⟩ : BufTy).Contents (Elt F)),
    StableHlo.ternary main_v30 main_v32 main_v3 main_v33 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v33 main_v34 (broadcastInDim S3300000x1 ![0] bcast_S3300000_S3300000x1_0 : (⟨S3300000, .i32⟩ : BufTy).Contents (Elt F) → (⟨S3300000x1, .i32⟩ : BufTy).Contents (Elt F)),
    StableHlo.binary main_v27 main_v34 main_v35 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v28 main_v36 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v36 main_v35 main_v37 (mulf : (⟨S3300000x32, .f32⟩ : BufTy).Contents (Elt F) → (⟨S3300000x32, .f32⟩ : BufTy).Contents (Elt F) → (⟨S3300000x32, .f32⟩ : BufTy).Contents (Elt F)),
    StableHlo.nullary main_cst_6 (constant S_ .f32 0x00000000#32),
    StableHlo.unary main_cst_6 main_v38 (broadcastInDim S100000x32 ![] bcast_S_S100000x32 : (⟨S_, .f32⟩ : BufTy).Contents (Elt F) → (⟨S100000x32, .f32⟩ : BufTy).Contents (Elt F)),
    StableHlo.unary main_v6 main_v39 (broadcastInDim S3300000x1 ![0] bcast_S3300000_S3300000x1_0 : (⟨S3300000, .i32⟩ : BufTy).Contents (Elt F) → (⟨S3300000x1, .i32⟩ : BufTy).Contents (Elt F)),
    StableHlo.ternary main_v38 main_v39 main_v37 main_v40 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg4 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S100000x32 ![0, 1] bcast_S1x32_S100000x32_0_1 : (⟨S1x32, .f32⟩ : BufTy).Contents (Elt F) → (⟨S100000x32, .f32⟩ : BufTy).Contents (Elt F)),
    StableHlo.binary main_v40 main_v42 main_v43 (addf : (⟨S100000x32, .f32⟩ : BufTy).Contents (Elt F) → (⟨S100000x32, .f32⟩ : BufTy).Contents (Elt F) → (⟨S100000x32, .f32⟩ : BufTy).Contents (Elt F)),
    StableHlo.TRef.nullary main_call0.cst (constant S_ .f32 0x00000000#32),
    StableHlo.TRef.unary main_call0.cst main_call0.v0 (broadcastInDim S100000x32 ![] bcast_S_S100000x32),
    StableHlo.TRef.binary (StableHlo.TRef.of main_v43 : StableHlo.TRef sig ⟨S100000x32, .f32⟩) main_call0.v0 main_call0.v1 maximumf,
    StableHlo.binary main_v44 main_arg5 main_v45 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_v26 main_v46 (broadcastInDim S3300000x1 ![0] bcast_S3300000_S3300000x1_0 : (⟨S3300000, .f32⟩ : BufTy).Contents (Elt F) → (⟨S3300000x1, .f32⟩ : BufTy).Contents (Elt F)),
    StableHlo.nullary main_c_7 (constantI S_ 32 0#32),
    StableHlo.unary main_c_7 main_v47 (broadcastInDim S3300000 ![] bcast_S_S3300000 : (⟨S_, .i32⟩ : BufTy).Contents (Elt F) → (⟨S3300000, .i32⟩ : BufTy).Contents (Elt F)),
    StableHlo.binary main_v3 main_v47 main_v48 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32) ]

/-- The second half of @main, the second clip's three lines and the exponential linear unit's fifteen written in
    place at their calls: 41 operations. -/
abbrev ops1 : List (HloOp τ sig (Elt F)) :=
  [
    StableHlo.unary main_c_8 main_v49 (broadcastInDim S3300000 ![] bcast_S_S3300000 : (⟨S_, .i32⟩ : BufTy).Contents (Elt F) → (⟨S3300000, .i32⟩ : BufTy).Contents (Elt F)),
    StableHlo.binary main_v3 main_v49 main_v50 (addi : (⟨S3300000, .i32⟩ : BufTy).Contents (Elt F) → (⟨S3300000, .i32⟩ : BufTy).Contents (Elt F) → (⟨S3300000, .i32⟩ : BufTy).Contents (Elt F)),
    StableHlo.ternary main_v48 main_v50 main_v3 main_v51 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v51 main_v52 (broadcastInDim S3300000x1 ![0] bcast_S3300000_S3300000x1_0 : (⟨S3300000, .i32⟩ : BufTy).Contents (Elt F) → (⟨S3300000x1, .i32⟩ : BufTy).Contents (Elt F)),
    StableHlo.binary main_v45 main_v52 main_v53 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v46 main_v54 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v54 main_v53 main_v55 (mulf : (⟨S3300000x32, .f32⟩ : BufTy).Contents (Elt F) → (⟨S3300000x32, .f32⟩ : BufTy).Contents (Elt F) → (⟨S3300000x32, .f32⟩ : BufTy).Contents (Elt F)),
    StableHlo.nullary main_cst_9 (constant S_ .f32 0x00000000#32),
    StableHlo.unary main_cst_9 main_v56 (broadcastInDim S100000x32 ![] bcast_S_S100000x32 : (⟨S_, .f32⟩ : BufTy).Contents (Elt F) → (⟨S100000x32, .f32⟩ : BufTy).Contents (Elt F)),
    StableHlo.unary main_v6 main_v57 (broadcastInDim S3300000x1 ![0] bcast_S3300000_S3300000x1_0 : (⟨S3300000, .i32⟩ : BufTy).Contents (Elt F) → (⟨S3300000x1, .i32⟩ : BufTy).Contents (Elt F)),
    StableHlo.ternary main_v56 main_v57 main_v55 main_v58 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg6 main_v59 (broadcastInDim S1x32 ![1] bcast_S32_S1x32_1 : (⟨S32, .f32⟩ : BufTy).Contents (Elt F) → (⟨S1x32, .f32⟩ : BufTy).Contents (Elt F)),
    StableHlo.unary main_v59 main_v60 (broadcastInDim S100000x32 ![0, 1] bcast_S1x32_S100000x32_0_1 : (⟨S1x32, .f32⟩ : BufTy).Contents (Elt F) → (⟨S100000x32, .f32⟩ : BufTy).Contents (Elt F)),
    StableHlo.binary main_v58 main_v60 main_v61 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (StableHlo.TRef.of main_v61 : StableHlo.TRef sig ⟨S100000x32, .f32⟩) main_call1.v0 main_call1.v1 maximumf,
    StableHlo.binary main_v62 main_arg7 main_v63 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg8 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S100000x16 ![0, 1] bcast_S1x16_S100000x16_0_1 : (⟨S1x16, .f32⟩ : BufTy).Contents (Elt F) → (⟨S100000x16, .f32⟩ : BufTy).Contents (Elt F)),
    StableHlo.binary main_v63 main_v65 main_v66 (addf : (⟨S100000x16, .f32⟩ : BufTy).Contents (Elt F) → (⟨S100000x16, .f32⟩ : BufTy).Contents (Elt F) → (⟨S100000x16, .f32⟩ : BufTy).Contents (Elt F)),
    StableHlo.TRef.nullary main_call2.cst (constant S_ .f32 0x00000000#32),
    StableHlo.TRef.unary main_call2.cst main_call2.v0 (broadcastInDim S100000x16 ![] bcast_S_S100000x16),
    StableHlo.TRef.binary (StableHlo.TRef.of main_v66 : StableHlo.TRef sig ⟨S100000x16, .f32⟩) main_call2.v0 main_call2.v1 (cmpf .ogt),
    StableHlo.TRef.nullary main_call2.cst_0 (constant S_ .f32 0x00000000#32),
    StableHlo.TRef.unary main_call2.cst_0 main_call2.v2 (broadcastInDim S100000x16 ![] bcast_S_S100000x16),
    StableHlo.TRef.binary (StableHlo.TRef.of main_v66 : StableHlo.TRef sig ⟨S100000x16, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x16 ![] bcast_S_S100000x16),
    StableHlo.TRef.ternary main_call2.v3 main_call2.call0.v1 (StableHlo.TRef.of main_v66 : StableHlo.TRef sig ⟨S100000x16, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x16 ![] bcast_S_S100000x16),
    StableHlo.TRef.binary main_call2.v6 main_call2.v5 main_call2.v7 mulf,
    StableHlo.TRef.ternary main_call2.v1 (StableHlo.TRef.of main_v66 : StableHlo.TRef sig ⟨S100000x16, .f32⟩) main_call2.v7 main_call2.call1.v0 select,
    StableHlo.binary main_v67 main_arg9 main_v68 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    StableHlo.unary main_arg10 main_v69 (broadcastInDim S1x1 ![1] bcast_S1_S1x1_1 : (⟨S1, .f32⟩ : BufTy).Contents (Elt F) → (⟨S1x1, .f32⟩ : BufTy).Contents (Elt F)),
    StableHlo.unary main_v69 main_v70 (broadcastInDim S100000x1 ![0, 1] bcast_S1x1_S100000x1_0_1 : (⟨S1x1, .f32⟩ : BufTy).Contents (Elt F) → (⟨S100000x1, .f32⟩ : BufTy).Contents (Elt F)),
    StableHlo.binary main_v68 main_v70 main_v71 (addf : (⟨S100000x1, .f32⟩ : BufTy).Contents (Elt F) → (⟨S100000x1, .f32⟩ : BufTy).Contents (Elt F) → (⟨S100000x1, .f32⟩ : BufTy).Contents (Elt F)),
    StableHlo.reshape main_v71 main_v72 rfl shapeCasts_S100000x1_S100000 ]

/-- @main's operations in order: the two halves. -/
abbrev ops : List (HloOp τ sig (Elt F)) := ops0 ++ ops1

/-- The contents after two lists run one after the other: the second's, from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub ..⟩

set_option maxRecDepth 8192 in
theorem ops1_sub : (ops1 : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

end Cert.ReferenceIdeal.RefOps

end
-- ==== Proof.RefMain.lean ====
/-
  The reference function's @main IS the straight line of its operations: each half of @main is its operations run in
  order (a called function's definition unfolds at its call, and sequencing computes), and @main is the two halves one
  after the other. Also: every operation of the line determines its results.
-/
import proofs.«147412_j74826920231167_2_alg».proof.Proof.RefOps

noncomputable section

namespace Cert.ReferenceIdeal.RefMain

open Cert.ReferenceIdeal Cert.ReferenceIdeal.RefOps Idealize.ShloMosaic Idealize.ShloMosaic.TcCoe Idealize.SL.Sem
  Idealize.ShloMosaic.StableHlo

variable [Facts]
open Facts₀ Facts

variable {F : FTy → Type} [FloatOps F]

set_option maxRecDepth 8192 in
set_option maxHeartbeats 4000000 in
/-- The first half of @main is its operations run in order. -/
theorem part0_eq (c : Dev nD) : main_part0 (F := F) c = seq ops0 := rfl

set_option maxRecDepth 8192 in
set_option maxHeartbeats 4000000 in
/-- The second half likewise. -/
theorem part1_eq (c : Dev nD) : main_part1 (F := F) c = seq ops1 := rfl

/-- @main is the two halves one after the other. -/
theorem main_eq (c : Dev nD) : main (F := F) c = seq ops := by
  rw [seq_append, ← part0_eq c, ← part1_eq c]
  rfl

set_option maxRecDepth 8192 in
/-- No operation of the first half leaves a result undetermined. -/
theorem ops0_fresh : ∀ op ∈ (ops0 : List (HloOp τ sig (Elt F))), op.fresh = ∅ := by
  intro _ h; (repeat (cases h with | head => rfl | tail _ h => ?_)); exact nomatch h

set_option maxRecDepth 8192 in
/-- Nor of the second. -/
theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  exacts [ops0_fresh op h, ops1_fresh op h]

end Cert.ReferenceIdeal.RefMain

end
-- ==== Proof.RefAfterArgs.lean ====
/-
  The reference function's arguments keep their contents through @main's operations: no operation of the line writes
  an argument array. Each half of the line writes only the arrays of its own list of results (`W0`, `W1`), an
  argument is in neither list, and an array that no operation of a line writes holds after it what it held before.
-/
import proofs.«147412_j74826920231167_2_alg».proof.Proof.RefOps
import Idealize.ShloMosaic.PureOps.Ideal

noncomputable section

namespace Cert.ReferenceIdeal.RefAfterArgs

open Cert.ReferenceIdeal Cert.ReferenceIdeal.RefOps Idealize.ShloMosaic Idealize.ShloMosaic.TcCoe Idealize.SL.Sem
  Idealize.ShloMosaic.StableHlo

variable [Facts]
open Facts₀ Facts

variable {F : FTy → Type} [FloatOps F]

/-- The arrays the first half's operations write, in order. -/
abbrev W0 : List (Ref sig .tc) :=
  [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_v28, main_c_4, main_v29, main_v30, main_c_5, main_v31, main_v32, main_v33, main_v34, main_v35, main_v36, main_v37, main_cst_6, main_v38, main_v39, main_v40, main_v41, main_v42, main_v43, main_call0_cst, main_call0_v0, main_v44, main_v45, main_v46, main_c_7, main_v47, main_v48, main_c_8]

/-- The arrays the second half's operations write, in order. -/
abbrev W1 : List (Ref sig .tc) :=
  [main_v49, main_v50, main_v51, main_v52, main_v53, main_v54, main_v55, main_cst_9, main_v56, main_v57, main_v58, main_v59, main_v60, main_v61, main_call1_cst, main_call1_v0, main_v62, main_v63, main_v64, main_v65, main_v66, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v67, main_v68, main_v69, main_v70, main_v71, main_v72]

set_option maxRecDepth 8192 in
set_option maxHeartbeats 2000000 in
/-- Each operation of the first half writes an array of `W0`. -/
theorem ops0_writes : (ops0 : List (HloOp τ sig (Elt F))).Forall fun op =>
    op.writes ⊆ (W0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
/-- Each operation of the second half writes an array of `W1`. -/
theorem ops1_writes : (ops1 : List (HloOp τ sig (Elt F))).Forall fun op =>
    op.writes ⊆ (W1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- An array outside both lists holds after @main's operations what it held before them. -/
theorem after_keep (V : Valuation τ sig (Elt F)) (r : Ref sig .tc) (h0 : r ∉ W0) (h1 : r ∉ W1) :
    after (ops (F := F)) V (Proc.devRef .tc r) = V (Proc.devRef .tc r) := by
  rw [after_append]
  exact (after_of_writes_sub ops1 _ ops1_writes h1).trans (after_of_writes_sub ops0 V ops0_writes h0)

theorem after_arg0 (V : Valuation τ sig (Elt Ideal)) :
    StableHlo.after (RefOps.ops (F := Ideal)) V (Proc.devRef .tc main_arg0) = V (Proc.devRef .tc main_arg0) :=
  after_keep V main_arg0 (by decide) (by decide)

theorem after_arg1 (V : Valuation τ sig (Elt Ideal)) :
    StableHlo.after (RefOps.ops (F := Ideal)) V (Proc.devRef .tc main_arg1) = V (Proc.devRef .tc main_arg1) :=
  after_keep V main_arg1 (by decide) (by decide)

theorem after_arg2 (V : Valuation τ sig (Elt Ideal)) :
    StableHlo.after (RefOps.ops (F := Ideal)) V (Proc.devRef .tc main_arg2) = V (Proc.devRef .tc main_arg2) :=
  after_keep V main_arg2 (by decide) (by decide)

theorem after_arg3 (V : Valuation τ sig (Elt Ideal)) :
    StableHlo.after (RefOps.ops (F := Ideal)) V (Proc.devRef .tc main_arg3) = V (Proc.devRef .tc main_arg3) :=
  after_keep V main_arg3 (by decide) (by decide)

theorem after_arg4 (V : Valuation τ sig (Elt Ideal)) :
    StableHlo.after (RefOps.ops (F := Ideal)) V (Proc.devRef .tc main_arg4) = V (Proc.devRef .tc main_arg4) :=
  after_keep V main_arg4 (by decide) (by decide)

theorem after_arg5 (V : Valuation τ sig (Elt Ideal)) :
    StableHlo.after (RefOps.ops (F := Ideal)) V (Proc.devRef .tc main_arg5) = V (Proc.devRef .tc main_arg5) :=
  after_keep V main_arg5 (by decide) (by decide)

theorem after_arg6 (V : Valuation τ sig (Elt Ideal)) :
    StableHlo.after (RefOps.ops (F := Ideal)) V (Proc.devRef .tc main_arg6) = V (Proc.devRef .tc main_arg6) :=
  after_keep V main_arg6 (by decide) (by decide)

theorem after_arg7 (V : Valuation τ sig (Elt Ideal)) :
    StableHlo.after (RefOps.ops (F := Ideal)) V (Proc.devRef .tc main_arg7) = V (Proc.devRef .tc main_arg7) :=
  after_keep V main_arg7 (by decide) (by decide)

theorem after_arg8 (V : Valuation τ sig (Elt Ideal)) :
    StableHlo.after (RefOps.ops (F := Ideal)) V (Proc.devRef .tc main_arg8) = V (Proc.devRef .tc main_arg8) :=
  after_keep V main_arg8 (by decide) (by decide)

theorem after_arg9 (V : Valuation τ sig (Elt Ideal)) :
    StableHlo.after (RefOps.ops (F := Ideal)) V (Proc.devRef .tc main_arg9) = V (Proc.devRef .tc main_arg9) :=
  after_keep V main_arg9 (by decide) (by decide)

theorem after_arg10 (V : Valuation τ sig (Elt Ideal)) :
    StableHlo.after (RefOps.ops (F := Ideal)) V (Proc.devRef .tc main_arg10) = V (Proc.devRef .tc main_arg10) :=
  after_keep V main_arg10 (by decide) (by decide)

end Cert.ReferenceIdeal.RefAfterArgs

end
-- ==== Proof.RefAfter.lean ====
/-
  The reference function's operation list folded over arbitrary buffer contents: the result buffer holds the composed
  term `RefTerm.result` of the argument buffers' contents, and no operation writes an argument buffer.

  The list is cut into six stretches — the edge columns, degrees and edge weights; each of the two layers before its
  clip, and its clip; the head — and each stretch is folded on its own over arbitrary contents `W`: the buffers it computes as terms of the
  buffers it reads, the buffers it leaves alone unchanged. The whole fold is the six in order.
-/
import proofs.«147412_j74826920231167_2_alg».proof.Proof.RefOps
import proofs.«147412_j74826920231167_2_alg».proof.Proof.RefTerm
import Idealize.ShloMosaic.Lib.StableHlo.Run

noncomputable section

namespace Cert.ReferenceIdeal.RefAfter

open Cert.ReferenceIdeal Idealize.ShloMosaic Idealize.ShloMosaic.TcCoe Idealize.SL.Sem Idealize.ShloMosaic.StableHlo

variable [Facts]
open Facts₀ Facts

/-! ## The six stretches -/

section Stretches

variable {F : FTy → Type} [FloatOps F]

/-- The edge columns with the self loops, the degrees, their reciprocal square roots, the edge weights: 33 operations. -/
abbrev sA : List (HloOp τ sig (Elt F)) :=
  [
    StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S3300000 ![] bcast_S_S3300000 : (⟨S_, .i32⟩ : BufTy).Contents (Elt F) → (⟨S3300000, .i32⟩ : BufTy).Contents (Elt F)),
    StableHlo.binary main_v3 main_v12 main_v13 (cmpi .slt : (⟨S3300000, .i32⟩ : BufTy).Contents (Elt F) → (⟨S3300000, .i32⟩ : BufTy).Contents (Elt F) → (⟨S3300000, .i1⟩ : BufTy).Contents (Elt F)),
    StableHlo.nullary main_c_1 (constantI S_ 32 100000#32),
    StableHlo.unary main_c_1 main_v14 (broadcastInDim S3300000 ![] bcast_S_S3300000 : (⟨S_, .i32⟩ : BufTy).Contents (Elt F) → (⟨S3300000, .i32⟩ : BufTy).Contents (Elt F)),
    StableHlo.binary main_v3 main_v14 main_v15 (addi : (⟨S3300000, .i32⟩ : BufTy).Contents (Elt F) → (⟨S3300000, .i32⟩ : BufTy).Contents (Elt F) → (⟨S3300000, .i32⟩ : BufTy).Contents (Elt F)),
    StableHlo.ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v16 main_v17 (broadcastInDim S3300000x1 ![0] bcast_S3300000_S3300000x1_0 : (⟨S3300000, .i32⟩ : BufTy).Contents (Elt F) → (⟨S3300000x1, .i32⟩ : BufTy).Contents (Elt F)),
    StableHlo.binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_2 (constantI S_ 32 0#32),
    StableHlo.unary main_c_2 main_v19 (broadcastInDim S3300000 ![] bcast_S_S3300000 : (⟨S_, .i32⟩ : BufTy).Contents (Elt F) → (⟨S3300000, .i32⟩ : BufTy).Contents (Elt F)),
    StableHlo.binary main_v6 main_v19 main_v20 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v21 (broadcastInDim S3300000 ![] bcast_S_S3300000 : (⟨S_, .i32⟩ : BufTy).Contents (Elt F) → (⟨S3300000, .i32⟩ : BufTy).Contents (Elt F)),
    StableHlo.binary main_v6 main_v21 main_v22 (addi : (⟨S3300000, .i32⟩ : BufTy).Contents (Elt F) → (⟨S3300000, .i32⟩ : BufTy).Contents (Elt F) → (⟨S3300000, .i32⟩ : BufTy).Contents (Elt F)),
    StableHlo.ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v23 main_v24 (broadcastInDim S3300000x1 ![0] bcast_S3300000_S3300000x1_0 : (⟨S3300000, .i32⟩ : BufTy).Contents (Elt F) → (⟨S3300000x1, .i32⟩ : BufTy).Contents (Elt F)),
    StableHlo.binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v18 main_v25 main_v26 (mulf : (⟨S3300000, .f32⟩ : BufTy).Contents (Elt F) → (⟨S3300000, .f32⟩ : BufTy).Contents (Elt F) → (⟨S3300000, .f32⟩ : BufTy).Contents (Elt F)) ]

/-- The first layer before its clip: 20 operations. -/
abbrev sB : List (HloOp τ sig (Elt F)) :=
  [
    StableHlo.binary main_arg0 main_arg3 main_v27 ((fun l r => Host.dotGeneral dot_S100000x11_S11x32_S100000x32_1_0_0_1_n_n none l r) : (⟨S100000x11, .f32⟩ : BufTy).Contents (Elt F) → (⟨S11x32, .f32⟩ : BufTy).Contents (Elt F) → (⟨S100000x32, .f32⟩ : BufTy).Contents (Elt F)),
    StableHlo.unary main_v26 main_v28 (broadcastInDim S3300000x1 ![0] bcast_S3300000_S3300000x1_0 : (⟨S3300000, .f32⟩ : BufTy).Contents (Elt F) → (⟨S3300000x1, .f32⟩ : BufTy).Contents (Elt F)),
    StableHlo.nullary main_c_4 (constantI S_ 32 0#32),
    StableHlo.unary main_c_4 main_v29 (broadcastInDim S3300000 ![] bcast_S_S3300000 : (⟨S_, .i32⟩ : BufTy).Contents (Elt F) → (⟨S3300000, .i32⟩ : BufTy).Contents (Elt F)),
    StableHlo.binary main_v3 main_v29 main_v30 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v31 (broadcastInDim S3300000 ![] bcast_S_S3300000 : (⟨S_, .i32⟩ : BufTy).Contents (Elt F) → (⟨S3300000, .i32⟩ : BufTy).Contents (Elt F)),
    StableHlo.binary main_v3 main_v31 main_v32 (addi : (⟨S3300000, .i32⟩ : BufTy).Contents (Elt F) → (⟨S3300000, .i32⟩ : BufTy).Contents (Elt F) → (⟨S3300000, .i32⟩ : BufTy).Contents (Elt F)),
    StableHlo.ternary main_v30 main_v32 main_v3 main_v33 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v33 main_v34 (broadcastInDim S3300000x1 ![0] bcast_S3300000_S3300000x1_0 : (⟨S3300000, .i32⟩ : BufTy).Contents (Elt F) → (⟨S3300000x1, .i32⟩ : BufTy).Contents (Elt F)),
    StableHlo.binary main_v27 main_v34 main_v35 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v28 main_v36 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v36 main_v35 main_v37 (mulf : (⟨S3300000x32, .f32⟩ : BufTy).Contents (Elt F) → (⟨S3300000x32, .f32⟩ : BufTy).Contents (Elt F) → (⟨S3300000x32, .f32⟩ : BufTy).Contents (Elt F)),
    StableHlo.nullary main_cst_6 (constant S_ .f32 0x00000000#32),
    StableHlo.unary main_cst_6 main_v38 (broadcastInDim S100000x32 ![] bcast_S_S100000x32 : (⟨S_, .f32⟩ : BufTy).Contents (Elt F) → (⟨S100000x32, .f32⟩ : BufTy).Contents (Elt F)),
    StableHlo.unary main_v6 main_v39 (broadcastInDim S3300000x1 ![0] bcast_S3300000_S3300000x1_0 : (⟨S3300000, .i32⟩ : BufTy).Contents (Elt F) → (⟨S3300000x1, .i32⟩ : BufTy).Contents (Elt F)),
    StableHlo.ternary main_v38 main_v39 main_v37 main_v40 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg4 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S100000x32 ![0, 1] bcast_S1x32_S100000x32_0_1 : (⟨S1x32, .f32⟩ : BufTy).Contents (Elt F) → (⟨S100000x32, .f32⟩ : BufTy).Contents (Elt F)),
    StableHlo.binary main_v40 main_v42 main_v43 (addf : (⟨S100000x32, .f32⟩ : BufTy).Contents (Elt F) → (⟨S100000x32, .f32⟩ : BufTy).Contents (Elt F) → (⟨S100000x32, .f32⟩ : BufTy).Contents (Elt F)) ]

/-- The first layer's clip at zero, written in place: 3 operations. -/
abbrev sBr : List (HloOp τ sig (Elt F)) :=
  [
    StableHlo.TRef.nullary main_call0.cst (constant S_ .f32 0x00000000#32),
    StableHlo.TRef.unary main_call0.cst main_call0.v0 (broadcastInDim S100000x32 ![] bcast_S_S100000x32),
    StableHlo.TRef.binary (StableHlo.TRef.of main_v43 : StableHlo.TRef sig ⟨S100000x32, .f32⟩) main_call0.v0 main_call0.v1 maximumf ]

/-- The second layer before its clip: 20 operations. -/
abbrev sC : List (HloOp τ sig (Elt F)) :=
  [
    StableHlo.binary main_v44 main_arg5 main_v45 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_v26 main_v46 (broadcastInDim S3300000x1 ![0] bcast_S3300000_S3300000x1_0 : (⟨S3300000, .f32⟩ : BufTy).Contents (Elt F) → (⟨S3300000x1, .f32⟩ : BufTy).Contents (Elt F)),
    StableHlo.nullary main_c_7 (constantI S_ 32 0#32),
    StableHlo.unary main_c_7 main_v47 (broadcastInDim S3300000 ![] bcast_S_S3300000 : (⟨S_, .i32⟩ : BufTy).Contents (Elt F) → (⟨S3300000, .i32⟩ : BufTy).Contents (Elt F)),
    StableHlo.binary main_v3 main_v47 main_v48 (cmpi .slt : (⟨S3300000, .i32⟩ : BufTy).Contents (Elt F) → (⟨S3300000, .i32⟩ : BufTy).Contents (Elt F) → (⟨S3300000, .i1⟩ : BufTy).Contents (Elt F)),
    StableHlo.nullary main_c_8 (constantI S_ 32 100000#32),
    StableHlo.unary main_c_8 main_v49 (broadcastInDim S3300000 ![] bcast_S_S3300000 : (⟨S_, .i32⟩ : BufTy).Contents (Elt F) → (⟨S3300000, .i32⟩ : BufTy).Contents (Elt F)),
    StableHlo.binary main_v3 main_v49 main_v50 (addi : (⟨S3300000, .i32⟩ : BufTy).Contents (Elt F) → (⟨S3300000, .i32⟩ : BufTy).Contents (Elt F) → (⟨S3300000, .i32⟩ : BufTy).Contents (Elt F)),
    StableHlo.ternary main_v48 main_v50 main_v3 main_v51 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v51 main_v52 (broadcastInDim S3300000x1 ![0] bcast_S3300000_S3300000x1_0 : (⟨S3300000, .i32⟩ : BufTy).Contents (Elt F) → (⟨S3300000x1, .i32⟩ : BufTy).Contents (Elt F)),
    StableHlo.binary main_v45 main_v52 main_v53 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v46 main_v54 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v54 main_v53 main_v55 (mulf : (⟨S3300000x32, .f32⟩ : BufTy).Contents (Elt F) → (⟨S3300000x32, .f32⟩ : BufTy).Contents (Elt F) → (⟨S3300000x32, .f32⟩ : BufTy).Contents (Elt F)),
    StableHlo.nullary main_cst_9 (constant S_ .f32 0x00000000#32),
    StableHlo.unary main_cst_9 main_v56 (broadcastInDim S100000x32 ![] bcast_S_S100000x32 : (⟨S_, .f32⟩ : BufTy).Contents (Elt F) → (⟨S100000x32, .f32⟩ : BufTy).Contents (Elt F)),
    StableHlo.unary main_v6 main_v57 (broadcastInDim S3300000x1 ![0] bcast_S3300000_S3300000x1_0 : (⟨S3300000, .i32⟩ : BufTy).Contents (Elt F) → (⟨S3300000x1, .i32⟩ : BufTy).Contents (Elt F)),
    StableHlo.ternary main_v56 main_v57 main_v55 main_v58 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg6 main_v59 (broadcastInDim S1x32 ![1] bcast_S32_S1x32_1 : (⟨S32, .f32⟩ : BufTy).Contents (Elt F) → (⟨S1x32, .f32⟩ : BufTy).Contents (Elt F)),
    StableHlo.unary main_v59 main_v60 (broadcastInDim S100000x32 ![0, 1] bcast_S1x32_S100000x32_0_1 : (⟨S1x32, .f32⟩ : BufTy).Contents (Elt F) → (⟨S100000x32, .f32⟩ : BufTy).Contents (Elt F)),
    StableHlo.binary main_v58 main_v60 main_v61 (addf : (⟨S100000x32, .f32⟩ : BufTy).Contents (Elt F) → (⟨S100000x32, .f32⟩ : BufTy).Contents (Elt F) → (⟨S100000x32, .f32⟩ : BufTy).Contents (Elt F)) ]

/-- The second layer's clip at zero, written in place: 3 operations. -/
abbrev sCr : List (HloOp τ sig (Elt F)) :=
  [
    StableHlo.TRef.nullary main_call1.cst (constant S_ .f32 0x00000000#32),
    StableHlo.TRef.unary main_call1.cst main_call1.v0 (broadcastInDim S100000x32 ![] bcast_S_S100000x32),
    StableHlo.TRef.binary (StableHlo.TRef.of main_v61 : StableHlo.TRef sig ⟨S100000x32, .f32⟩) main_call1.v0 main_call1.v1 maximumf ]

/-- The head, the exponential linear unit and its two selections written in place: 24 operations. -/
abbrev sD : List (HloOp τ sig (Elt F)) :=
  [
    StableHlo.binary main_v62 main_arg7 main_v63 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg8 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S100000x16 ![0, 1] bcast_S1x16_S100000x16_0_1 : (⟨S1x16, .f32⟩ : BufTy).Contents (Elt F) → (⟨S100000x16, .f32⟩ : BufTy).Contents (Elt F)),
    StableHlo.binary main_v63 main_v65 main_v66 (addf : (⟨S100000x16, .f32⟩ : BufTy).Contents (Elt F) → (⟨S100000x16, .f32⟩ : BufTy).Contents (Elt F) → (⟨S100000x16, .f32⟩ : BufTy).Contents (Elt F)),
    StableHlo.TRef.nullary main_call2.cst (constant S_ .f32 0x00000000#32),
    StableHlo.TRef.unary main_call2.cst main_call2.v0 (broadcastInDim S100000x16 ![] bcast_S_S100000x16),
    StableHlo.TRef.binary (StableHlo.TRef.of main_v66 : StableHlo.TRef sig ⟨S100000x16, .f32⟩) main_call2.v0 main_call2.v1 (cmpf .ogt),
    StableHlo.TRef.nullary main_call2.cst_0 (constant S_ .f32 0x00000000#32),
    StableHlo.TRef.unary main_call2.cst_0 main_call2.v2 (broadcastInDim S100000x16 ![] bcast_S_S100000x16),
    StableHlo.TRef.binary (StableHlo.TRef.of main_v66 : StableHlo.TRef sig ⟨S100000x16, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x16 ![] bcast_S_S100000x16),
    StableHlo.TRef.ternary main_call2.v3 main_call2.call0.v1 (StableHlo.TRef.of main_v66 : StableHlo.TRef sig ⟨S100000x16, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x16 ![] bcast_S_S100000x16),
    StableHlo.TRef.binary main_call2.v6 main_call2.v5 main_call2.v7 mulf,
    StableHlo.TRef.ternary main_call2.v1 (StableHlo.TRef.of main_v66 : StableHlo.TRef sig ⟨S100000x16, .f32⟩) main_call2.v7 main_call2.call1.v0 select,
    StableHlo.binary main_v67 main_arg9 main_v68 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    StableHlo.unary main_arg10 main_v69 (broadcastInDim S1x1 ![1] bcast_S1_S1x1_1 : (⟨S1, .f32⟩ : BufTy).Contents (Elt F) → (⟨S1x1, .f32⟩ : BufTy).Contents (Elt F)),
    StableHlo.unary main_v69 main_v70 (broadcastInDim S100000x1 ![0, 1] bcast_S1x1_S100000x1_0_1 : (⟨S1x1, .f32⟩ : BufTy).Contents (Elt F) → (⟨S100000x1, .f32⟩ : BufTy).Contents (Elt F)),
    StableHlo.binary main_v68 main_v70 main_v71 (addf : (⟨S100000x1, .f32⟩ : BufTy).Contents (Elt F) → (⟨S100000x1, .f32⟩ : BufTy).Contents (Elt F) → (⟨S100000x1, .f32⟩ : BufTy).Contents (Elt F)),
    StableHlo.reshape main_v71 main_v72 rfl shapeCasts_S100000x1_S100000 ]

set_option maxRecDepth 8192 in
/-- The operation list is the six stretches in order. -/
theorem ops_split : (RefOps.ops : List (HloOp τ sig (Elt F))) = sA ++ (sB ++ (sBr ++ (sC ++ (sCr ++ sD)))) := rfl

end Stretches

/-- A layer before its clip: the rows of `xw` at the sources `srcw`, each times its edge's weight, added up at the
    destinations `dstraw` from zero; plus the bias row `b`. -/
def pre (nrm : FVec Ideal S3300000 .f32) (srcw dstraw : IVec S3300000 32) (xw : FVec Ideal S100000x32 .f32)
    (b : FVec Ideal S32 .f32) : FVec Ideal S100000x32 .f32 :=
  addf (F := Ideal)
    (Host.scatterAdd (F := Ideal) scatter_S100000x32_S3300000x1_S3300000x32_1_0_0_1
      (broadcastInDim S100000x32 ![] bcast_S_S100000x32 (constant (F := Ideal) S_ .f32 0x00000000#32))
      (broadcastInDim S3300000x1 ![0] bcast_S3300000_S3300000x1_0 dstraw)
      (mulf (F := Ideal)
        (broadcastInDim S3300000x32 ![0, 1] bcast_S3300000x1_S3300000x32_0_1
          (broadcastInDim S3300000x1 ![0] bcast_S3300000_S3300000x1_0 nrm))
        (Host.gather gather_S100000x32_S3300000x1_S3300000x32_1_0_n_n_0_1_132 xw
          (broadcastInDim S3300000x1 ![0] bcast_S3300000_S3300000x1_0 srcw))))
    (broadcastInDim S100000x32 ![0, 1] bcast_S1x32_S100000x32_0_1 (broadcastInDim S1x32 ![1] bcast_S32_S1x32_1 b))

/-- A layer is its sum clipped below at zero. -/
theorem layer_eq (nrm : FVec Ideal S3300000 .f32) (srcw dstraw : IVec S3300000 32) (xw : FVec Ideal S100000x32 .f32)
    (b : FVec Ideal S32 .f32) :
    maximumf (F := Ideal) (pre nrm srcw dstraw xw b) (broadcastInDim S100000x32 ![] bcast_S_S100000x32 (constant (F := Ideal) S_ .f32 0x00000000#32)) = RefTerm.layer nrm srcw dstraw xw b := rfl

/-- A buffer none of a stretch's operations writes holds after the stretch what it held before. -/
macro "not_written " ops:ident : tactic =>
  `(tactic| (refine after_of_forall_not_mem _ _ (List.forall_iff_forall_mem.mp ?_)
             simp only [$ops:ident, List.Forall, nullary_writes, unary_writes, binary_writes, ternary_writes,
               quaternary_writes, reshape_writes, binaryIndexed_writes, Finset.mem_singleton]
             repeat' apply And.intro
             all_goals exact devRef_ne_of_ne (by decide)))

variable (W : Valuation τ sig (Elt Ideal))

/-! ## The edge columns and the edge weights, from the edge table -/

attribute [local irreducible] Host.scatterAdd Host.gather Host.rsqrt Host.expm1 concatenate in
theorem A_v3 : after (sA (F := Ideal)) W (Proc.devRef .tc main_v3) = RefTerm.srcc (W (Proc.devRef .tc main_arg1)) := by
  after_results_simp
  rfl

attribute [local irreducible] Host.scatterAdd Host.gather Host.rsqrt Host.expm1 concatenate in
theorem A_v6 : after (sA (F := Ideal)) W (Proc.devRef .tc main_v6) = RefTerm.dstc (W (Proc.devRef .tc main_arg1)) := by
  after_results_simp
  rfl

attribute [local irreducible] Host.scatterAdd Host.gather Host.rsqrt Host.expm1 concatenate in
set_option maxRecDepth 8192 in
theorem A_v26 : after (sA (F := Ideal)) W (Proc.devRef .tc main_v26) = RefTerm.nrm (W (Proc.devRef .tc main_arg1)) := by
  after_results_simp
  rfl

theorem A_keep_arg0 : after (sA (F := Ideal)) W (Proc.devRef .tc main_arg0) = W (Proc.devRef .tc main_arg0) := by not_written sA
theorem A_keep_arg3 : after (sA (F := Ideal)) W (Proc.devRef .tc main_arg3) = W (Proc.devRef .tc main_arg3) := by not_written sA
theorem A_keep_arg4 : after (sA (F := Ideal)) W (Proc.devRef .tc main_arg4) = W (Proc.devRef .tc main_arg4) := by not_written sA
theorem A_keep_arg5 : after (sA (F := Ideal)) W (Proc.devRef .tc main_arg5) = W (Proc.devRef .tc main_arg5) := by not_written sA
theorem A_keep_arg6 : after (sA (F := Ideal)) W (Proc.devRef .tc main_arg6) = W (Proc.devRef .tc main_arg6) := by not_written sA
theorem A_keep_arg7 : after (sA (F := Ideal)) W (Proc.devRef .tc main_arg7) = W (Proc.devRef .tc main_arg7) := by not_written sA
theorem A_keep_arg8 : after (sA (F := Ideal)) W (Proc.devRef .tc main_arg8) = W (Proc.devRef .tc main_arg8) := by not_written sA
theorem A_keep_arg9 : after (sA (F := Ideal)) W (Proc.devRef .tc main_arg9) = W (Proc.devRef .tc main_arg9) := by not_written sA
theorem A_keep_arg10 : after (sA (F := Ideal)) W (Proc.devRef .tc main_arg10) = W (Proc.devRef .tc main_arg10) := by not_written sA

/-! ## The first layer: its sum, then its clip -/

attribute [local irreducible] Host.scatterAdd Host.gather Host.rsqrt Host.expm1 concatenate in
set_option maxRecDepth 8192 in
theorem B_v43 : after (sB (F := Ideal)) W (Proc.devRef .tc main_v43)
    = pre (W (Proc.devRef .tc main_v26)) (RefTerm.wrap (W (Proc.devRef .tc main_v3))) (W (Proc.devRef .tc main_v6))
        (Host.dotGeneral (F := Ideal) (φ₁ := .f32) (φ₂ := .f32) dot_S100000x11_S11x32_S100000x32_1_0_0_1_n_n none
          (W (Proc.devRef .tc main_arg0)) (W (Proc.devRef .tc main_arg3)))
        (W (Proc.devRef .tc main_arg4)) := by
  after_results_simp
  rfl
theorem B_keep_v26 : after (sB (F := Ideal)) W (Proc.devRef .tc main_v26) = W (Proc.devRef .tc main_v26) := by not_written sB
theorem B_keep_v3 : after (sB (F := Ideal)) W (Proc.devRef .tc main_v3) = W (Proc.devRef .tc main_v3) := by not_written sB
theorem B_keep_v6 : after (sB (F := Ideal)) W (Proc.devRef .tc main_v6) = W (Proc.devRef .tc main_v6) := by not_written sB
theorem B_keep_arg5 : after (sB (F := Ideal)) W (Proc.devRef .tc main_arg5) = W (Proc.devRef .tc main_arg5) := by not_written sB
theorem B_keep_arg6 : after (sB (F := Ideal)) W (Proc.devRef .tc main_arg6) = W (Proc.devRef .tc main_arg6) := by not_written sB
theorem B_keep_arg7 : after (sB (F := Ideal)) W (Proc.devRef .tc main_arg7) = W (Proc.devRef .tc main_arg7) := by not_written sB
theorem B_keep_arg8 : after (sB (F := Ideal)) W (Proc.devRef .tc main_arg8) = W (Proc.devRef .tc main_arg8) := by not_written sB
theorem B_keep_arg9 : after (sB (F := Ideal)) W (Proc.devRef .tc main_arg9) = W (Proc.devRef .tc main_arg9) := by not_written sB
theorem B_keep_arg10 : after (sB (F := Ideal)) W (Proc.devRef .tc main_arg10) = W (Proc.devRef .tc main_arg10) := by not_written sB

attribute [local irreducible] Host.scatterAdd Host.gather Host.rsqrt Host.expm1 concatenate in
theorem Br_v44 : after (sBr (F := Ideal)) W (Proc.devRef .tc main_v44) = maximumf (F := Ideal) (W (Proc.devRef .tc main_v43)) (broadcastInDim S100000x32 ![] bcast_S_S100000x32 (constant (F := Ideal) S_ .f32 0x00000000#32)) := by
  after_results_simp
  rfl
theorem Br_keep_v26 : after (sBr (F := Ideal)) W (Proc.devRef .tc main_v26) = W (Proc.devRef .tc main_v26) := by not_written sBr
theorem Br_keep_v3 : after (sBr (F := Ideal)) W (Proc.devRef .tc main_v3) = W (Proc.devRef .tc main_v3) := by not_written sBr
theorem Br_keep_v6 : after (sBr (F := Ideal)) W (Proc.devRef .tc main_v6) = W (Proc.devRef .tc main_v6) := by not_written sBr
theorem Br_keep_arg5 : after (sBr (F := Ideal)) W (Proc.devRef .tc main_arg5) = W (Proc.devRef .tc main_arg5) := by not_written sBr
theorem Br_keep_arg6 : after (sBr (F := Ideal)) W (Proc.devRef .tc main_arg6) = W (Proc.devRef .tc main_arg6) := by not_written sBr
theorem Br_keep_arg7 : after (sBr (F := Ideal)) W (Proc.devRef .tc main_arg7) = W (Proc.devRef .tc main_arg7) := by not_written sBr
theorem Br_keep_arg8 : after (sBr (F := Ideal)) W (Proc.devRef .tc main_arg8) = W (Proc.devRef .tc main_arg8) := by not_written sBr
theorem Br_keep_arg9 : after (sBr (F := Ideal)) W (Proc.devRef .tc main_arg9) = W (Proc.devRef .tc main_arg9) := by not_written sBr
theorem Br_keep_arg10 : after (sBr (F := Ideal)) W (Proc.devRef .tc main_arg10) = W (Proc.devRef .tc main_arg10) := by not_written sBr

/-! ## The second layer: its sum, then its clip -/

attribute [local irreducible] Host.scatterAdd Host.gather Host.rsqrt Host.expm1 concatenate in
set_option maxRecDepth 8192 in
theorem C_v61 : after (sC (F := Ideal)) W (Proc.devRef .tc main_v61)
    = pre (W (Proc.devRef .tc main_v26)) (RefTerm.wrap (W (Proc.devRef .tc main_v3))) (W (Proc.devRef .tc main_v6))
        (Host.dotGeneral (F := Ideal) (φ₁ := .f32) (φ₂ := .f32) dot_S100000x32_S32x32_S100000x32_1_0_0_1_n_n none
          (W (Proc.devRef .tc main_v44)) (W (Proc.devRef .tc main_arg5)))
        (W (Proc.devRef .tc main_arg6)) := by
  after_results_simp
  rfl
theorem C_keep_arg7 : after (sC (F := Ideal)) W (Proc.devRef .tc main_arg7) = W (Proc.devRef .tc main_arg7) := by not_written sC
theorem C_keep_arg8 : after (sC (F := Ideal)) W (Proc.devRef .tc main_arg8) = W (Proc.devRef .tc main_arg8) := by not_written sC
theorem C_keep_arg9 : after (sC (F := Ideal)) W (Proc.devRef .tc main_arg9) = W (Proc.devRef .tc main_arg9) := by not_written sC
theorem C_keep_arg10 : after (sC (F := Ideal)) W (Proc.devRef .tc main_arg10) = W (Proc.devRef .tc main_arg10) := by not_written sC

attribute [local irreducible] Host.scatterAdd Host.gather Host.rsqrt Host.expm1 concatenate in
theorem Cr_v62 : after (sCr (F := Ideal)) W (Proc.devRef .tc main_v62) = maximumf (F := Ideal) (W (Proc.devRef .tc main_v61)) (broadcastInDim S100000x32 ![] bcast_S_S100000x32 (constant (F := Ideal) S_ .f32 0x00000000#32)) := by
  after_results_simp
  rfl
theorem Cr_keep_arg7 : after (sCr (F := Ideal)) W (Proc.devRef .tc main_arg7) = W (Proc.devRef .tc main_arg7) := by not_written sCr
theorem Cr_keep_arg8 : after (sCr (F := Ideal)) W (Proc.devRef .tc main_arg8) = W (Proc.devRef .tc main_arg8) := by not_written sCr
theorem Cr_keep_arg9 : after (sCr (F := Ideal)) W (Proc.devRef .tc main_arg9) = W (Proc.devRef .tc main_arg9) := by not_written sCr
theorem Cr_keep_arg10 : after (sCr (F := Ideal)) W (Proc.devRef .tc main_arg10) = W (Proc.devRef .tc main_arg10) := by not_written sCr

/-! ## The head -/

attribute [local irreducible] Host.scatterAdd Host.gather Host.rsqrt Host.expm1 concatenate in
set_option maxRecDepth 8192 in
theorem D_v72 : after (sD (F := Ideal)) W (Proc.devRef .tc main_v72)
    = RefTerm.head (W (Proc.devRef .tc main_v62)) (W (Proc.devRef .tc main_arg7)) (W (Proc.devRef .tc main_arg8)) (W (Proc.devRef .tc main_arg9)) (W (Proc.devRef .tc main_arg10)) := by
  after_results_simp
  rfl

/-! ## The whole list -/

variable (V : Valuation τ sig (Elt Ideal))

/-- The result buffer after the whole list: the composed term of the argument buffers' contents. -/
theorem after_v72 : after (RefOps.ops (F := Ideal)) V (Proc.devRef .tc main_v72)
    = RefTerm.result (V (Proc.devRef .tc main_arg0)) (V (Proc.devRef .tc main_arg1)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) (V (Proc.devRef .tc main_arg10)) := by
  rw [ops_split, RefOps.after_append, RefOps.after_append, RefOps.after_append, RefOps.after_append, RefOps.after_append]
  rw [D_v72, Cr_v62, Cr_keep_arg7, Cr_keep_arg8, Cr_keep_arg9, Cr_keep_arg10,
    C_v61, C_keep_arg7, C_keep_arg8, C_keep_arg9, C_keep_arg10,
    Br_v44, Br_keep_v26, Br_keep_v3, Br_keep_v6, Br_keep_arg5, Br_keep_arg6, Br_keep_arg7, Br_keep_arg8, Br_keep_arg9, Br_keep_arg10,
    B_v43, B_keep_v26, B_keep_v3, B_keep_v6, B_keep_arg5, B_keep_arg6, B_keep_arg7, B_keep_arg8, B_keep_arg9, B_keep_arg10,
    A_v26, A_v3, A_v6, A_keep_arg0, A_keep_arg3, A_keep_arg4, A_keep_arg5, A_keep_arg6, A_keep_arg7, A_keep_arg8, A_keep_arg9,
    A_keep_arg10, layer_eq, layer_eq]
  rfl

end Cert.ReferenceIdeal.RefAfter

end
-- ==== Proof.RefRun.lean ====
/-
  The reference function's run read back: every execution of its @main terminates with the result array at the composed
  term `RefTerm.result` of the arguments' contents, and the arguments unchanged. @main is the straight line of its
  operations (`RefMain.main_eq`), a straight line runs to the fold of its operations' results (`StableHlo.run_seq`), and
  the fold at the result array is the composed term, at an argument what was there (`RefAfter`, `RefAfterArgs`).
-/
import proofs.«147412_j74826920231167_2_alg».proof.Proof.RefTerm
import proofs.«147412_j74826920231167_2_alg».proof.Proof.RefMain
import proofs.«147412_j74826920231167_2_alg».proof.Proof.RefAfterArgs
import proofs.«147412_j74826920231167_2_alg».proof.Proof.RefAfter

noncomputable section

namespace Cert.ReferenceIdeal.RefRun

open Cert.ReferenceIdeal Idealize.ShloMosaic Idealize.ShloMosaic.TcCoe Idealize.SL.Sem Idealize.ShloMosaic.StableHlo

variable [Facts]
open Facts₀ Facts

/-- On every device, from any memory with zero counters: every execution of @main at the ideal instance terminates with
    the result array at `RefTerm.result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v72) = RefTerm.result (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v72).trans (RefAfter.after_v72 (launchContents m c)),
      (h c main_arg0).trans (RefAfterArgs.after_arg0 (launchContents m c)),
      (h c main_arg1).trans (RefAfterArgs.after_arg1 (launchContents m c)),
      (h c main_arg2).trans (RefAfterArgs.after_arg2 (launchContents m c)),
      (h c main_arg3).trans (RefAfterArgs.after_arg3 (launchContents m c)),
      (h c main_arg4).trans (RefAfterArgs.after_arg4 (launchContents m c)),
      (h c main_arg5).trans (RefAfterArgs.after_arg5 (launchContents m c)),
      (h c main_arg6).trans (RefAfterArgs.after_arg6 (launchContents m c)),
      (h c main_arg7).trans (RefAfterArgs.after_arg7 (launchContents m c)),
      (h c main_arg8).trans (RefAfterArgs.after_arg8 (launchContents m c)),
      (h c main_arg9).trans (RefAfterArgs.after_arg9 (launchContents m c)),
      (h c main_arg10).trans (RefAfterArgs.after_arg10 (launchContents m c))⟩)
    (run_seq RefOps.scopedRefs_eq RefOps.scopedSems_eq defs main (fun _ => RefOps.ops) RefMain.main_eq (fun _ => RefOps.ops_sub) m ρ
      (fun _ => RefMain.ops_fresh))

end Cert.ReferenceIdeal.RefRun

end
-- ==== Proof.RHead.lean ====
/-
  The head of the reference read at an index.

  The exponential linear unit, entry by entry, is the scalar selection between `z` and `1 · (exp z' - 1)`, `z'` being
  `0` where `z` is positive and `z` elsewhere (`elu_apply`). The head at node `v` is the dense map of row `v` to 16
  columns plus a bias, the unit, the dense map to one column plus a bias (`head_apply`): each matrix product read at an
  index is a sum over the contracted coordinate, each bias a vector repeated along the rows.
-/
import proofs.«147412_j74826920231167_2_alg».proof.Proof.RefTerm
import proofs.«147412_j74826920231167_2_alg».proof.Proof.Model
import proofs.«147412_j74826920231167_2_alg».proof.Proof.LibRowOps
import proofs.«147412_j74826920231167_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RHead

open Cert.ReferenceIdeal Cert.ReferenceIdeal.Facts₀ Cert.ReferenceIdeal.Facts Idealize.ShloMosaic Idealize.ShloMosaic.ValueIdx

variable [Facts]

/-- The literal `1.0`. -/
theorem one_f32 : Ideal.ofBits .f32 0x3F800000#32 = 1 := by
  simp [Ideal.ofBits, Ideal.ieee, -EReal.coe_mul]; norm_num

/-! ## The exponential linear unit -/

/-- The unit over any array `Z` reading `0` at `i` and any array `O` reading `1` at `i`. -/
theorem elu_apply_of (z Z O : FVec Ideal S100000x16 .f32) (i : S100000x16.Idx) (hZ : Z i = (0 : EReal)) (hO : O i = (1 : EReal)) :
    select (cmpf (F := Ideal) .ogt z Z) z
      (mulf (F := Ideal) O (Host.expm1 (F := Ideal) (select (cmpf (F := Ideal) .ogt z Z) Z z))) i = GcnModel.eluR (z i) := by
  have hr : select (cmpf (F := Ideal) .ogt z Z) z
      (mulf (F := Ideal) O (Host.expm1 (F := Ideal) (select (cmpf (F := Ideal) .ogt z Z) Z z))) i
      = Scalar.select (Ideal.cmp .ogt (z i) (Z i)) (z i)
          (O i * (Ideal.exp (Scalar.select (Ideal.cmp .ogt (z i) (Z i)) (Z i) (z i)) - 1)) := rfl
  rw [hr, hZ, hO]
  rfl

/-- The exponential linear unit at an index. -/
theorem elu_apply (z : FVec Ideal S100000x16 .f32) (i : S100000x16.Idx) : RefTerm.elu z i = GcnModel.eluR (z i) :=
  elu_apply_of z _ _ i
    ((RowOps.broadcastInDim_scalar_apply _ _ _).trans Ideal.ofBits_zero_f32)
    ((RowOps.broadcastInDim_scalar_apply _ _ _).trans one_f32)

/-! ## The biases: a vector repeated along the rows -/

/-- The 16-entry bias as a row, repeated over the nodes, at `(v, j)`. -/
theorem bias16_apply (bo1 : FVec Ideal S16 .f32) (v : Fin 100000) (j : Fin 16) :
    broadcastInDim S100000x16 ![0, 1] bcast_S1x16_S100000x16_0_1 (broadcastInDim S1x16 ![1] bcast_S16_S1x16_1 bo1) (ix2 v j)
      = bo1 (ix1 j) := by
  refine (broadcastInDim_apply _ _ _ (ix2 v j) (ix2 (0 : Fin 1) j) fun a => ?_).trans ?_
  · match a with
    | ⟨0, _⟩ =>
      show (0 : Nat) = if (1 : Nat) = 1 then 0 else v.val
      rw [if_pos rfl]
    | ⟨1, _⟩ =>
      show j.val = if (16 : Nat) = 1 then 0 else j.val
      rw [if_neg (by decide)]
  · refine broadcastInDim_apply _ _ bo1 (ix2 (0 : Fin 1) j) (ix1 j) fun a => ?_
    match a with
    | ⟨0, _⟩ =>
      show j.val = if (16 : Nat) = 1 then 0 else j.val
      rw [if_neg (by decide)]

/-- The one-entry bias as a row, repeated over the nodes, at `(v, 0)`. -/
theorem bias1_apply (bo2 : FVec Ideal S1 .f32) (v : Fin 100000) :
    broadcastInDim S100000x1 ![0, 1] bcast_S1x1_S100000x1_0_1 (broadcastInDim S1x1 ![1] bcast_S1_S1x1_1 bo2) (ix2 v (0 : Fin 1))
      = bo2 (ix1 (0 : Fin 1)) := by
  refine (broadcastInDim_apply _ _ _ (ix2 v (0 : Fin 1)) (ix2 (0 : Fin 1) (0 : Fin 1)) fun a => ?_).trans ?_
  · match a with
    | ⟨0, _⟩ =>
      show (0 : Nat) = if (1 : Nat) = 1 then 0 else v.val
      rw [if_pos rfl]
    | ⟨1, _⟩ =>
      show (0 : Nat) = if (1 : Nat) = 1 then 0 else 0
      rw [if_pos rfl]
  · refine broadcastInDim_apply _ _ bo2 (ix2 (0 : Fin 1) (0 : Fin 1)) (ix1 (0 : Fin 1)) fun a => ?_
    match a with
    | ⟨0, _⟩ =>
      show (0 : Nat) = if (1 : Nat) = 1 then 0 else 0
      rw [if_pos rfl]

/-! ## The head -/

/-- The head at node `v`. -/
theorem head_apply (h : FVec Ideal S100000x32 .f32) (Wo1 : FVec Ideal S32x16 .f32) (bo1 : FVec Ideal S16 .f32)
    (Wo2 : FVec Ideal S16x1 .f32) (bo2 : FVec Ideal S1 .f32) (v : Fin 100000) :
    RefTerm.head h Wo1 bo1 Wo2 bo2 (ix1 v)
      = GcnModel.outOf (fun u k => h (ix2 u k)) Wo1 bo1 Wo2 bo2 GcnModel.eluR v := by
  unfold RefTerm.head GcnModel.outOf
  refine (shapeCast_a1_a_apply _ _ v).trans ?_
  refine (addf_apply _ _ _).trans ?_
  refine congrArg₂ (fun a b : EReal => a + b) ?_ (bias1_apply bo2 v)
  simp only [Host.dotGeneral]
  refine (RowOps.dotGeneral_plain_apply _ ⟨_, rfl⟩ none _ _ Wo2 v (0 : Fin 1)).trans ?_
  refine Finset.sum_congr rfl fun j _ => ?_
  refine congrArg (fun a : EReal => a * Wo2 (ix2 j (0 : Fin 1))) ?_
  refine (elu_apply _ (ix2 v j)).trans (congrArg GcnModel.eluR ?_)
  refine (addf_apply _ _ _).trans ?_
  refine congrArg₂ (fun a b : EReal => a + b) ?_ (bias16_apply bo1 v j)
  exact RowOps.dotGeneral_plain_apply _ ⟨_, rfl⟩ none _ h Wo1 v j

end Cert.ReferenceIdeal.RHead

end
-- ==== Proof.LibGatherVec.lean ====
/-
  THE VECTOR GATHER READ AT AN INDEX.

  A vector gather takes, for each of `E` start indices, one element of an `[N]` operand: `"stablehlo.gather"` with
  offset_dims = [], collapsed_slice_dims = [0], start_index_map = [0], index_vector_dim = 1 and slice sizes [1], over
  start indices of shape `[E, 1]` (what indexing a vector by an integer vector lowers to). Element `e` of the result
  is the operand at `idx[e, 0]` — read SIGNED and CLAMPED into `[0, N − 1]` (`gather_vec_apply`): the same clamp as a
  row gather's through the same start indices (`GatherRows.clampRow`). The extents and the index width are arbitrary.
-/
import Idealize.ShloMosaic.PureOps.ShapeOps
import Idealize.ShloMosaic.Lib.ValueIdx
import proofs.«147412_j74826920231167_2_alg».proof.Proof.LibGatherRows

namespace Idealize.ShloMosaic.GatherVec

open Idealize.ShloMosaic Idealize.ShloMosaic.ValueIdx

variable {α : Type}

/-- The dimension numbers of a gather from an `[N]` operand through `[E, 1]` start indices. -/
abbrev vecDims (N E : Nat)
    (wf : GatherDims.WF (⟨1, ![N]⟩ : Shape) ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped start index `e`. -/
theorem gather_vec_apply {N E w : Nat} (hN : 0 < N)
    (wf : GatherDims.WF (⟨1, ![N]⟩ : Shape) ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (GatherRows.clampRow N hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The same for ANY dimension numbers between these shapes whose fields are a vector gather's (for a record stated field
    by field, each hypothesis is `rfl`). -/
theorem gather_vec_apply' {N E w : Nat} (hN : 0 < N)
    (d : GatherDims (⟨1, ![N]⟩ : Shape) ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (GatherRows.clampRow N hN (idx (ix2 e (0 : Fin 1))))) := by
  obtain ⟨od, cd, ob, sb, sm, iv, ss, wf⟩ := d
  simp only at h1 h2 h3 h4 h5 h6 h7
  subst h1 h2 h3 h4 h5 h6 h7
  exact gather_vec_apply hN wf x idx e

end Idealize.ShloMosaic.GatherVec
-- ==== Proof.RRead.lean ====
/-
  The reference program's composed term read at an index.

  The edge columns are the edge table's rows followed by the self loops; the degree at a node is the number of extended
  edges whose destination word is that node; the node factor is its inverse square root; an edge's weight is the product
  of the factors at the rows its two words address. A layer at (v, k) is the sum, over the extended edges landing at v,
  of the weight times column k of the row the source word addresses, plus the bias, clipped below at zero. The head is
  two dense maps around the exponential linear unit.
-/
import proofs.«147412_j74826920231167_2_alg».proof.Proof.RefTerm
import proofs.«147412_j74826920231167_2_alg».proof.Proof.Model
import proofs.«147412_j74826920231167_2_alg».proof.Proof.Graph
import proofs.«147412_j74826920231167_2_alg».proof.Proof.RHead
import proofs.«147412_j74826920231167_2_alg».proof.Proof.LibColumns
import proofs.«147412_j74826920231167_2_alg».proof.Proof.LibRowOps
import proofs.«147412_j74826920231167_2_alg».proof.Proof.LibScatterRows
import proofs.«147412_j74826920231167_2_alg».proof.Proof.LibScatterVec
import proofs.«147412_j74826920231167_2_alg».proof.Proof.LibGatherRows
import proofs.«147412_j74826920231167_2_alg».proof.Proof.LibGatherVec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RRead

open Idealize.ShloMosaic Idealize.ShloMosaic.ValueIdx Idealize.SL.Sem
open Cert.ReferenceIdeal Cert.ReferenceIdeal.Facts₀ Cert.ReferenceIdeal.Facts

variable [Facts]

/-- The literal 1.0. -/
theorem one_f32 : Ideal.ofBits .f32 0x3F800000#32 = 1 := by
  simp [Ideal.ofBits, Ideal.ieee, -EReal.coe_mul]; norm_num

/-- Row 0 of the edge table, cast to a vector, at edge e. -/
theorem row0_apply (ei : IVec S2x3200000 32) (e : Fin 3200000) :
    shapeCast S3200000 (extractStridedSlice S1x3200000 ![0, 0] ei slices_S2x3200000_S1x3200000_0_0)
      shapeCasts_S1x3200000_S3200000 (ix1 e) = ei (ix2 (0 : Fin 2) e) := by
  refine (shapeCast_apply _ _ (ix1 e) (ix2 (0 : Fin 1) e) ?_).trans ?_
  · rw [Shape.rowMajor_val_two, Shape.rowMajor_val_one]
    show 0 * 3200000 + e.val = e.val
    omega
  · refine extractStridedSlice_apply _ ei _ (ix2 (0 : Fin 1) e) (ix2 (0 : Fin 2) e) fun a => ?_
    match a with
    | ⟨0, _⟩ => rfl
    | ⟨1, _⟩ => show e.val = 0 + e.val; omega

/-- Row 1 of the edge table, cast to a vector, at edge e. -/
theorem row1_apply (ei : IVec S2x3200000 32) (e : Fin 3200000) :
    shapeCast S3200000 (extractStridedSlice S1x3200000 ![1, 0] ei slices_S2x3200000_S1x3200000_1_0)
      shapeCasts_S1x3200000_S3200000 (ix1 e) = ei (ix2 (1 : Fin 2) e) := by
  refine (shapeCast_apply _ _ (ix1 e) (ix2 (0 : Fin 1) e) ?_).trans ?_
  · rw [Shape.rowMajor_val_two, Shape.rowMajor_val_one]
    show 0 * 3200000 + e.val = e.val
    omega
  · refine extractStridedSlice_apply _ ei _ (ix2 (0 : Fin 1) e) (ix2 (1 : Fin 2) e) fun a => ?_
    match a with
    | ⟨0, _⟩ => rfl
    | ⟨1, _⟩ => show e.val = 0 + e.val; omega

/-- A vector over the real edges followed by the node numbers, read at an extended edge. -/
theorem cat_apply (r : IVec S3200000 32) (w : Fin 3200000 → BitVec 32) (hr : ∀ e : Fin 3200000, r (ix1 e) = w e)
    (e : Fin (3200000 + 100000)) :
    concatenate S3300000 0 [⟨S3200000, r⟩, ⟨S100000, iotaInDim S100000 32 0⟩]
      concatenates_S3200000_S100000_S3300000_d0 (ix1 (n := 3300000) e) = GcnGraph.catW w e := by
  induction e using Fin.addCases with
  | left e' =>
    rw [GcnGraph.catW_left]
    refine (concatenate_pair_apply_left (t := S3300000) (s₁ := S3200000) (s₂ := S100000) (0 : Fin 1) r
      (iotaInDim S100000 32 0) concatenates_S3200000_S100000_S3300000_d0
      (ix1 (n := 3300000) (Fin.castAdd 100000 e')) rfl (ix1 e') fun b => ?_).trans (hr e')
    match b with
    | ⟨0, _⟩ => rfl
  | right u =>
    rw [GcnGraph.catW_right]
    refine (concatenate_pair_apply_right (t := S3300000) (s₁ := S3200000) (s₂ := S100000) (0 : Fin 1) r
      (iotaInDim S100000 32 0) concatenates_S3200000_S100000_S3300000_d0
      (ix1 (n := 3300000) (Fin.natAdd 3200000 u)) rfl rfl (ix1 u) (fun b hb => ?_) ?_).trans ?_
    · match b with
      | ⟨0, _⟩ => exact absurd rfl hb
    · show u.val + 3200000 = 3200000 + u.val
      omega
    · rfl

/-- The source column at an extended edge. -/
theorem srcc_apply (ei : IVec S2x3200000 32) (e : Fin (3200000 + 100000)) :
    RefTerm.srcc ei (ix1 (n := 3300000) e) = GcnGraph.catW (fun e : Fin 3200000 => ei (ix2 (0 : Fin 2) e)) e := by
  unfold RefTerm.srcc
  exact cat_apply _ _ (row0_apply ei) e

/-- The destination column at an extended edge. -/
theorem dstc_apply (ei : IVec S2x3200000 32) (e : Fin (3200000 + 100000)) :
    RefTerm.dstc ei (ix1 (n := 3300000) e) = GcnGraph.catW (fun e : Fin 3200000 => ei (ix2 (1 : Fin 2) e)) e := by
  unfold RefTerm.dstc
  exact cat_apply _ _ (row1_apply ei) e

/-- A wrapped column of words, entry by entry. -/
theorem wrap_apply (c : IVec S3300000 32) (e : Fin 3300000) :
    RefTerm.wrap c (ix1 e) = GcnGraph.wrapW (c (ix1 e)) := rfl

/-- A vector over the extended edges laid out as a one-column array, at (e, 0). -/
theorem col_apply {α : Type} (r : S3300000.Idx → α) (e : Fin 3300000) :
    broadcastInDim S3300000x1 ![0] bcast_S3300000_S3300000x1_0 r (ix2 e (0 : Fin 1)) = r (ix1 e) := by
  refine broadcastInDim_apply _ _ r _ (ix1 e) fun a => ?_
  match a with
  | ⟨0, _⟩ =>
    show e.val = if (3300000 : Nat) = 1 then 0 else e.val
    rw [if_neg (by decide)]

/-- The degree at node v: the number of extended edges whose destination word is v. -/
theorem deg_apply (ei : IVec S2x3200000 32) (v : Fin 100000) :
    RefTerm.deg ei (ix1 v) = GcnGraph.degR (GcnGraph.catW (fun e : Fin 3200000 => ei (ix2 (1 : Fin 2) e))) v := by
  unfold RefTerm.deg GcnGraph.degR
  refine (ScatterVec.scatterAdd_vec_apply' _ rfl rfl rfl rfl _ _ _ v).trans ?_
  refine congrArg₂ (fun a b : EReal => a + b) ?_ (Finset.sum_congr rfl fun e _ => ?_)
  · exact (RowOps.broadcastInDim_scalar_apply _ _ _).trans Ideal.ofBits_zero_f32
  · have h1 : broadcastInDim S3300000x1 ![0] bcast_S3300000_S3300000x1_0 (RefTerm.dstc ei) (ix2 e (0 : Fin 1))
        = GcnGraph.catW (fun e : Fin 3200000 => ei (ix2 (1 : Fin 2) e)) e := (col_apply _ e).trans (dstc_apply ei e)
    have h2 : broadcastInDim S3300000 ![] bcast_S_S3300000 (constant (F := Ideal) S_ .f32 0x3F800000#32) (ix1 e) = (1 : EReal) :=
      (RowOps.broadcastInDim_scalar_apply _ _ _).trans one_f32
    rw [h1, h2]

/-- The node factor at node v: the inverse square root of the degree. -/
theorem dinv_apply (ei : IVec S2x3200000 32) (v : Fin 100000) :
    RefTerm.dinv ei (ix1 v) = GcnModel.dR (fun e : Fin 3200000 => ei (ix2 (1 : Fin 2) e)) v := by
  unfold RefTerm.dinv GcnModel.dR
  have hr : ∀ y : FVec Ideal S100000 .f32, Host.rsqrt (F := Ideal) y (ix1 v) = Ideal.rsqrt (y (ix1 v)) := fun _ => rfl
  exact (hr _).trans (congrArg Ideal.rsqrt (deg_apply ei v))

/-- The node factors gathered through a wrapped column of words: the factor at the row the word addresses. -/
theorem gath_apply (ei : IVec S2x3200000 32) (c : IVec S3300000 32) (e : Fin 3300000) :
    Host.gather gather_S100000_S3300000x1_S3300000_n_0_n_n_0_1_1 (RefTerm.dinv ei)
        (broadcastInDim S3300000x1 ![0] bcast_S3300000_S3300000x1_0 (RefTerm.wrap c)) (ix1 e)
      = GcnModel.dR (fun e : Fin 3200000 => ei (ix2 (1 : Fin 2) e)) (GcnGraph.rowOf (c (ix1 e))) := by
  refine (GatherVec.gather_vec_apply' (by decide) _ rfl rfl rfl rfl rfl rfl rfl (RefTerm.dinv ei) _ e).trans ?_
  rw [col_apply, wrap_apply, ← GcnGraph.rowOf_eq]
  exact dinv_apply ei _

/-- An edge's weight: the factor at its source row times the factor at its destination row. -/
theorem nrm_apply (ei : IVec S2x3200000 32) (e : Fin (3200000 + 100000)) :
    RefTerm.nrm ei (ix1 (n := 3300000) e)
      = GcnModel.dR (fun e : Fin 3200000 => ei (ix2 (1 : Fin 2) e)) (GcnGraph.rowOf (GcnGraph.catW (fun e : Fin 3200000 => ei (ix2 (0 : Fin 2) e)) e))
        * GcnModel.dR (fun e : Fin 3200000 => ei (ix2 (1 : Fin 2) e)) (GcnGraph.rowOf (GcnGraph.catW (fun e : Fin 3200000 => ei (ix2 (1 : Fin 2) e)) e)) := by
  unfold RefTerm.nrm
  refine (mulf_apply _ _ _).trans ?_
  refine congrArg₂ (fun a b : EReal => a * b) ?_ ?_
  · exact (gath_apply ei _ e).trans (by rw [srcc_apply])
  · exact (gath_apply ei _ e).trans (by rw [dstc_apply])

/-- A one-column array over the extended edges spread over 32 columns, at (e, k). -/
theorem spread_apply {α : Type} (r : S3300000x1.Idx → α) (e : Fin 3300000) (k : Fin 32) :
    broadcastInDim S3300000x32 ![0, 1] bcast_S3300000x1_S3300000x32_0_1 r (ix2 e k) = r (ix2 e (0 : Fin 1)) := by
  refine broadcastInDim_apply _ _ r _ (ix2 e (0 : Fin 1)) fun a => ?_
  match a with
  | ⟨0, _⟩ =>
    show e.val = if (3300000 : Nat) = 1 then 0 else e.val
    rw [if_neg (by decide)]
  | ⟨1, _⟩ =>
    show (0 : Nat) = if (1 : Nat) = 1 then 0 else k.val
    rw [if_pos rfl]

/-- A bias vector laid out as one row and repeated over the nodes, at (v, k). -/
theorem bias32_apply (b : FVec Ideal S32 .f32) (v : Fin 100000) (k : Fin 32) :
    broadcastInDim S100000x32 ![0, 1] bcast_S1x32_S100000x32_0_1
      (broadcastInDim S1x32 ![1] bcast_S32_S1x32_1 b) (ix2 v k) = b (ix1 k) := by
  refine (broadcastInDim_apply _ _ _ _ (ix2 (0 : Fin 1) k) fun a => ?_).trans
    (broadcastInDim_apply _ _ b _ (ix1 k) fun a => ?_)
  · match a with
    | ⟨0, _⟩ =>
      show (0 : Nat) = if (1 : Nat) = 1 then 0 else v.val
      rw [if_pos rfl]
    | ⟨1, _⟩ =>
      show k.val = if (32 : Nat) = 1 then 0 else k.val
      rw [if_neg (by decide)]
  · match a with
    | ⟨0, _⟩ =>
      show k.val = if (32 : Nat) = 1 then 0 else k.val
      rw [if_neg (by decide)]

/-- One layer at (v, k): over the extended edges landing at v, the edge's weight times column k of the row its source
    word addresses, summed from zero; plus the bias; clipped below at zero. -/
theorem layer_apply (ei : IVec S2x3200000 32) (xw : FVec Ideal S100000x32 .f32) (b : FVec Ideal S32 .f32)
    (v : Fin 100000) (k : Fin 32) :
    RefTerm.layer (RefTerm.nrm ei) (RefTerm.wrap (RefTerm.srcc ei)) (RefTerm.dstc ei) xw b (ix2 v k)
      = GcnModel.hidR (GcnGraph.catW (fun e : Fin 3200000 => ei (ix2 (0 : Fin 2) e))) (GcnGraph.catW (fun e : Fin 3200000 => ei (ix2 (1 : Fin 2) e))) (GcnModel.dR (fun e : Fin 3200000 => ei (ix2 (1 : Fin 2) e)))
          (fun u j => xw (ix2 u j)) (fun j => b (ix1 j)) v k := by
  unfold RefTerm.layer GcnModel.hidR GcnGraph.aggR
  refine (maximumf_apply _ _ _).trans ?_
  refine congrArg₂ (fun a c : EReal => max a c) ?_ ?_
  · refine (addf_apply _ _ _).trans ?_
    refine congrArg₂ (fun a c : EReal => a + c) ?_ (bias32_apply b v k)
    refine (ScatterRows.scatterAdd_rows_apply' _ rfl rfl rfl rfl _ _ _ v k).trans ?_
    refine congrArg₂ (fun a c : EReal => a + c) ?_ (Finset.sum_congr rfl fun e _ => ?_)
    · exact (RowOps.broadcastInDim_scalar_apply _ _ _).trans Ideal.ofBits_zero_f32
    · have h1 : broadcastInDim S3300000x1 ![0] bcast_S3300000_S3300000x1_0 (RefTerm.dstc ei) (ix2 e (0 : Fin 1))
          = GcnGraph.catW (fun e : Fin 3200000 => ei (ix2 (1 : Fin 2) e)) e := (col_apply _ e).trans (dstc_apply ei e)
      refine if_congr (by rw [h1]) ?_ rfl
      refine (mulf_apply _ _ _).trans ?_
      refine congrArg₂ (fun a c : EReal => a * c) ?_ ?_
      · exact ((spread_apply _ e k).trans (col_apply _ e)).trans (nrm_apply ei e)
      · refine (GatherRows.gather_rows_apply' (by decide) _ rfl rfl rfl rfl rfl rfl rfl xw _ e k).trans ?_
        rw [col_apply, wrap_apply, srcc_apply, ← GcnGraph.rowOf_eq]
  · exact (RowOps.broadcastInDim_scalar_apply _ _ _).trans Ideal.ofBits_zero_f32

/-- The first layer's features at (u, q): row u of the input times column q of the first weight matrix. -/
theorem xw1_apply (x : (⟨S100000x11, .f32⟩ : BufTy).Contents (Elt Ideal)) (ei : (⟨S2x3200000, .i32⟩ : BufTy).Contents (Elt Ideal))
    (W1 : (⟨S11x32, .f32⟩ : BufTy).Contents (Elt Ideal)) (b1 : (⟨S32, .f32⟩ : BufTy).Contents (Elt Ideal)) (u : Fin 100000) (q : Fin 32) :
    Host.dotGeneral (F := Ideal) (φ₁ := .f32) (φ₂ := .f32) dot_S100000x11_S11x32_S100000x32_1_0_0_1_n_n none x W1 (ix2 u q)
      = GcnModel.xw1 x W1 u q := by
  unfold GcnModel.xw1
  exact RowOps.dotGeneral_plain_apply _ ⟨_, rfl⟩ none .single x W1 u q

/-- The first layer at (u, k). -/
theorem h1_apply (x : (⟨S100000x11, .f32⟩ : BufTy).Contents (Elt Ideal)) (ei : (⟨S2x3200000, .i32⟩ : BufTy).Contents (Elt Ideal))
    (W1 : (⟨S11x32, .f32⟩ : BufTy).Contents (Elt Ideal)) (b1 : (⟨S32, .f32⟩ : BufTy).Contents (Elt Ideal)) (u : Fin 100000) (k : Fin 32) :
    (RefTerm.layer (RefTerm.nrm ei) (RefTerm.wrap (RefTerm.srcc ei)) (RefTerm.dstc ei)
        (Host.dotGeneral (F := Ideal) (φ₁ := .f32) (φ₂ := .f32) dot_S100000x11_S11x32_S100000x32_1_0_0_1_n_n none x W1) b1) (ix2 u k)
      = GcnModel.h1R (fun e : Fin 3200000 => ei (ix2 (0 : Fin 2) e)) (fun e : Fin 3200000 => ei (ix2 (1 : Fin 2) e)) x W1 b1 u k := by
  unfold GcnModel.h1R
  refine (layer_apply ei _ b1 u k).trans ?_
  exact congrArg
    (fun xw : Fin 100000 → Fin 32 → EReal =>
      GcnModel.hidR (GcnGraph.catW (fun e : Fin 3200000 => ei (ix2 (0 : Fin 2) e))) (GcnGraph.catW (fun e : Fin 3200000 => ei (ix2 (1 : Fin 2) e))) (GcnModel.dR (fun e : Fin 3200000 => ei (ix2 (1 : Fin 2) e))) xw (fun j => b1 (ix1 j)) u k)
    (funext fun u' => funext fun q => xw1_apply x ei W1 b1 u' q)

/-- The second layer's features at (u, q): row u of the first layer times column q of the second weight matrix. -/
theorem xw2_apply (x : (⟨S100000x11, .f32⟩ : BufTy).Contents (Elt Ideal)) (ei : (⟨S2x3200000, .i32⟩ : BufTy).Contents (Elt Ideal))
    (W1 : (⟨S11x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal)) (u : Fin 100000) (q : Fin 32) :
    Host.dotGeneral (F := Ideal) (φ₁ := .f32) (φ₂ := .f32) dot_S100000x32_S32x32_S100000x32_1_0_0_1_n_n none
        (RefTerm.layer (RefTerm.nrm ei) (RefTerm.wrap (RefTerm.srcc ei)) (RefTerm.dstc ei)
        (Host.dotGeneral (F := Ideal) (φ₁ := .f32) (φ₂ := .f32) dot_S100000x11_S11x32_S100000x32_1_0_0_1_n_n none x W1) b1) W2 (ix2 u q)
      = GcnModel.xw2R (fun e : Fin 3200000 => ei (ix2 (0 : Fin 2) e)) (fun e : Fin 3200000 => ei (ix2 (1 : Fin 2) e)) x W1 b1 W2 u q := by
  unfold GcnModel.xw2R
  refine (RowOps.dotGeneral_plain_apply _ ⟨_, rfl⟩ none .single _ W2 u q).trans ?_
  refine Finset.sum_congr rfl fun k _ => ?_
  exact congrArg (fun a : EReal => a * W2 (ix2 k q)) (h1_apply x ei W1 b1 u k)

/-- The second layer at (u, k). -/
theorem h2_apply (x : (⟨S100000x11, .f32⟩ : BufTy).Contents (Elt Ideal)) (ei : (⟨S2x3200000, .i32⟩ : BufTy).Contents (Elt Ideal))
    (W1 : (⟨S11x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal)) (u : Fin 100000) (k : Fin 32) :
    (RefTerm.layer (RefTerm.nrm ei) (RefTerm.wrap (RefTerm.srcc ei)) (RefTerm.dstc ei)
        (Host.dotGeneral (F := Ideal) (φ₁ := .f32) (φ₂ := .f32) dot_S100000x32_S32x32_S100000x32_1_0_0_1_n_n none
          (RefTerm.layer (RefTerm.nrm ei) (RefTerm.wrap (RefTerm.srcc ei)) (RefTerm.dstc ei)
        (Host.dotGeneral (F := Ideal) (φ₁ := .f32) (φ₂ := .f32) dot_S100000x11_S11x32_S100000x32_1_0_0_1_n_n none x W1) b1) W2) b2) (ix2 u k)
      = GcnModel.h2R (fun e : Fin 3200000 => ei (ix2 (0 : Fin 2) e)) (fun e : Fin 3200000 => ei (ix2 (1 : Fin 2) e)) x W1 b1 W2 b2 u k := by
  unfold GcnModel.h2R
  refine (layer_apply ei _ b2 u k).trans ?_
  exact congrArg
    (fun xw : Fin 100000 → Fin 32 → EReal =>
      GcnModel.hidR (GcnGraph.catW (fun e : Fin 3200000 => ei (ix2 (0 : Fin 2) e))) (GcnGraph.catW (fun e : Fin 3200000 => ei (ix2 (1 : Fin 2) e))) (GcnModel.dR (fun e : Fin 3200000 => ei (ix2 (1 : Fin 2) e))) xw (fun j => b2 (ix1 j)) u k)
    (funext fun u' => funext fun q => xw2_apply x ei W1 b1 W2 b2 u' q)

/-- The reference's result at node v: the head over the second layer. -/
theorem result_apply (x : (⟨S100000x11, .f32⟩ : BufTy).Contents (Elt Ideal)) (ei : (⟨S2x3200000, .i32⟩ : BufTy).Contents (Elt Ideal))
    (W1 : (⟨S11x32, .f32⟩ : BufTy).Contents (Elt Ideal)) (b1 : (⟨S32, .f32⟩ : BufTy).Contents (Elt Ideal))
    (W2 : (⟨S32x32, .f32⟩ : BufTy).Contents (Elt Ideal)) (b2 : (⟨S32, .f32⟩ : BufTy).Contents (Elt Ideal))
    (Wo1 : (⟨S32x16, .f32⟩ : BufTy).Contents (Elt Ideal)) (bo1 : (⟨S16, .f32⟩ : BufTy).Contents (Elt Ideal))
    (Wo2 : (⟨S16x1, .f32⟩ : BufTy).Contents (Elt Ideal)) (bo2 : (⟨S1, .f32⟩ : BufTy).Contents (Elt Ideal)) (v : Fin 100000) :
    RefTerm.result x ei W1 b1 W2 b2 Wo1 bo1 Wo2 bo2 (ix1 v)
      = GcnModel.rOut (fun e : Fin 3200000 => ei (ix2 (0 : Fin 2) e)) (fun e : Fin 3200000 => ei (ix2 (1 : Fin 2) e)) x W1 b1 W2 b2 Wo1 bo1 Wo2 bo2 v := by
  unfold RefTerm.result GcnModel.rOut
  refine (RHead.head_apply _ Wo1 bo1 Wo2 bo2 v).trans ?_
  exact congrArg
    (fun h : Fin 100000 → Fin 32 → EReal => GcnModel.outOf h Wo1 bo1 Wo2 bo2 GcnModel.eluR v)
    (funext fun u => funext fun k => h2_apply x ei W1 b1 W2 b2 u k)

end Cert.ReferenceIdeal.RRead

end
-- ==== Proof.Finite.lean ====
/-
  Every float input is a real number, read out of the precondition finite_inputs.

  The precondition computes, for each float argument x, the conjunction over all entries of
  |x i| < +∞ (a reduction by "and" from the constant 1), and then the conjunction of the ten
  results. If the whole is 1, then each reduction is 1, so each comparison is 1, so each |x i|
  lies strictly below ⊤ in the extended reals; an extended real with max x (-x) < ⊤ is neither
  ⊤ nor ⊥, hence a real number.
-/
import proofs.«147412_j74826920231167_2_alg».proof.Pre_finite_inputs
import Idealize.ShloMosaic.Lib.ReduceAll
import Idealize.ShloMosaic.Lib.IdealHost
import Idealize.ShloMosaic.Lib.ValueIdx

namespace Cert.Finite

open Idealize.ShloMosaic Idealize.ShloMosaic.ValueIdx Cert.Pre_finite_inputs

/-- The rank-0 shape has a single index. -/
instance subsingleton_scalar_idx : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (-x) lies strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the comparison |x| < +∞ answering 1 makes x a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- One jnp.all(|x| < inf) that is 1: every entry of x is a real number. Generic in the shape. -/
theorem all_real {s : Shape} {axes : List (Fin s.rank)} (x : FVec Ideal s .f32)
    (hb : S_.BroadcastsInDim s (![] : Fin 0 → Fin s.rank)) (init : IVec S_ 1)
    (hr : s.ReducesTo axes S_) (hu : 0 < S_.numel)
    (e : Host.reduce IntOp.andi
          (cmpf .olt (Host.absf x) (broadcastInDim s ![] hb (constant (F := Ideal) S_ .f32 0x7F800000#32)))
          init hr hu ix0 = 1#1) :
    ∀ i, ∃ r : ℝ, x i = (r : EReal) := by
  intro i
  have h1 := Host.reduce_andi_all _ init hr hu ix0 e i
  rw [cmpf_apply, broadcastInDim_scalar_apply] at h1
  exact real_of_cmp (x i) h1

/-- A conjunction of two scalar flags that is 1 has both flags 1. -/
theorem andi_one {x y : IVec S_ 1} (h : andi x y ix0 = 1#1) : x ix0 = 1#1 ∧ y ix0 = 1#1 :=
  IntOp.andi_eq_one.1 h

/-- The precondition finite_inputs at the extended reals: every entry of every float argument is a real number. -/
theorem real_of_pre [Facts] (a0 : FVec Ideal S100000x11 .f32) (a1 : IVec S2x3200000 32) (a2 : IVec S100000 32)
    (a3 : FVec Ideal S11x32 .f32) (a4 : FVec Ideal S32 .f32) (a5 : FVec Ideal S32x32 .f32) (a6 : FVec Ideal S32 .f32)
    (a7 : FVec Ideal S32x16 .f32) (a8 : FVec Ideal S16 .f32) (a9 : FVec Ideal S16x1 .f32) (a10 : FVec Ideal S1 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧ (∀ i, ∃ r : ℝ, a10 i = (r : EReal)) := by
  have h0 := congrFun h ix0
  dsimp only [fn, fn_part1, fn_part2] at h0
  obtain ⟨h0, e10⟩ := andi_one h0
  obtain ⟨h0, e9⟩ := andi_one h0
  obtain ⟨h0, e8⟩ := andi_one h0
  obtain ⟨h0, e7⟩ := andi_one h0
  obtain ⟨h0, e6⟩ := andi_one h0
  obtain ⟨h0, e5⟩ := andi_one h0
  obtain ⟨h0, e4⟩ := andi_one h0
  obtain ⟨e0, e3⟩ := andi_one h0
  exact ⟨all_real a0 _ _ _ _ e0, all_real a3 _ _ _ _ e3, all_real a4 _ _ _ _ e4, all_real a5 _ _ _ _ e5,
    all_real a6 _ _ _ _ e6, all_real a7 _ _ _ _ e7, all_real a8 _ _ _ _ e8, all_real a9 _ _ _ _ e9,
    all_real a10 _ _ _ _ e10⟩

end Cert.Finite
-- ==== Proof.lean ====
/-
  Two programs for a two-layer graph convolution with a dense head compute the same numbers on finite inputs.

  Both read node features (100000 × 11), an edge list (2 × 3200000 node numbers, any 32-bit words), two convolution
  layers' weights and biases and a two-layer head. A node's factor is the inverse square root of its in-degree counted
  with a self loop. The reference appends the self loops to the edge list, weights every edge by the factors of both its
  ends, and sums the weighted source rows at the targets. The kernel scales each node's row by its factor once, sums the
  scaled rows over the real edges, adds the node's own scaled row for the loop and scales the sum by the node's factor:
  the same number, because an edge arriving at a node has that node as its target (so one factor is common to the whole
  sum) and multiplication distributes over a sum of real numbers. The degree is a real number at least one whatever
  the edge words are, so the factors are real; the inputs are finite by the precondition; hence every layer's sums
  are over real numbers and the step is valid. The heads agree term by term, the exponential linear unit being written
  `exp z - 1` in one program and `1 · expm1 z'` (`z'` the non-positive part) in the other. Changes of float format are
  the identity on extended reals and a matrix product is the same finite sum however it is tiled.

  Each program terminates from every memory and leaves its arguments unchanged (the three frames); the idealized kernel
  is the kernel's own text (nothing was rewritten, so there is nothing to preserve).
-/
import proofs.«147412_j74826920231167_2_alg».proof.Defs
import proofs.«147412_j74826920231167_2_alg».proof.Proof.Gen.Kernel
import proofs.«147412_j74826920231167_2_alg».proof.Proof.Gen.Kernel.Frame
import proofs.«147412_j74826920231167_2_alg».proof.Proof.Gen.KernelIdeal
import proofs.«147412_j74826920231167_2_alg».proof.Proof.Gen.KernelIdeal.Frame
import proofs.«147412_j74826920231167_2_alg».proof.Proof.Gen.ReferenceIdeal
import proofs.«147412_j74826920231167_2_alg».proof.Proof.Gen.Pre_finite_inputs
import proofs.«147412_j74826920231167_2_alg».proof.Proof.KRun
import proofs.«147412_j74826920231167_2_alg».proof.Proof.KVal
import proofs.«147412_j74826920231167_2_alg».proof.Proof.RefRun
import proofs.«147412_j74826920231167_2_alg».proof.Proof.RRead
import proofs.«147412_j74826920231167_2_alg».proof.Proof.Finite
import proofs.«147412_j74826920231167_2_alg».proof.Proof.Model
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- On finite arguments the reference's composed term and the kernel program's result buffer hold the same vector:
    node by node, the reference's value is the model's edge-weighted form, the kernel's the model's scaled-rows form,
    and the two forms agree on real data. -/
theorem values_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = (fun _ => 1#1)) :
    (Cert.ReferenceIdeal.RefTerm.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) : Cert.KernelIdeal.S100000.Idx → EReal)
      = (Cert.KernelIdeal.Gen.W7 m ρ c (Proc.devRef .tc Cert.KernelIdeal.main_v39) : Cert.KernelIdeal.S100000.Idx → EReal) := by
  obtain ⟨h0, h3, h4, h5, h6, -, -, -, -⟩ := Cert.Finite.real_of_pre _ _ _ _ _ _ _ _ _ _ _ hpre
  funext i
  obtain ⟨v, rfl⟩ : ∃ v : Fin 100000, i = ix1 v := ⟨i 0, eq_ix1 i⟩
  refine (Cert.ReferenceIdeal.RRead.result_apply _ _ _ _ _ _ _ _ _ _ v).trans ?_
  refine (GcnModel.bridge _ _ _ _ _ _ _ _ _ _ _ h0 h3 h4 h5 h6 v).trans ?_
  exact (Cert.KernelIdeal.KVal.value m ρ c v).symm

theorem algebraic : Cert.algebraic_KernelIdeal_ReferenceIdeal := by
  intro m ρ m' ρ' hpre hagree
  refine ⟨fun c => Cert.KernelIdeal.Gen.W7 m ρ c (Proc.devRef .tc Cert.KernelIdeal.main_v39),
    Cert.KernelIdeal.KRun.run_val m ρ, ?_⟩
  refine (θ_run Cert.ReferenceIdeal.defs _ _).mono (fun r h c => ⟨(h c).1.trans ?_, (h c).2⟩)
    (Cert.ReferenceIdeal.RefRun.run m' ρ')
  obtain ⟨e0, e1, -, e3, e4, e5, e6, e7, e8, e9, e10⟩ := hagree c
  rw [e0, e1, e3, e4, e5, e6, e7, e8, e9, e10]
  exact values_eq m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
